-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v154)) (v1 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_v158) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_v236) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x6 : Shape := ⟨2, ![64, 6]⟩
abbrev S6 : Shape := ⟨1, ![6]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part5 {F : FTy → Type} [FloatOps F] (main_arg8 : FVec F S3x64 .f32) (main_arg14 : FVec F S3x64 .f32) (main_v83 : IVec S_ 1) (main_v84 : FVec F S3x64 .f32) : IVec S_ 1 :=
  let main_v85 : IVec S3x64 1 := cmpf .oge main_arg8 main_v84
  let main_c_33 : IVec S_ 1 := constantI S_ 1 1#1
  let main_v86 : IVec S_ 1 := (fun x v => Host.reduce IntOp.andi x v reducesTo_S3x64_S_d0_1 h_S_) main_v85 main_c_33
  let main_v87 : IVec S_ 1 := andi main_v83 main_v86
  let main_cst_34 : FVec F S_ .f32 := constant S_ .f32 0x00000000#32
  let main_v88 : FVec F S3x64 .f32 := broadcastInDim S3x64 ![] bcast_S_S3x64 main_cst_34
  let main_v89 : IVec S3x64 1 := cmpf .oge main_arg14 main_v88
  let main_c_35 : IVec S_ 1 := constantI S_ 1 1#1
  let main_v90 : IVec S_ 1 := (fun x v => Host.reduce IntOp.andi x v reducesTo_S3x64_S_d0_1 h_S_) main_v89 main_c_35
  let main_v91 : IVec S_ 1 := andi main_v87 main_v90
  main_v91

def fn_part4 {F : FTy → Type} [FloatOps F] (main_arg8 : FVec F S3x64 .f32) (main_arg14 : FVec F S3x64 .f32) (main_arg16 : FVec F S6 .f32) (main_arg17 : FVec F S64x6 .f32) (main_arg18 : FVec F S6 .f32) (main_v63 : IVec S_ 1) (main_v67 : IVec S_ 1) : IVec S_ 1 :=
  let main_v68 : IVec S_ 1 := andi main_v63 main_v67
  let main_v69 : FVec F S6 .f32 := Host.absf main_arg16
  let main_cst_26 : FVec F S_ .f32 := constant S_ .f32 0x7F800000#32
  let main_v70 : FVec F S6 .f32 := broadcastInDim S6 ![] bcast_S_S6 main_cst_26
  let main_v71 : IVec S6 1 := cmpf .olt main_v69 main_v70
  let main_c_27 : IVec S_ 1 := constantI S_ 1 1#1
  let main_v72 : IVec S_ 1 := (fun x v => Host.reduce IntOp.andi x v reducesTo_S6_S_d0 h_S_) main_v71 main_c_27
  let main_v73 : IVec S_ 1 := andi main_v68 main_v72
  let main_v74 : FVec F S64x6 .f32 := Host.absf main_arg17
  let main_cst_28 : FVec F S_ .f32 := constant S_ .f32 0x7F800000#32
  let main_v75 : FVec F S64x6 .f32 := broadcastInDim S64x6 ![] bcast_S_S64x6 main_cst_28
  let main_v76 : IVec S64x6 1 := cmpf .olt main_v74 main_v75
  let main_c_29 : IVec S_ 1 := constantI S_ 1 1#1
  let main_v77 : IVec S_ 1 := (fun x v => Host.reduce IntOp.andi x v reducesTo_S64x6_S_d0_1 h_S_) main_v76 main_c_29
  let main_v78 : IVec S_ 1 := andi main_v73 main_v77
  let main_v79 : FVec F S6 .f32 := Host.absf main_arg18
  let main_cst_30 : FVec F S_ .f32 := constant S_ .f32 0x7F800000#32
  let main_v80 : FVec F S6 .f32 := broadcastInDim S6 ![] bcast_S_S6 main_cst_30
  let main_v81 : IVec S6 1 := cmpf .olt main_v79 main_v80
  let main_c_31 : IVec S_ 1 := constantI S_ 1 1#1
  let main_v82 : IVec S_ 1 := (fun x v => Host.reduce IntOp.andi x v reducesTo_S6_S_d0 h_S_) main_v81 main_c_31
  let main_v83 : IVec S_ 1 := andi main_v78 main_v82
  let main_cst_32 : FVec F S_ .f32 := constant S_ .f32 0x00000000#32
  let main_v84 : FVec F S3x64 .f32 := broadcastInDim S3x64 ![] bcast_S_S3x64 main_cst_32
  fn_part5 (F := F) main_arg8 main_arg14 main_v83 main_v84

def fn_part3 {F : FTy → Type} [FloatOps F] (main_arg8 : FVec F S3x64 .f32) (main_arg13 : FVec F S3x64 .f32) (main_arg14 : FVec F S3x64 .f32) (main_arg15 : FVec F S64x6 .f32) (main_arg16 : FVec F S6 .f32) (main_arg17 : FVec F S64x6 .f32) (main_arg18 : FVec F S6 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64 .f32 := Host.absf main_arg14
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S64x6 .f32 := Host.absf main_arg15
  let main_cst_24 : FVec F S_ .f32 := constant S_ .f32 0x7F800000#32
  let main_v65 : FVec F S64x6 .f32 := broadcastInDim S64x6 ![] bcast_S_S64x6 main_cst_24
  let main_v66 : IVec S64x6 1 := cmpf .olt main_v64 main_v65
  let main_c_25 : IVec S_ 1 := constantI S_ 1 1#1
  let main_v67 : IVec S_ 1 := (fun x v => Host.reduce IntOp.andi x v reducesTo_S64x6_S_d0_1 h_S_) main_v66 main_c_25
  fn_part4 (F := F) main_arg8 main_arg14 main_arg16 main_arg17 main_arg18 main_v63 main_v67

def fn_part2 {F : FTy → Type} [FloatOps F] (main_arg8 : FVec F S3x64 .f32) (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S64x6 .f32) (main_arg16 : FVec F S6 .f32) (main_arg17 : FVec F S64x6 .f32) (main_arg18 : FVec F S6 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg8 main_arg13 main_arg14 main_arg15 main_arg16 main_arg17 main_arg18 main_v48 main_v49 main_v50

def fn_part1 {F : FTy → Type} [FloatOps F] (main_arg6 : FVec F S3x64 .f32) (main_arg7 : FVec F S3x64 .f32) (main_arg8 : FVec F S3x64 .f32) (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S64x6 .f32) (main_arg16 : FVec F S6 .f32) (main_arg17 : FVec F S64x6 .f32) (main_arg18 : FVec F S6 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x64 .f32) (main_arg1 : IVec S2x1600000 32) (main_arg2 : IVec S100000 32) (main_arg3 : FVec F S3x64x64 .f32) (main_arg4 : FVec F S3x64 .f32) (main_arg5 : FVec F S3x64 .f32) (main_arg6 : FVec F S3x64 .f32) (main_arg7 : FVec F S3x64 .f32) (main_arg8 : FVec F S3x64 .f32) (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S64x6 .f32) (main_arg16 : FVec F S6 .f32) (main_arg17 : FVec F S64x6 .f32) (main_arg18 : FVec F S6 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x6 : Shape := ⟨2, ![64, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S16x64 : Shape := ⟨2, ![16, 64]⟩
abbrev S100000x1 : Shape := ⟨2, ![100000, 1]⟩
abbrev S16 : Shape := ⟨1, ![16]⟩
abbrev S16x1 : Shape := ⟨2, ![16, 1]⟩
abbrev S16x6 : Shape := ⟨2, ![16, 6]⟩
abbrev S1x6 : Shape := ⟨2, ![1, 6]⟩

abbrev nBuf : Space → Nat
  | .hbm => 191
  | .vmem => 54
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S3x64, .f32⟩
  | 8 => ⟨S3x64, .f32⟩
  | 9 => ⟨S3x64x64, .f32⟩
  | 10 => ⟨S3x64, .f32⟩
  | 11 => ⟨S3x64, .f32⟩
  | 12 => ⟨S3x64, .f32⟩
  | 13 => ⟨S3x64, .f32⟩
  | 14 => ⟨S3x64, .f32⟩
  | 15 => ⟨S64x6, .f32⟩
  | 16 => ⟨S6, .f32⟩
  | 17 => ⟨S64x6, .f32⟩
  | 18 => ⟨S6, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S_, .f32⟩
  | 33 => ⟨S100000x64, .f32⟩
  | 34 => ⟨S1600000x1, .i32⟩
  | 35 => ⟨S100000x64, .f32⟩
  | 36 => ⟨S1x64x64, .f32⟩
  | 37 => ⟨S64x64, .f32⟩
  | 38 => ⟨S1x64, .f32⟩
  | 39 => ⟨S64, .f32⟩
  | 40 => ⟨S1x64, .f32⟩
  | 41 => ⟨S64, .f32⟩
  | 42 => ⟨S1x64, .f32⟩
  | 43 => ⟨S64, .f32⟩
  | 44 => ⟨S1x64, .f32⟩
  | 45 => ⟨S64, .f32⟩
  | 46 => ⟨S1x64, .f32⟩
  | 47 => ⟨S64, .f32⟩
  | 48 => ⟨S1x64x64, .f32⟩
  | 49 => ⟨S64x64, .f32⟩
  | 50 => ⟨S1x64, .f32⟩
  | 51 => ⟨S64, .f32⟩
  | 52 => ⟨S1x64, .f32⟩
  | 53 => ⟨S64, .f32⟩
  | 54 => ⟨S1x64, .f32⟩
  | 55 => ⟨S64, .f32⟩
  | 56 => ⟨S1x64, .f32⟩
  | 57 => ⟨S64, .f32⟩
  | 58 => ⟨S1x64, .f32⟩
  | 59 => ⟨S64, .f32⟩
  | 60 => ⟨S1x64, .f32⟩
  | 61 => ⟨S1x64, .f32⟩
  | 62 => ⟨S1x64, .f32⟩
  | 63 => ⟨S1x64, .f32⟩
  | 64 => ⟨S1x64, .f32⟩
  | 65 => ⟨S1x64, .f32⟩
  | 66 => ⟨S1x64, .f32⟩
  | 67 => ⟨S1x64, .f32⟩
  | 68 => ⟨S1x64, .f32⟩
  | 69 => ⟨S1x64, .f32⟩
  | 70 => ⟨S100000x64, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .f32⟩
  | 80 => ⟨S_, .f32⟩
  | 81 => ⟨S100000x64, .f32⟩
  | 82 => ⟨S1600000x1, .i32⟩
  | 83 => ⟨S100000x64, .f32⟩
  | 84 => ⟨S1x64x64, .f32⟩
  | 85 => ⟨S64x64, .f32⟩
  | 86 => ⟨S1x64, .f32⟩
  | 87 => ⟨S64, .f32⟩
  | 88 => ⟨S1x64, .f32⟩
  | 89 => ⟨S64, .f32⟩
  | 90 => ⟨S1x64, .f32⟩
  | 91 => ⟨S64, .f32⟩
  | 92 => ⟨S1x64, .f32⟩
  | 93 => ⟨S64, .f32⟩
  | 94 => ⟨S1x64, .f32⟩
  | 95 => ⟨S64, .f32⟩
  | 96 => ⟨S1x64x64, .f32⟩
  | 97 => ⟨S64x64, .f32⟩
  | 98 => ⟨S1x64, .f32⟩
  | 99 => ⟨S64, .f32⟩
  | 100 => ⟨S1x64, .f32⟩
  | 101 => ⟨S64, .f32⟩
  | 102 => ⟨S1x64, .f32⟩
  | 103 => ⟨S64, .f32⟩
  | 104 => ⟨S1x64, .f32⟩
  | 105 => ⟨S64, .f32⟩
  | 106 => ⟨S1x64, .f32⟩
  | 107 => ⟨S64, .f32⟩
  | 108 => ⟨S1x64, .f32⟩
  | 109 => ⟨S1x64, .f32⟩
  | 110 => ⟨S1x64, .f32⟩
  | 111 => ⟨S1x64, .f32⟩
  | 112 => ⟨S1x64, .f32⟩
  | 113 => ⟨S1x64, .f32⟩
  | 114 => ⟨S1x64, .f32⟩
  | 115 => ⟨S1x64, .f32⟩
  | 116 => ⟨S1x64, .f32⟩
  | 117 => ⟨S1x64, .f32⟩
  | 118 => ⟨S100000x64, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S100000x64, .f32⟩

abbrev hbmTy0_1 (i : Nat) : BufTy := match i % 128 with
  | 0 => ⟨S_, .f32⟩
  | 1 => ⟨S100000x64, .f32⟩
  | 2 => ⟨S1600000x1, .i32⟩
  | 3 => ⟨S100000x64, .f32⟩
  | 4 => ⟨S1x64x64, .f32⟩
  | 5 => ⟨S64x64, .f32⟩
  | 6 => ⟨S1x64, .f32⟩
  | 7 => ⟨S64, .f32⟩
  | 8 => ⟨S1x64, .f32⟩
  | 9 => ⟨S64, .f32⟩
  | 10 => ⟨S1x64, .f32⟩
  | 11 => ⟨S64, .f32⟩
  | 12 => ⟨S1x64, .f32⟩
  | 13 => ⟨S64, .f32⟩
  | 14 => ⟨S1x64, .f32⟩
  | 15 => ⟨S64, .f32⟩
  | 16 => ⟨S1x64x64, .f32⟩
  | 17 => ⟨S64x64, .f32⟩
  | 18 => ⟨S1x64, .f32⟩
  | 19 => ⟨S64, .f32⟩
  | 20 => ⟨S1x64, .f32⟩
  | 21 => ⟨S64, .f32⟩
  | 22 => ⟨S1x64, .f32⟩
  | 23 => ⟨S64, .f32⟩
  | 24 => ⟨S1x64, .f32⟩
  | 25 => ⟨S64, .f32⟩
  | 26 => ⟨S1x64, .f32⟩
  | 27 => ⟨S64, .f32⟩
  | 28 => ⟨S1x64, .f32⟩
  | 29 => ⟨S1x64, .f32⟩
  | 30 => ⟨S1x64, .f32⟩
  | 31 => ⟨S1x64, .f32⟩
  | 32 => ⟨S1x64, .f32⟩
  | 33 => ⟨S1x64, .f32⟩
  | 34 => ⟨S1x64, .f32⟩
  | 35 => ⟨S1x64, .f32⟩
  | 36 => ⟨S1x64, .f32⟩
  | 37 => ⟨S1x64, .f32⟩
  | 38 => ⟨S100000x64, .f32⟩
  | 39 => ⟨S_, .f32⟩
  | 40 => ⟨S16x64, .f32⟩
  | 41 => ⟨S100000x1, .i32⟩
  | 42 => ⟨S16x64, .f32⟩
  | 43 => ⟨S_, .f32⟩
  | 44 => ⟨S100000, .f32⟩
  | 45 => ⟨S_, .f32⟩
  | 46 => ⟨S16, .f32⟩
  | 47 => ⟨S100000x1, .i32⟩
  | 48 => ⟨S16, .f32⟩
  | 49 => ⟨S_, .f32⟩
  | 50 => ⟨S16, .f32⟩
  | 51 => ⟨S16, .f32⟩
  | 52 => ⟨S16x1, .f32⟩
  | 53 => ⟨S16x64, .f32⟩
  | 54 => ⟨S16x64, .f32⟩
  | 55 => ⟨S16x6, .f32⟩
  | 56 => ⟨S1x6, .f32⟩
  | 57 => ⟨S16x6, .f32⟩
  | 58 => ⟨S16x6, .f32⟩
  | 59 => ⟨S16x6, .f32⟩
  | 60 => ⟨S1x6, .f32⟩
  | 61 => ⟨S16x6, .f32⟩
  | 62 => ⟨S16x6, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_1 : Ref sig .tc := ⟨.hbm, 71, rfl⟩
abbrev main_v49 : Ref sig .tc := ⟨.hbm, 72, rfl⟩
abbrev main_v50 : Ref sig .tc := ⟨.hbm, 73, rfl⟩
abbrev main_c_2 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_3 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_c_4 : Ref sig .tc := ⟨.hbm, 119, rfl⟩
abbrev main_v94 : Ref sig .tc := ⟨.hbm, 120, rfl⟩
abbrev main_v95 : Ref sig .tc := ⟨.hbm, 121, rfl⟩
abbrev main_c_5 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_6 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_cst_7 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_cst_8 : Ref sig .tc := ⟨.hbm, 171, rfl⟩
abbrev main_v142 : Ref sig .tc := ⟨.hbm, 172, rfl⟩
abbrev main_cst_9 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_10 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg14_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg8_0 : Ref sig .tc := ⟨.vmem, 46, rfl⟩
abbrev cc2_stg9_0 : Ref sig .tc := ⟨.vmem, 47, rfl⟩
abbrev cc2_stg10_0 : Ref sig .tc := ⟨.vmem, 48, rfl⟩
abbrev cc2_stg11_0 : Ref sig .tc := ⟨.vmem, 49, rfl⟩
abbrev cc2_stg12_0 : Ref sig .tc := ⟨.vmem, 50, rfl⟩
abbrev cc2_stg13_0 : Ref sig .tc := ⟨.vmem, 51, rfl⟩
abbrev cc2_stg14_0 : Ref sig .tc := ⟨.vmem, 52, rfl⟩
abbrev cc2_stg14_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem14_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem3_0 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem8_0 : DmaSem sig := 46
abbrev cc2_sem9_0 : DmaSem sig := 47
abbrev cc2_sem10_0 : DmaSem sig := 48
abbrev cc2_sem11_0 : DmaSem sig := 49
abbrev cc2_sem12_0 : DmaSem sig := 50
abbrev cc2_sem13_0 : DmaSem sig := 51
abbrev cc2_sem14_0 : DmaSem sig := 52
abbrev cc2_sem14_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S5000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S5000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S5000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S16x64 : S_.BroadcastsInDim S16x64 (![] : Fin 0 → Fin S16x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S16 : S_.BroadcastsInDim S16 (![] : Fin 0 → Fin S16.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  bcast_S6_S1x6_1 : S6.BroadcastsInDim S1x6 (![1] : Fin 1 → Fin S1x6.rank)
  bcast_S1x6_S16x6_0_1 : S1x6.BroadcastsInDim S16x6 (![0, 1] : Fin 2 → Fin S16x6.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S16x64_S100000x1_S100000x64_1_0_0_1_wf : ScatterDims.WF S16x64 S100000x1 S100000x64 [1] [0] [0] 1
  scatter_S16_S100000x1_S100000_n_0_0_1_wf : ScatterDims.WF S16 S100000x1 S100000 [] [0] [0] 1
  dot_S16x64_S64x6_S16x6_1_0_0_1_n_n_wf : DotDims.WF S16x64 S64x6 S16x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x64.size a ≤ S100000x64.size a
  hwx0_14 : ∀ i : grid0.Coords, EltTy.bits .f32 = 32 ∨ (Rect.block (s := S100000x64) S5000x64.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x64.size a ≤ S100000x64.size a
  hwx1_14 : ∀ i : grid1.Coords, EltTy.bits .f32 = 32 ∨ (Rect.block (s := S100000x64) S5000x64.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S5000x64.size a ≤ S100000x64.size a
  hwx2_14 : ∀ i : grid2.Coords, EltTy.bits .f32 = 32 ∨ (Rect.block (s := S100000x64) S5000x64.size (cc2_transform_14 i) (hinb2_14 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S16x64_S100000x1_S100000x64_1_0_0_1 : ScatterDims S16x64 S100000x1 S100000x64 where
  updateWindowDims := [1]
  insertedWindowDims := [0]
  scatterDimsToOperandDims := [0]
  indexVectorDim := 1
  wf := scatter_S16x64_S100000x1_S100000x64_1_0_0_1_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf
def dot_S16x64_S64x6_S16x6_1_0_0_1_n_n : DotDims S16x64 S64x6 S16x6 where
  lhsContracting := [1]
  rhsContracting := [0]
  lhsNonContracting := [0]
  rhsNonContracting := [1]
  lhsBatch := []
  rhsBatch := []
  wf := dot_S16x64_S64x6_S16x6_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v44) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v45) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v46) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v47) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v48) S5000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v83) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v84) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v85) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v86) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v87) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v72) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v88) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v89) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v90) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v91) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v92) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v93) S5000x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v93) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v103) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v105) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v128) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v129) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v130) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v131) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v132) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v117) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v133) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v134) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v135) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v136) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v137) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v138) S5000x64.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x6 : Shape := ⟨2, ![64, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S16x64 : Shape := ⟨2, ![16, 64]⟩
abbrev S100000x1 : Shape := ⟨2, ![100000, 1]⟩
abbrev S16 : Shape := ⟨1, ![16]⟩
abbrev S16x1 : Shape := ⟨2, ![16, 1]⟩
abbrev S16x6 : Shape := ⟨2, ![16, 6]⟩
abbrev S1x6 : Shape := ⟨2, ![1, 6]⟩

abbrev nBuf : Space → Nat
  | .hbm => 287
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S3x64, .f32⟩
  | 8 => ⟨S3x64, .f32⟩
  | 9 => ⟨S3x64x64, .f32⟩
  | 10 => ⟨S3x64, .f32⟩
  | 11 => ⟨S3x64, .f32⟩
  | 12 => ⟨S3x64, .f32⟩
  | 13 => ⟨S3x64, .f32⟩
  | 14 => ⟨S3x64, .f32⟩
  | 15 => ⟨S64x6, .f32⟩
  | 16 => ⟨S6, .f32⟩
  | 17 => ⟨S64x6, .f32⟩
  | 18 => ⟨S6, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S_, .f32⟩
  | 33 => ⟨S100000x64, .f32⟩
  | 34 => ⟨S1600000x1, .i32⟩
  | 35 => ⟨S100000x64, .f32⟩
  | 36 => ⟨S100000x64, .f32⟩
  | 37 => ⟨S1x64x64, .f32⟩
  | 38 => ⟨S64x64, .f32⟩
  | 39 => ⟨S100000x64, .f32⟩
  | 40 => ⟨S1x64, .f32⟩
  | 41 => ⟨S64, .f32⟩
  | 42 => ⟨S1x64, .f32⟩
  | 43 => ⟨S100000x64, .f32⟩
  | 44 => ⟨S100000x64, .f32⟩
  | 45 => ⟨S1x64, .f32⟩
  | 46 => ⟨S64, .f32⟩
  | 47 => ⟨S1x64, .f32⟩
  | 48 => ⟨S64, .f32⟩
  | 49 => ⟨S1x64, .f32⟩
  | 50 => ⟨S64, .f32⟩
  | 51 => ⟨S1x64, .f32⟩
  | 52 => ⟨S64, .f32⟩
  | 53 => ⟨S1x64, .f32⟩
  | 54 => ⟨S100000x64, .f32⟩
  | 55 => ⟨S100000x64, .f32⟩
  | 56 => ⟨S_, .f32⟩
  | 57 => ⟨S64, .f32⟩
  | 58 => ⟨S64, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S1x64x64, .f32⟩
  | 71 => ⟨S64x64, .f32⟩
  | 72 => ⟨S100000x64, .f32⟩
  | 73 => ⟨S1x64, .f32⟩
  | 74 => ⟨S64, .f32⟩
  | 75 => ⟨S1x64, .f32⟩
  | 76 => ⟨S100000x64, .f32⟩
  | 77 => ⟨S100000x64, .f32⟩
  | 78 => ⟨S1x64, .f32⟩
  | 79 => ⟨S64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S64, .f32⟩
  | 86 => ⟨S1x64, .f32⟩
  | 87 => ⟨S100000x64, .f32⟩
  | 88 => ⟨S100000x64, .f32⟩
  | 89 => ⟨S_, .f32⟩
  | 90 => ⟨S64, .f32⟩
  | 91 => ⟨S64, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S100000x64, .f32⟩
  | 117 => ⟨S1x64x64, .f32⟩
  | 118 => ⟨S64x64, .f32⟩
  | 119 => ⟨S100000x64, .f32⟩
  | 120 => ⟨S1x64, .f32⟩
  | 121 => ⟨S64, .f32⟩
  | 122 => ⟨S1x64, .f32⟩
  | 123 => ⟨S100000x64, .f32⟩
  | 124 => ⟨S100000x64, .f32⟩
  | 125 => ⟨S1x64, .f32⟩
  | 126 => ⟨S64, .f32⟩
  | 127 => ⟨S1x64, .f32⟩
  | _ => ⟨S100000x64, .f32⟩

abbrev hbmTy0_1 (i : Nat) : BufTy := match i % 128 with
  | 0 => ⟨S64, .f32⟩
  | 1 => ⟨S1x64, .f32⟩
  | 2 => ⟨S64, .f32⟩
  | 3 => ⟨S1x64, .f32⟩
  | 4 => ⟨S64, .f32⟩
  | 5 => ⟨S1x64, .f32⟩
  | 6 => ⟨S100000x64, .f32⟩
  | 7 => ⟨S100000x64, .f32⟩
  | 8 => ⟨S_, .f32⟩
  | 9 => ⟨S64, .f32⟩
  | 10 => ⟨S64, .f32⟩
  | 11 => ⟨S64, .f32⟩
  | 12 => ⟨S64, .f32⟩
  | 13 => ⟨S1x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S1x64x64, .f32⟩
  | 23 => ⟨S64x64, .f32⟩
  | 24 => ⟨S100000x64, .f32⟩
  | 25 => ⟨S1x64, .f32⟩
  | 26 => ⟨S64, .f32⟩
  | 27 => ⟨S1x64, .f32⟩
  | 28 => ⟨S100000x64, .f32⟩
  | 29 => ⟨S100000x64, .f32⟩
  | 30 => ⟨S1x64, .f32⟩
  | 31 => ⟨S64, .f32⟩
  | 32 => ⟨S1x64, .f32⟩
  | 33 => ⟨S64, .f32⟩
  | 34 => ⟨S1x64, .f32⟩
  | 35 => ⟨S64, .f32⟩
  | 36 => ⟨S1x64, .f32⟩
  | 37 => ⟨S64, .f32⟩
  | 38 => ⟨S1x64, .f32⟩
  | 39 => ⟨S100000x64, .f32⟩
  | 40 => ⟨S100000x64, .f32⟩
  | 41 => ⟨S_, .f32⟩
  | 42 => ⟨S64, .f32⟩
  | 43 => ⟨S64, .f32⟩
  | 44 => ⟨S64, .f32⟩
  | 45 => ⟨S64, .f32⟩
  | 46 => ⟨S1x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x64, .f32⟩
  | 69 => ⟨S1x64x64, .f32⟩
  | 70 => ⟨S64x64, .f32⟩
  | 71 => ⟨S100000x64, .f32⟩
  | 72 => ⟨S1x64, .f32⟩
  | 73 => ⟨S64, .f32⟩
  | 74 => ⟨S1x64, .f32⟩
  | 75 => ⟨S100000x64, .f32⟩
  | 76 => ⟨S100000x64, .f32⟩
  | 77 => ⟨S1x64, .f32⟩
  | 78 => ⟨S64, .f32⟩
  | 79 => ⟨S1x64, .f32⟩
  | 80 => ⟨S64, .f32⟩
  | 81 => ⟨S1x64, .f32⟩
  | 82 => ⟨S64, .f32⟩
  | 83 => ⟨S1x64, .f32⟩
  | 84 => ⟨S64, .f32⟩
  | 85 => ⟨S1x64, .f32⟩
  | 86 => ⟨S100000x64, .f32⟩
  | 87 => ⟨S100000x64, .f32⟩
  | 88 => ⟨S_, .f32⟩
  | 89 => ⟨S64, .f32⟩
  | 90 => ⟨S64, .f32⟩
  | 91 => ⟨S64, .f32⟩
  | 92 => ⟨S64, .f32⟩
  | 93 => ⟨S1x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S1x64x64, .f32⟩
  | 103 => ⟨S64x64, .f32⟩
  | 104 => ⟨S100000x64, .f32⟩
  | 105 => ⟨S1x64, .f32⟩
  | 106 => ⟨S64, .f32⟩
  | 107 => ⟨S1x64, .f32⟩
  | 108 => ⟨S100000x64, .f32⟩
  | 109 => ⟨S100000x64, .f32⟩
  | 110 => ⟨S1x64, .f32⟩
  | 111 => ⟨S64, .f32⟩
  | 112 => ⟨S1x64, .f32⟩
  | 113 => ⟨S64, .f32⟩
  | 114 => ⟨S1x64, .f32⟩
  | 115 => ⟨S64, .f32⟩
  | 116 => ⟨S1x64, .f32⟩
  | 117 => ⟨S64, .f32⟩
  | 118 => ⟨S1x64, .f32⟩
  | 119 => ⟨S100000x64, .f32⟩
  | 120 => ⟨S100000x64, .f32⟩
  | 121 => ⟨S_, .f32⟩
  | 122 => ⟨S64, .f32⟩
  | 123 => ⟨S64, .f32⟩
  | 124 => ⟨S64, .f32⟩
  | 125 => ⟨S64, .f32⟩
  | 126 => ⟨S1x64, .f32⟩
  | 127 => ⟨S100000x64, .f32⟩
  | _ => ⟨S100000x64, .f32⟩

abbrev hbmTy0_2 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S_, .f32⟩
  | 8 => ⟨S16x64, .f32⟩
  | 9 => ⟨S100000x1, .i32⟩
  | 10 => ⟨S16x64, .f32⟩
  | 11 => ⟨S_, .f32⟩
  | 12 => ⟨S100000, .f32⟩
  | 13 => ⟨S_, .f32⟩
  | 14 => ⟨S16, .f32⟩
  | 15 => ⟨S100000x1, .i32⟩
  | 16 => ⟨S16, .f32⟩
  | 17 => ⟨S_, .f32⟩
  | 18 => ⟨S16, .f32⟩
  | 19 => ⟨S16, .f32⟩
  | 20 => ⟨S16x1, .f32⟩
  | 21 => ⟨S16x64, .f32⟩
  | 22 => ⟨S16x64, .f32⟩
  | 23 => ⟨S16x6, .f32⟩
  | 24 => ⟨S1x6, .f32⟩
  | 25 => ⟨S16x6, .f32⟩
  | 26 => ⟨S16x6, .f32⟩
  | 27 => ⟨S16x6, .f32⟩
  | 28 => ⟨S1x6, .f32⟩
  | 29 => ⟨S16x6, .f32⟩
  | 30 => ⟨S16x6, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_1 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call0_cst : Ref sig .tc := ⟨.hbm, 67, rfl⟩
abbrev main_call0_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_2 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_call1_cst : Ref sig .tc := ⟨.hbm, 100, rfl⟩
abbrev main_call1_v0 : Ref sig .tc := ⟨.hbm, 101, rfl⟩
abbrev main_v74 : Ref sig .tc := ⟨.hbm, 102, rfl⟩
abbrev main_c_3 : Ref sig .tc := ⟨.hbm, 103, rfl⟩
abbrev main_v75 : Ref sig .tc := ⟨.hbm, 104, rfl⟩
abbrev main_v76 : Ref sig .tc := ⟨.hbm, 105, rfl⟩
abbrev main_c_4 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_5 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_6 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_call2_cst : Ref sig .tc := ⟨.hbm, 147, rfl⟩
abbrev main_call2_v0 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_7 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_call3_cst : Ref sig .tc := ⟨.hbm, 180, rfl⟩
abbrev main_call3_v0 : Ref sig .tc := ⟨.hbm, 181, rfl⟩
abbrev main_v145 : Ref sig .tc := ⟨.hbm, 182, rfl⟩
abbrev main_c_8 : Ref sig .tc := ⟨.hbm, 183, rfl⟩
abbrev main_v146 : Ref sig .tc := ⟨.hbm, 184, rfl⟩
abbrev main_v147 : Ref sig .tc := ⟨.hbm, 185, rfl⟩
abbrev main_c_9 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_10 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_cst_11 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_call4_cst : Ref sig .tc := ⟨.hbm, 227, rfl⟩
abbrev main_call4_v0 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_cst_12 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_call5_cst : Ref sig .tc := ⟨.hbm, 260, rfl⟩
abbrev main_call5_v0 : Ref sig .tc := ⟨.hbm, 261, rfl⟩
abbrev main_v216 : Ref sig .tc := ⟨.hbm, 262, rfl⟩
abbrev main_cst_13 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_cst_14 : Ref sig .tc := ⟨.hbm, 267, rfl⟩
abbrev main_v220 : Ref sig .tc := ⟨.hbm, 268, rfl⟩
abbrev main_cst_15 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_cst_16 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S16x64 : S_.BroadcastsInDim S16x64 (![] : Fin 0 → Fin S16x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S16 : S_.BroadcastsInDim S16 (![] : Fin 0 → Fin S16.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  bcast_S6_S1x6_1 : S6.BroadcastsInDim S1x6 (![1] : Fin 1 → Fin S1x6.rank)
  bcast_S1x6_S16x6_0_1 : S1x6.BroadcastsInDim S16x6 (![0, 1] : Fin 2 → Fin S16x6.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S16x64_S100000x1_S100000x64_1_0_0_1_wf : ScatterDims.WF S16x64 S100000x1 S100000x64 [1] [0] [0] 1
  scatter_S16_S100000x1_S100000_n_0_0_1_wf : ScatterDims.WF S16 S100000x1 S100000 [] [0] [0] 1
  dot_S16x64_S64x6_S16x6_1_0_0_1_n_n_wf : DotDims.WF S16x64 S64x6 S16x6 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S16x64_S100000x1_S100000x64_1_0_0_1 : ScatterDims S16x64 S100000x1 S100000x64 where
  updateWindowDims := [1]
  insertedWindowDims := [0]
  scatterDimsToOperandDims := [0]
  indexVectorDim := 1
  wf := scatter_S16x64_S100000x1_S100000x64_1_0_0_1_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf
def dot_S16x64_S64x6_S16x6_1_0_0_1_n_n : DotDims S16x64 S64x6 S16x6 where
  lhsContracting := [1]
  rhsContracting := [0]
  lhsNonContracting := [0]
  rhsNonContracting := [1]
  lhsBatch := []
  rhsBatch := []
  wf := dot_S16x64_S64x6_S16x6_1_0_0_1_n_n_wf

class Facts : Prop extends Facts₀ where

variable [Facts]
-- ==== Proof.GinHost.lean ====
/-
  The array-level functions both programs share, each stated once, and the reference's values as compositions of them:

  * the two columns of the edge list (source and destination node of every edge) and slice ℓ of a stacked parameter
    array, a [3, 64, 64] stack giving a [64, 64] matrix and a [3, 64] stack a [64] vector;
  * the neighbourhood sum of the node features: the source column (a negative index wrapped by the number of nodes)
    gathers a row per edge, and the rows are summed into their destination nodes, starting from zero;
  * one layer on whole arrays in the host's spelling: two stages of linear map, batch normalisation with the scale
    γ / sqrt(σ² + ε), and rectifier, applied to the features plus the neighbourhood sums;
  * an output head: the node features summed per graph and divided by the graph's node count (at least one), times a
    [64, 6] matrix, plus a bias.

  The network is three layers, each fed the previous layer's output, its neighbourhood sums and slice ℓ of the twelve
  parameter stacks, then the two heads on the third layer's output. An entry of slice ℓ of a [3, 64] stack, as a [64]
  vector, is the stack's entry (ℓ, q); so a stack that is entrywise ≥ 0 has every slice entrywise ≥ 0.
-/
import proofs.«113432_j76991583748727_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gin.Host

open Cert.ReferenceIdeal Cert.ReferenceIdeal.Gen Idealize.ShloMosaic Idealize.ShloMosaic.TcCoe Idealize.SL.Sem Idealize.ShloMosaic.ValueIdx

variable {F : FTy → Type} [FloatOps F]

/-- The source node of every edge. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The destination node of every edge. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Slice 0 of a stack of matrices. -/
def matOf0 (x : (⟨S3x64x64, .f32⟩ : BufTy).Contents (Elt F)) : (⟨S64x64, .f32⟩ : BufTy).Contents (Elt F) :=
  shapeCast _ (extractStridedSlice S1x64x64 ![0, 0, 0] x slices_S3x64x64_S1x64x64_0_0_0) shapeCasts_S1x64x64_S64x64

/-- Slice 0 of a stack of vectors. -/
def vecOf0 (x : (⟨S3x64, .f32⟩ : BufTy).Contents (Elt F)) : (⟨S64, .f32⟩ : BufTy).Contents (Elt F) :=
  shapeCast _ (extractStridedSlice S1x64 ![0, 0] x slices_S3x64_S1x64_0_0) shapeCasts_S1x64_S64

/-- Slice 1 of a stack of matrices. -/
def matOf1 (x : (⟨S3x64x64, .f32⟩ : BufTy).Contents (Elt F)) : (⟨S64x64, .f32⟩ : BufTy).Contents (Elt F) :=
  shapeCast _ (extractStridedSlice S1x64x64 ![1, 0, 0] x slices_S3x64x64_S1x64x64_1_0_0) shapeCasts_S1x64x64_S64x64

/-- Slice 1 of a stack of vectors. -/
def vecOf1 (x : (⟨S3x64, .f32⟩ : BufTy).Contents (Elt F)) : (⟨S64, .f32⟩ : BufTy).Contents (Elt F) :=
  shapeCast _ (extractStridedSlice S1x64 ![1, 0] x slices_S3x64_S1x64_1_0) shapeCasts_S1x64_S64

/-- Slice 2 of a stack of matrices. -/
def matOf2 (x : (⟨S3x64x64, .f32⟩ : BufTy).Contents (Elt F)) : (⟨S64x64, .f32⟩ : BufTy).Contents (Elt F) :=
  shapeCast _ (extractStridedSlice S1x64x64 ![2, 0, 0] x slices_S3x64x64_S1x64x64_2_0_0) shapeCasts_S1x64x64_S64x64

/-- Slice 2 of a stack of vectors. -/
def vecOf2 (x : (⟨S3x64, .f32⟩ : BufTy).Contents (Elt F)) : (⟨S64, .f32⟩ : BufTy).Contents (Elt F) :=
  shapeCast _ (extractStridedSlice S1x64 ![2, 0] x slices_S3x64_S1x64_2_0) shapeCasts_S1x64_S64

/-- The neighbourhood sums of the node features `h` along the edge list `e`. -/
def aggOf (h : (⟨S100000x64, .f32⟩ : BufTy).Contents (Elt F)) (e : (⟨S2x1600000, .i32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant (F := F) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x64_S1600000x1_S1600000x64_1_0_n_n_0_1_164 h (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))

/-- One layer on whole arrays, the scale spelt γ / sqrt(σ² + ε). -/
def layerR (h a : (⟨S100000x64, .f32⟩ : BufTy).Contents (Elt F)) (W1 : (⟨S64x64, .f32⟩ : BufTy).Contents (Elt F)) (b1 g1 be1 m1 v1 : (⟨S64, .f32⟩ : BufTy).Contents (Elt F))
    (W2 : (⟨S64x64, .f32⟩ : BufTy).Contents (Elt F)) (b2 g2 be2 m2 v2 : (⟨S64, .f32⟩ : BufTy).Contents (Elt F)) : (⟨S100000x64, .f32⟩ : BufTy).Contents (Elt F) :=
  maximumf (addf (mulf (subf (addf (Host.dotGeneral dot_S100000x64_S64x64_S100000x64_1_0_0_1_n_n none (maximumf (addf (mulf (subf (addf (Host.dotGeneral dot_S100000x64_S64x64_S100000x64_1_0_0_1_n_n none (addf h a) W1) (broadcastInDim S100000x64 ![0, 1] bcast_S1x64_S100000x64_0_1 (broadcastInDim S1x64 ![1] bcast_S64_S1x64_1 b1))) (broadcastInDim S100000x64 ![0, 1] bcast_S1x64_S100000x64_0_1 (broadcastInDim S1x64 ![1] bcast_S64_S1x64_1 m1))) (broadcastInDim S100000x64 ![0, 1] bcast_S1x64_S100000x64_0_1 (broadcastInDim S1x64 ![1] bcast_S64_S1x64_1 (Host.divf g1 (Host.sqrt (addf v1 (broadcastInDim S64 ![] bcast_S_S64 (constant (F := F) S_ .f32 0x3727C5AC#32)))))))) (broadcastInDim S100000x64 ![0, 1] bcast_S1x64_S100000x64_0_1 (broadcastInDim S1x64 ![1] bcast_S64_S1x64_1 be1))) (broadcastInDim S100000x64 ![] bcast_S_S100000x64 (constant (F := F) S_ .f32 0x00000000#32))) W2) (broadcastInDim S100000x64 ![0, 1] bcast_S1x64_S100000x64_0_1 (broadcastInDim S1x64 ![1] bcast_S64_S1x64_1 b2))) (broadcastInDim S100000x64 ![0, 1] bcast_S1x64_S100000x64_0_1 (broadcastInDim S1x64 ![1] bcast_S64_S1x64_1 m2))) (broadcastInDim S100000x64 ![0, 1] bcast_S1x64_S100000x64_0_1 (broadcastInDim S1x64 ![1] bcast_S64_S1x64_1 (Host.divf g2 (Host.sqrt (addf v2 (broadcastInDim S64 ![] bcast_S_S64 (constant (F := F) S_ .f32 0x3727C5AC#32)))))))) (broadcastInDim S100000x64 ![0, 1] bcast_S1x64_S100000x64_0_1 (broadcastInDim S1x64 ![1] bcast_S64_S1x64_1 be2))) (broadcastInDim S100000x64 ![] bcast_S_S100000x64 (constant (F := F) S_ .f32 0x00000000#32))

/-- One output head on the per-graph means of the node features. -/
def headOf (h : (⟨S100000x64, .f32⟩ : BufTy).Contents (Elt F)) (batch : (⟨S100000, .i32⟩ : BufTy).Contents (Elt F)) (w : (⟨S64x6, .f32⟩ : BufTy).Contents (Elt F)) (b : (⟨S6, .f32⟩ : BufTy).Contents (Elt F)) : (⟨S16x6, .f32⟩ : BufTy).Contents (Elt F) :=
  addf (Host.dotGeneral dot_S16x64_S64x6_S16x6_1_0_0_1_n_n none (Host.divf (Host.scatterAdd scatter_S16x64_S100000x1_S100000x64_1_0_0_1 (broadcastInDim S16x64 ![] bcast_S_S16x64 (constant (F := F) S_ .f32 0x00000000#32)) (broadcastInDim S100000x1 ![0] bcast_S100000_S100000x1_0 batch) h) (broadcastInDim S16x64 ![0, 1] bcast_S16x1_S16x64_0_1 (broadcastInDim S16x1 ![0] bcast_S16_S16x1_0 (maximumf (Host.scatterAdd scatter_S16_S100000x1_S100000_n_0_0_1 (broadcastInDim S16 ![] bcast_S_S16 (constant (F := F) S_ .f32 0x00000000#32)) (broadcastInDim S100000x1 ![0] bcast_S100000_S100000x1_0 batch) (broadcastInDim S100000 ![] bcast_S_S100000 (constant (F := F) S_ .f32 0x3F800000#32))) (broadcastInDim S16 ![] bcast_S_S16 (constant (F := F) S_ .f32 0x3F800000#32)))))) w) (broadcastInDim S16x6 ![0, 1] bcast_S1x6_S16x6_0_1 (broadcastInDim S1x6 ![1] bcast_S6_S1x6_1 b))

/-- The first layer's output. -/
def refH1 (x0 : (⟨S100000x64, .f32⟩ : BufTy).Contents (Elt F)) (x1 : (⟨S2x1600000, .i32⟩ : BufTy).Contents (Elt F)) (x3 : (⟨S3x64x64, .f32⟩ : BufTy).Contents (Elt F)) (x4 x5 x6 x7 x8 : (⟨S3x64, .f32⟩ : BufTy).Contents (Elt F)) (x9 : (⟨S3x64x64, .f32⟩ : BufTy).Contents (Elt F)) (x10 x11 x12 x13 x14 : (⟨S3x64, .f32⟩ : BufTy).Contents (Elt F)) : (⟨S100000x64, .f32⟩ : BufTy).Contents (Elt F) :=
  layerR x0 (aggOf x0 x1) (matOf0 x3) (vecOf0 x4) (vecOf0 x5) (vecOf0 x6) (vecOf0 x7) (vecOf0 x8) (matOf0 x9) (vecOf0 x10) (vecOf0 x11) (vecOf0 x12) (vecOf0 x13) (vecOf0 x14)

/-- The second layer's output. -/
def refH2 (x0 : (⟨S100000x64, .f32⟩ : BufTy).Contents (Elt F)) (x1 : (⟨S2x1600000, .i32⟩ : BufTy).Contents (Elt F)) (x3 : (⟨S3x64x64, .f32⟩ : BufTy).Contents (Elt F)) (x4 x5 x6 x7 x8 : (⟨S3x64, .f32⟩ : BufTy).Contents (Elt F)) (x9 : (⟨S3x64x64, .f32⟩ : BufTy).Contents (Elt F)) (x10 x11 x12 x13 x14 : (⟨S3x64, .f32⟩ : BufTy).Contents (Elt F)) : (⟨S100000x64, .f32⟩ : BufTy).Contents (Elt F) :=
  layerR (refH1 x0 x1 x3 x4 x5 x6 x7 x8 x9 x10 x11 x12 x13 x14) (aggOf (refH1 x0 x1 x3 x4 x5 x6 x7 x8 x9 x10 x11 x12 x13 x14) x1) (matOf1 x3) (vecOf1 x4) (vecOf1 x5) (vecOf1 x6) (vecOf1 x7) (vecOf1 x8) (matOf1 x9) (vecOf1 x10) (vecOf1 x11) (vecOf1 x12) (vecOf1 x13) (vecOf1 x14)

/-- The third layer's output. -/
def refH3 (x0 : (⟨S100000x64, .f32⟩ : BufTy).Contents (Elt F)) (x1 : (⟨S2x1600000, .i32⟩ : BufTy).Contents (Elt F)) (x3 : (⟨S3x64x64, .f32⟩ : BufTy).Contents (Elt F)) (x4 x5 x6 x7 x8 : (⟨S3x64, .f32⟩ : BufTy).Contents (Elt F)) (x9 : (⟨S3x64x64, .f32⟩ : BufTy).Contents (Elt F)) (x10 x11 x12 x13 x14 : (⟨S3x64, .f32⟩ : BufTy).Contents (Elt F)) : (⟨S100000x64, .f32⟩ : BufTy).Contents (Elt F) :=
  layerR (refH2 x0 x1 x3 x4 x5 x6 x7 x8 x9 x10 x11 x12 x13 x14) (aggOf (refH2 x0 x1 x3 x4 x5 x6 x7 x8 x9 x10 x11 x12 x13 x14) x1) (matOf2 x3) (vecOf2 x4) (vecOf2 x5) (vecOf2 x6) (vecOf2 x7) (vecOf2 x8) (matOf2 x9) (vecOf2 x10) (vecOf2 x11) (vecOf2 x12) (vecOf2 x13) (vecOf2 x14)

/-- A result of the network: a head on the third layer's output. -/
def refOut (x0 : (⟨S100000x64, .f32⟩ : BufTy).Contents (Elt F)) (x1 : (⟨S2x1600000, .i32⟩ : BufTy).Contents (Elt F)) (x3 : (⟨S3x64x64, .f32⟩ : BufTy).Contents (Elt F)) (x4 x5 x6 x7 x8 : (⟨S3x64, .f32⟩ : BufTy).Contents (Elt F)) (x9 : (⟨S3x64x64, .f32⟩ : BufTy).Contents (Elt F)) (x10 x11 x12 x13 x14 : (⟨S3x64, .f32⟩ : BufTy).Contents (Elt F)) (batch : (⟨S100000, .i32⟩ : BufTy).Contents (Elt F)) (w : (⟨S64x6, .f32⟩ : BufTy).Contents (Elt F)) (b : (⟨S6, .f32⟩ : BufTy).Contents (Elt F)) : (⟨S16x6, .f32⟩ : BufTy).Contents (Elt F) :=
  headOf (refH3 x0 x1 x3 x4 x5 x6 x7 x8 x9 x10 x11 x12 x13 x14) batch w b

/-- Every entry of slice 0 of an entrywise non-negative stack is ≥ 0. -/
theorem vecOf0_nonneg (x : FVec Ideal S3x64 .f32) (hx : ∀ j : S3x64.Idx, (0 : EReal) ≤ x j) (q : Fin 64) :
    (0 : EReal) ≤ vecOf0 (F := Ideal) x (ix1 q) := by
  unfold vecOf0
  rw [shapeCast_1a_a_apply, slice2_axis0_apply 0 x slices_S3x64_S1x64_0_0 (0 : Fin 1) q (⟨0, by decide⟩ : Fin 3) rfl]
  exact hx _

/-- Every entry of slice 1 of an entrywise non-negative stack is ≥ 0. -/
theorem vecOf1_nonneg (x : FVec Ideal S3x64 .f32) (hx : ∀ j : S3x64.Idx, (0 : EReal) ≤ x j) (q : Fin 64) :
    (0 : EReal) ≤ vecOf1 (F := Ideal) x (ix1 q) := by
  unfold vecOf1
  rw [shapeCast_1a_a_apply, slice2_axis0_apply 1 x slices_S3x64_S1x64_1_0 (0 : Fin 1) q (⟨1, by decide⟩ : Fin 3) rfl]
  exact hx _

/-- Every entry of slice 2 of an entrywise non-negative stack is ≥ 0. -/
theorem vecOf2_nonneg (x : FVec Ideal S3x64 .f32) (hx : ∀ j : S3x64.Idx, (0 : EReal) ≤ x j) (q : Fin 64) :
    (0 : EReal) ≤ vecOf2 (F := Ideal) x (ix1 q) := by
  unfold vecOf2
  rw [shapeCast_1a_a_apply, slice2_axis0_apply 2 x slices_S3x64_S1x64_2_0 (0 : Fin 1) q (⟨2, by decide⟩ : Fin 3) rfl]
  exact hx _

end Cert.Gin.Host

end
-- ==== Proof.GinRefRun.lean ====
/-
  The reference program's run, read back.

  The reference's @main is a straight line of 268 host operations; every weakly fair execution of it terminates with
  each buffer at the fold of the operations' results over the launch contents. The line is cut at the three layer
  outputs into four stretches (the line is stated as the four stretches one after the other), and the fold is read
  stretch by stretch: after the first stretch the first layer's
  output buffer holds the host's layer of the node features, their neighbourhood sums and slice 0 of the parameter
  stacks, and the two edge-list columns hold the source and destination of every edge; each later layer's stretch
  reads the previous output, those two columns and the argument arrays, none of which it writes; the last stretch
  applies the two heads to the third layer's output. An argument array is written by no operation, so it holds its
  launch contents after every stretch.
-/
import proofs.«113432_j76991583748727_1_alg».proof.Proof.GinHost
import Idealize.ShloMosaic.Lib.StableHlo.Run

noncomputable section

namespace Cert.Gin.RefRun

open Cert.ReferenceIdeal Cert.ReferenceIdeal.Gen Idealize.ShloMosaic Idealize.ShloMosaic.TcCoe Idealize.SL.Sem Idealize.ShloMosaic.StableHlo

variable {F : FTy → Type} [FloatOps F]

/-- The first stretch: the edge-list columns and the first layer. -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    unary main_arg3 main_v15 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v15 main_v16 rfl shapeCasts_S1x64x64_S64x64,
    binary main_v14 main_v16 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v18 ((extractStridedSlice S1x64 ![0, 0] · slices_S3x64_S1x64_0_0) : (⟨S3x64, .f32⟩ : BufTy).Contents (Elt F) → (⟨S1x64, .f32⟩ : BufTy).Contents (Elt F)),
    reshape main_v18 main_v19 rfl shapeCasts_S1x64_S64,
    unary main_v19 main_v20 (broadcastInDim S1x64 ![1] bcast_S64_S1x64_1 : (⟨S64, .f32⟩ : BufTy).Contents (Elt F) → (⟨S1x64, .f32⟩ : BufTy).Contents (Elt F)),
    unary main_v20 main_v21 (broadcastInDim S100000x64 ![0, 1] bcast_S1x64_S100000x64_0_1 : (⟨S1x64, .f32⟩ : BufTy).Contents (Elt F) → (⟨S100000x64, .f32⟩ : BufTy).Contents (Elt F)),
    binary main_v17 main_v21 main_v22 (addf : (⟨S100000x64, .f32⟩ : BufTy).Contents (Elt F) → (⟨S100000x64, .f32⟩ : BufTy).Contents (Elt F) → (⟨S100000x64, .f32⟩ : BufTy).Contents (Elt F)),
    unary main_arg5 main_v23 ((extractStridedSlice S1x64 ![0, 0] · slices_S3x64_S1x64_0_0) : (⟨S3x64, .f32⟩ : BufTy).Contents (Elt F) → (⟨S1x64, .f32⟩ : BufTy).Contents (Elt F)),
    reshape main_v23 main_v24 rfl shapeCasts_S1x64_S64,
    unary main_arg6 main_v25 ((extractStridedSlice S1x64 ![0, 0] · slices_S3x64_S1x64_0_0) : (⟨S3x64, .f32⟩ : BufTy).Contents (Elt F) → (⟨S1x64, .f32⟩ : BufTy).Contents (Elt F)),
    reshape main_v25 main_v26 rfl shapeCasts_S1x64_S64,
    unary main_arg7 main_v27 ((extractStridedSlice S1x64 ![0, 0] · slices_S3x64_S1x64_0_0) : (⟨S3x64, .f32⟩ : BufTy).Contents (Elt F) → (⟨S1x64, .f32⟩ : BufTy).Contents (Elt F)),
    reshape main_v27 main_v28 rfl shapeCasts_S1x64_S64,
    unary main_arg8 main_v29 ((extractStridedSlice S1x64 ![0, 0] · slices_S3x64_S1x64_0_0) : (⟨S3x64, .f32⟩ : BufTy).Contents (Elt F) → (⟨S1x64, .f32⟩ : BufTy).Contents (Elt F)),
    reshape main_v29 main_v30 rfl shapeCasts_S1x64_S64,
    unary main_v28 main_v31 (broadcastInDim S1x64 ![1] bcast_S64_S1x64_1 : (⟨S64, .f32⟩ : BufTy).Contents (Elt F) → (⟨S1x64, .f32⟩ : BufTy).Contents (Elt F)),
    unary main_v31 main_v32 (broadcastInDim S100000x64 ![0, 1] bcast_S1x64_S100000x64_0_1 : (⟨S1x64, .f32⟩ : BufTy).Contents (Elt F) → (⟨S100000x64, .f32⟩ : BufTy).Contents (Elt F)),
    binary main_v22 main_v32 main_v33 (subf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x3727C5AC#32),
    unary main_cst_1 main_v34 (broadcastInDim S64 ![] bcast_S_S64 : (⟨S_, .f32⟩ : BufTy).Contents (Elt F) → (⟨S64, .f32⟩ : BufTy).Contents (Elt F)),
    binary main_v30 main_v34 main_v35 (addf : (⟨S64, .f32⟩ : BufTy).Contents (Elt F) → (⟨S64, .f32⟩ : BufTy).Contents (Elt F) → (⟨S64, .f32⟩ : BufTy).Contents (Elt F)),
    unary main_v35 main_v36 (Host.sqrt : (⟨S64, .f32⟩ : BufTy).Contents (Elt F) → (⟨S64, .f32⟩ : BufTy).Contents (Elt F)),
    binary main_v24 main_v36 main_v37 (Host.divf : (⟨S64, .f32⟩ : BufTy).Contents (Elt F) → (⟨S64, .f32⟩ : BufTy).Contents (Elt F) → (⟨S64, .f32⟩ : BufTy).Contents (Elt F)),
    unary main_v37 main_v38 (broadcastInDim S1x64 ![1] bcast_S64_S1x64_1 : (⟨S64, .f32⟩ : BufTy).Contents (Elt F) → (⟨S1x64, .f32⟩ : BufTy).Contents (Elt F)),
    unary main_v38 main_v39 (broadcastInDim S100000x64 ![0, 1] bcast_S1x64_S100000x64_0_1 : (⟨S1x64, .f32⟩ : BufTy).Contents (Elt F) → (⟨S100000x64, .f32⟩ : BufTy).Contents (Elt F)),
    binary main_v33 main_v39 main_v40 (mulf : (⟨S100000x64, .f32⟩ : BufTy).Contents (Elt F) → (⟨S100000x64, .f32⟩ : BufTy).Contents (Elt F) → (⟨S100000x64, .f32⟩ : BufTy).Contents (Elt F)),
    unary main_v26 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v40 main_v42 main_v43 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v43) (TRef.of (T := ⟨S100000x64, .f32⟩) main_call0_v0) (TRef.of (T := ⟨S100000x64, .f32⟩) main_v44) maximumf,
    unary main_arg9 main_v45 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v45 main_v46 rfl shapeCasts_S1x64x64_S64x64,
    binary main_v44 main_v46 main_v47 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v48 ((extractStridedSlice S1x64 ![0, 0] · slices_S3x64_S1x64_0_0) : (⟨S3x64, .f32⟩ : BufTy).Contents (Elt F) → (⟨S1x64, .f32⟩ : BufTy).Contents (Elt F)),
    reshape main_v48 main_v49 rfl shapeCasts_S1x64_S64,
    unary main_v49 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v47 main_v51 main_v52 (addf : (⟨S100000x64, .f32⟩ : BufTy).Contents (Elt F) → (⟨S100000x64, .f32⟩ : BufTy).Contents (Elt F) → (⟨S100000x64, .f32⟩ : BufTy).Contents (Elt F)),
    unary main_arg11 main_v53 ((extractStridedSlice S1x64 ![0, 0] · slices_S3x64_S1x64_0_0) : (⟨S3x64, .f32⟩ : BufTy).Contents (Elt F) → (⟨S1x64, .f32⟩ : BufTy).Contents (Elt F)),
    reshape main_v53 main_v54 rfl shapeCasts_S1x64_S64,
    unary main_arg12 main_v55 ((extractStridedSlice S1x64 ![0, 0] · slices_S3x64_S1x64_0_0) : (⟨S3x64, .f32⟩ : BufTy).Contents (Elt F) → (⟨S1x64, .f32⟩ : BufTy).Contents (Elt F)),
    reshape main_v55 main_v56 rfl shapeCasts_S1x64_S64,
    unary main_arg13 main_v57 ((extractStridedSlice S1x64 ![0, 0] · slices_S3x64_S1x64_0_0) : (⟨S3x64, .f32⟩ : BufTy).Contents (Elt F) → (⟨S1x64, .f32⟩ : BufTy).Contents (Elt F)),
    reshape main_v57 main_v58 rfl shapeCasts_S1x64_S64,
    unary main_arg14 main_v59 ((extractStridedSlice S1x64 ![0, 0] · slices_S3x64_S1x64_0_0) : (⟨S3x64, .f32⟩ : BufTy).Contents (Elt F) → (⟨S1x64, .f32⟩ : BufTy).Contents (Elt F)),
    reshape main_v59 main_v60 rfl shapeCasts_S1x64_S64,
    unary main_v58 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v52 main_v62 main_v63 (subf : (⟨S100000x64, .f32⟩ : BufTy).Contents (Elt F) → (⟨S100000x64, .f32⟩ : BufTy).Contents (Elt F) → (⟨S100000x64, .f32⟩ : BufTy).Contents (Elt F)),
    nullary main_cst_2 (constant S_ .f32 0x3727C5AC#32),
    unary main_cst_2 main_v64 (broadcastInDim S64 ![] bcast_S_S64 : (⟨S_, .f32⟩ : BufTy).Contents (Elt F) → (⟨S64, .f32⟩ : BufTy).Contents (Elt F)),
    binary main_v60 main_v64 main_v65 (addf : (⟨S64, .f32⟩ : BufTy).Contents (Elt F) → (⟨S64, .f32⟩ : BufTy).Contents (Elt F) → (⟨S64, .f32⟩ : BufTy).Contents (Elt F)),
    unary main_v65 main_v66 (Host.sqrt : (⟨S64, .f32⟩ : BufTy).Contents (Elt F) → (⟨S64, .f32⟩ : BufTy).Contents (Elt F)),
    binary main_v54 main_v66 main_v67 (Host.divf : (⟨S64, .f32⟩ : BufTy).Contents (Elt F) → (⟨S64, .f32⟩ : BufTy).Contents (Elt F) → (⟨S64, .f32⟩ : BufTy).Contents (Elt F)),
    unary main_v67 main_v68 (broadcastInDim S1x64 ![1] bcast_S64_S1x64_1 : (⟨S64, .f32⟩ : BufTy).Contents (Elt F) → (⟨S1x64, .f32⟩ : BufTy).Contents (Elt F)),
    unary main_v68 main_v69 (broadcastInDim S100000x64 ![0, 1] bcast_S1x64_S100000x64_0_1 : (⟨S1x64, .f32⟩ : BufTy).Contents (Elt F) → (⟨S100000x64, .f32⟩ : BufTy).Contents (Elt F)),
    binary main_v63 main_v69 main_v70 (mulf : (⟨S100000x64, .f32⟩ : BufTy).Contents (Elt F) → (⟨S100000x64, .f32⟩ : BufTy).Contents (Elt F) → (⟨S100000x64, .f32⟩ : BufTy).Contents (Elt F)),
    unary main_v56 main_v71 (broadcastInDim S1x64 ![1] bcast_S64_S1x64_1 : (⟨S64, .f32⟩ : BufTy).Contents (Elt F) → (⟨S1x64, .f32⟩ : BufTy).Contents (Elt F)),
    unary main_v71 main_v72 (broadcastInDim S100000x64 ![0, 1] bcast_S1x64_S100000x64_0_1 : (⟨S1x64, .f32⟩ : BufTy).Contents (Elt F) → (⟨S100000x64, .f32⟩ : BufTy).Contents (Elt F)),
    binary main_v70 main_v72 main_v73 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v73) (TRef.of (T := ⟨S100000x64, .f32⟩) main_call1_v0) (TRef.of (T := ⟨S100000x64, .f32⟩) main_v74) maximumf ]

/-- The second layer's stretch. -/
abbrev ops1 : List (HloOp τ sig (Elt F)) :=
  [ nullary main_c_3 (constantI S_ 32 0#32),
    unary main_c_3 main_v75 (broadcastInDim S1600000 ![] bcast_S_S1600000 : (⟨S_, .i32⟩ : BufTy).Contents (Elt F) → (⟨S1600000, .i32⟩ : BufTy).Contents (Elt F)),
    binary main_v1 main_v75 main_v76 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v77 (broadcastInDim S1600000 ![] bcast_S_S1600000 : (⟨S_, .i32⟩ : BufTy).Contents (Elt F) → (⟨S1600000, .i32⟩ : BufTy).Contents (Elt F)),
    binary main_v1 main_v77 main_v78 (addi : (⟨S1600000, .i32⟩ : BufTy).Contents (Elt F) → (⟨S1600000, .i32⟩ : BufTy).Contents (Elt F) → (⟨S1600000, .i32⟩ : BufTy).Contents (Elt F)),
    ternary main_v76 main_v78 main_v1 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v79 main_v80 (broadcastInDim S1600000x1 ![0] bcast_S1600000_S1600000x1_0 : (⟨S1600000, .i32⟩ : BufTy).Contents (Elt F) → (⟨S1600000x1, .i32⟩ : BufTy).Contents (Elt F)),
    binary main_v74 main_v80 main_v81 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_5 (constant S_ .f32 0x00000000#32),
    unary main_cst_5 main_v82 (broadcastInDim S100000x64 ![] bcast_S_S100000x64 : (⟨S_, .f32⟩ : BufTy).Contents (Elt F) → (⟨S100000x64, .f32⟩ : BufTy).Contents (Elt F)),
    unary main_v3 main_v83 (broadcastInDim S1600000x1 ![0] bcast_S1600000_S1600000x1_0 : (⟨S1600000, .i32⟩ : BufTy).Contents (Elt F) → (⟨S1600000x1, .i32⟩ : BufTy).Contents (Elt F)),
    ternary main_v82 main_v83 main_v81 main_v84 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v74 main_v84 main_v85 (addf : (⟨S100000x64, .f32⟩ : BufTy).Contents (Elt F) → (⟨S100000x64, .f32⟩ : BufTy).Contents (Elt F) → (⟨S100000x64, .f32⟩ : BufTy).Contents (Elt F)),
    unary main_arg3 main_v86 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v86 main_v87 rfl shapeCasts_S1x64x64_S64x64,
    binary main_v85 main_v87 main_v88 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v89 ((extractStridedSlice S1x64 ![1, 0] · slices_S3x64_S1x64_1_0) : (⟨S3x64, .f32⟩ : BufTy).Contents (Elt F) → (⟨S1x64, .f32⟩ : BufTy).Contents (Elt F)),
    reshape main_v89 main_v90 rfl shapeCasts_S1x64_S64,
    unary main_v90 main_v91 (broadcastInDim S1x64 ![1] bcast_S64_S1x64_1 : (⟨S64, .f32⟩ : BufTy).Contents (Elt F) → (⟨S1x64, .f32⟩ : BufTy).Contents (Elt F)),
    unary main_v91 main_v92 (broadcastInDim S100000x64 ![0, 1] bcast_S1x64_S100000x64_0_1 : (⟨S1x64, .f32⟩ : BufTy).Contents (Elt F) → (⟨S100000x64, .f32⟩ : BufTy).Contents (Elt F)),
    binary main_v88 main_v92 main_v93 (addf : (⟨S100000x64, .f32⟩ : BufTy).Contents (Elt F) → (⟨S100000x64, .f32⟩ : BufTy).Contents (Elt F) → (⟨S100000x64, .f32⟩ : BufTy).Contents (Elt F)),
    unary main_arg5 main_v94 ((extractStridedSlice S1x64 ![1, 0] · slices_S3x64_S1x64_1_0) : (⟨S3x64, .f32⟩ : BufTy).Contents (Elt F) → (⟨S1x64, .f32⟩ : BufTy).Contents (Elt F)),
    reshape main_v94 main_v95 rfl shapeCasts_S1x64_S64,
    unary main_arg6 main_v96 ((extractStridedSlice S1x64 ![1, 0] · slices_S3x64_S1x64_1_0) : (⟨S3x64, .f32⟩ : BufTy).Contents (Elt F) → (⟨S1x64, .f32⟩ : BufTy).Contents (Elt F)),
    reshape main_v96 main_v97 rfl shapeCasts_S1x64_S64,
    unary main_arg7 main_v98 ((extractStridedSlice S1x64 ![1, 0] · slices_S3x64_S1x64_1_0) : (⟨S3x64, .f32⟩ : BufTy).Contents (Elt F) → (⟨S1x64, .f32⟩ : BufTy).Contents (Elt F)),
    reshape main_v98 main_v99 rfl shapeCasts_S1x64_S64,
    unary main_arg8 main_v100 ((extractStridedSlice S1x64 ![1, 0] · slices_S3x64_S1x64_1_0) : (⟨S3x64, .f32⟩ : BufTy).Contents (Elt F) → (⟨S1x64, .f32⟩ : BufTy).Contents (Elt F)),
    reshape main_v100 main_v101 rfl shapeCasts_S1x64_S64,
    unary main_v99 main_v102 (broadcastInDim S1x64 ![1] bcast_S64_S1x64_1 : (⟨S64, .f32⟩ : BufTy).Contents (Elt F) → (⟨S1x64, .f32⟩ : BufTy).Contents (Elt F)),
    unary main_v102 main_v103 (broadcastInDim S100000x64 ![0, 1] bcast_S1x64_S100000x64_0_1 : (⟨S1x64, .f32⟩ : BufTy).Contents (Elt F) → (⟨S100000x64, .f32⟩ : BufTy).Contents (Elt F)),
    binary main_v93 main_v103 main_v104 (subf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x3727C5AC#32),
    unary main_cst_6 main_v105 (broadcastInDim S64 ![] bcast_S_S64 : (⟨S_, .f32⟩ : BufTy).Contents (Elt F) → (⟨S64, .f32⟩ : BufTy).Contents (Elt F)),
    binary main_v101 main_v105 main_v106 (addf : (⟨S64, .f32⟩ : BufTy).Contents (Elt F) → (⟨S64, .f32⟩ : BufTy).Contents (Elt F) → (⟨S64, .f32⟩ : BufTy).Contents (Elt F)),
    unary main_v106 main_v107 (Host.sqrt : (⟨S64, .f32⟩ : BufTy).Contents (Elt F) → (⟨S64, .f32⟩ : BufTy).Contents (Elt F)),
    binary main_v95 main_v107 main_v108 (Host.divf : (⟨S64, .f32⟩ : BufTy).Contents (Elt F) → (⟨S64, .f32⟩ : BufTy).Contents (Elt F) → (⟨S64, .f32⟩ : BufTy).Contents (Elt F)),
    unary main_v108 main_v109 (broadcastInDim S1x64 ![1] bcast_S64_S1x64_1 : (⟨S64, .f32⟩ : BufTy).Contents (Elt F) → (⟨S1x64, .f32⟩ : BufTy).Contents (Elt F)),
    unary main_v109 main_v110 (broadcastInDim S100000x64 ![0, 1] bcast_S1x64_S100000x64_0_1 : (⟨S1x64, .f32⟩ : BufTy).Contents (Elt F) → (⟨S100000x64, .f32⟩ : BufTy).Contents (Elt F)),
    binary main_v104 main_v110 main_v111 (mulf : (⟨S100000x64, .f32⟩ : BufTy).Contents (Elt F) → (⟨S100000x64, .f32⟩ : BufTy).Contents (Elt F) → (⟨S100000x64, .f32⟩ : BufTy).Contents (Elt F)),
    unary main_v97 main_v112 (broadcastInDim S1x64 ![1] bcast_S64_S1x64_1 : (⟨S64, .f32⟩ : BufTy).Contents (Elt F) → (⟨S1x64, .f32⟩ : BufTy).Contents (Elt F)),
    unary main_v112 main_v113 (broadcastInDim S100000x64 ![0, 1] bcast_S1x64_S100000x64_0_1 : (⟨S1x64, .f32⟩ : BufTy).Contents (Elt F) → (⟨S100000x64, .f32⟩ : BufTy).Contents (Elt F)),
    binary main_v111 main_v113 main_v114 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v114) (TRef.of (T := ⟨S100000x64, .f32⟩) main_call2_v0) (TRef.of (T := ⟨S100000x64, .f32⟩) main_v115) maximumf,
    unary main_arg9 main_v116 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v116 main_v117 rfl shapeCasts_S1x64x64_S64x64,
    binary main_v115 main_v117 main_v118 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v119 ((extractStridedSlice S1x64 ![1, 0] · slices_S3x64_S1x64_1_0) : (⟨S3x64, .f32⟩ : BufTy).Contents (Elt F) → (⟨S1x64, .f32⟩ : BufTy).Contents (Elt F)),
    reshape main_v119 main_v120 rfl shapeCasts_S1x64_S64,
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S100000x64 ![0, 1] bcast_S1x64_S100000x64_0_1 : (⟨S1x64, .f32⟩ : BufTy).Contents (Elt F) → (⟨S100000x64, .f32⟩ : BufTy).Contents (Elt F)),
    binary main_v118 main_v122 main_v123 (addf : (⟨S100000x64, .f32⟩ : BufTy).Contents (Elt F) → (⟨S100000x64, .f32⟩ : BufTy).Contents (Elt F) → (⟨S100000x64, .f32⟩ : BufTy).Contents (Elt F)),
    unary main_arg11 main_v124 ((extractStridedSlice S1x64 ![1, 0] · slices_S3x64_S1x64_1_0) : (⟨S3x64, .f32⟩ : BufTy).Contents (Elt F) → (⟨S1x64, .f32⟩ : BufTy).Contents (Elt F)),
    reshape main_v124 main_v125 rfl shapeCasts_S1x64_S64,
    unary main_arg12 main_v126 ((extractStridedSlice S1x64 ![1, 0] · slices_S3x64_S1x64_1_0) : (⟨S3x64, .f32⟩ : BufTy).Contents (Elt F) → (⟨S1x64, .f32⟩ : BufTy).Contents (Elt F)),
    reshape main_v126 main_v127 rfl shapeCasts_S1x64_S64,
    unary main_arg13 main_v128 ((extractStridedSlice S1x64 ![1, 0] · slices_S3x64_S1x64_1_0) : (⟨S3x64, .f32⟩ : BufTy).Contents (Elt F) → (⟨S1x64, .f32⟩ : BufTy).Contents (Elt F)),
    reshape main_v128 main_v129 rfl shapeCasts_S1x64_S64,
    unary main_arg14 main_v130 ((extractStridedSlice S1x64 ![1, 0] · slices_S3x64_S1x64_1_0) : (⟨S3x64, .f32⟩ : BufTy).Contents (Elt F) → (⟨S1x64, .f32⟩ : BufTy).Contents (Elt F)),
    reshape main_v130 main_v131 rfl shapeCasts_S1x64_S64,
    unary main_v129 main_v132 (broadcastInDim S1x64 ![1] bcast_S64_S1x64_1 : (⟨S64, .f32⟩ : BufTy).Contents (Elt F) → (⟨S1x64, .f32⟩ : BufTy).Contents (Elt F)),
    unary main_v132 main_v133 (broadcastInDim S100000x64 ![0, 1] bcast_S1x64_S100000x64_0_1 : (⟨S1x64, .f32⟩ : BufTy).Contents (Elt F) → (⟨S100000x64, .f32⟩ : BufTy).Contents (Elt F)),
    binary main_v123 main_v133 main_v134 (subf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x3727C5AC#32),
    unary main_cst_7 main_v135 (broadcastInDim S64 ![] bcast_S_S64 : (⟨S_, .f32⟩ : BufTy).Contents (Elt F) → (⟨S64, .f32⟩ : BufTy).Contents (Elt F)),
    binary main_v131 main_v135 main_v136 (addf : (⟨S64, .f32⟩ : BufTy).Contents (Elt F) → (⟨S64, .f32⟩ : BufTy).Contents (Elt F) → (⟨S64, .f32⟩ : BufTy).Contents (Elt F)),
    unary main_v136 main_v137 (Host.sqrt : (⟨S64, .f32⟩ : BufTy).Contents (Elt F) → (⟨S64, .f32⟩ : BufTy).Contents (Elt F)),
    binary main_v125 main_v137 main_v138 (Host.divf : (⟨S64, .f32⟩ : BufTy).Contents (Elt F) → (⟨S64, .f32⟩ : BufTy).Contents (Elt F) → (⟨S64, .f32⟩ : BufTy).Contents (Elt F)),
    unary main_v138 main_v139 (broadcastInDim S1x64 ![1] bcast_S64_S1x64_1 : (⟨S64, .f32⟩ : BufTy).Contents (Elt F) → (⟨S1x64, .f32⟩ : BufTy).Contents (Elt F)),
    unary main_v139 main_v140 (broadcastInDim S100000x64 ![0, 1] bcast_S1x64_S100000x64_0_1 : (⟨S1x64, .f32⟩ : BufTy).Contents (Elt F) → (⟨S100000x64, .f32⟩ : BufTy).Contents (Elt F)),
    binary main_v134 main_v140 main_v141 (mulf : (⟨S100000x64, .f32⟩ : BufTy).Contents (Elt F) → (⟨S100000x64, .f32⟩ : BufTy).Contents (Elt F) → (⟨S100000x64, .f32⟩ : BufTy).Contents (Elt F)),
    unary main_v127 main_v142 (broadcastInDim S1x64 ![1] bcast_S64_S1x64_1 : (⟨S64, .f32⟩ : BufTy).Contents (Elt F) → (⟨S1x64, .f32⟩ : BufTy).Contents (Elt F)),
    unary main_v142 main_v143 (broadcastInDim S100000x64 ![0, 1] bcast_S1x64_S100000x64_0_1 : (⟨S1x64, .f32⟩ : BufTy).Contents (Elt F) → (⟨S100000x64, .f32⟩ : BufTy).Contents (Elt F)),
    binary main_v141 main_v143 main_v144 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v144) (TRef.of (T := ⟨S100000x64, .f32⟩) main_call3_v0) (TRef.of (T := ⟨S100000x64, .f32⟩) main_v145) maximumf ]

/-- The third layer's stretch. -/
abbrev ops2 : List (HloOp τ sig (Elt F)) :=
  [ nullary main_c_8 (constantI S_ 32 0#32),
    unary main_c_8 main_v146 (broadcastInDim S1600000 ![] bcast_S_S1600000 : (⟨S_, .i32⟩ : BufTy).Contents (Elt F) → (⟨S1600000, .i32⟩ : BufTy).Contents (Elt F)),
    binary main_v1 main_v146 main_v147 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v148 (broadcastInDim S1600000 ![] bcast_S_S1600000 : (⟨S_, .i32⟩ : BufTy).Contents (Elt F) → (⟨S1600000, .i32⟩ : BufTy).Contents (Elt F)),
    binary main_v1 main_v148 main_v149 (addi : (⟨S1600000, .i32⟩ : BufTy).Contents (Elt F) → (⟨S1600000, .i32⟩ : BufTy).Contents (Elt F) → (⟨S1600000, .i32⟩ : BufTy).Contents (Elt F)),
    ternary main_v147 main_v149 main_v1 main_v150 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v150 main_v151 (broadcastInDim S1600000x1 ![0] bcast_S1600000_S1600000x1_0 : (⟨S1600000, .i32⟩ : BufTy).Contents (Elt F) → (⟨S1600000x1, .i32⟩ : BufTy).Contents (Elt F)),
    binary main_v145 main_v151 main_v152 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_10 (constant S_ .f32 0x00000000#32),
    unary main_cst_10 main_v153 (broadcastInDim S100000x64 ![] bcast_S_S100000x64 : (⟨S_, .f32⟩ : BufTy).Contents (Elt F) → (⟨S100000x64, .f32⟩ : BufTy).Contents (Elt F)),
    unary main_v3 main_v154 (broadcastInDim S1600000x1 ![0] bcast_S1600000_S1600000x1_0 : (⟨S1600000, .i32⟩ : BufTy).Contents (Elt F) → (⟨S1600000x1, .i32⟩ : BufTy).Contents (Elt F)),
    ternary main_v153 main_v154 main_v152 main_v155 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v145 main_v155 main_v156 (addf : (⟨S100000x64, .f32⟩ : BufTy).Contents (Elt F) → (⟨S100000x64, .f32⟩ : BufTy).Contents (Elt F) → (⟨S100000x64, .f32⟩ : BufTy).Contents (Elt F)),
    unary main_arg3 main_v157 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v157 main_v158 rfl shapeCasts_S1x64x64_S64x64,
    binary main_v156 main_v158 main_v159 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v160 ((extractStridedSlice S1x64 ![2, 0] · slices_S3x64_S1x64_2_0) : (⟨S3x64, .f32⟩ : BufTy).Contents (Elt F) → (⟨S1x64, .f32⟩ : BufTy).Contents (Elt F)),
    reshape main_v160 main_v161 rfl shapeCasts_S1x64_S64,
    unary main_v161 main_v162 (broadcastInDim S1x64 ![1] bcast_S64_S1x64_1 : (⟨S64, .f32⟩ : BufTy).Contents (Elt F) → (⟨S1x64, .f32⟩ : BufTy).Contents (Elt F)),
    unary main_v162 main_v163 (broadcastInDim S100000x64 ![0, 1] bcast_S1x64_S100000x64_0_1 : (⟨S1x64, .f32⟩ : BufTy).Contents (Elt F) → (⟨S100000x64, .f32⟩ : BufTy).Contents (Elt F)),
    binary main_v159 main_v163 main_v164 (addf : (⟨S100000x64, .f32⟩ : BufTy).Contents (Elt F) → (⟨S100000x64, .f32⟩ : BufTy).Contents (Elt F) → (⟨S100000x64, .f32⟩ : BufTy).Contents (Elt F)),
    unary main_arg5 main_v165 ((extractStridedSlice S1x64 ![2, 0] · slices_S3x64_S1x64_2_0) : (⟨S3x64, .f32⟩ : BufTy).Contents (Elt F) → (⟨S1x64, .f32⟩ : BufTy).Contents (Elt F)),
    reshape main_v165 main_v166 rfl shapeCasts_S1x64_S64,
    unary main_arg6 main_v167 ((extractStridedSlice S1x64 ![2, 0] · slices_S3x64_S1x64_2_0) : (⟨S3x64, .f32⟩ : BufTy).Contents (Elt F) → (⟨S1x64, .f32⟩ : BufTy).Contents (Elt F)),
    reshape main_v167 main_v168 rfl shapeCasts_S1x64_S64,
    unary main_arg7 main_v169 ((extractStridedSlice S1x64 ![2, 0] · slices_S3x64_S1x64_2_0) : (⟨S3x64, .f32⟩ : BufTy).Contents (Elt F) → (⟨S1x64, .f32⟩ : BufTy).Contents (Elt F)),
    reshape main_v169 main_v170 rfl shapeCasts_S1x64_S64,
    unary main_arg8 main_v171 ((extractStridedSlice S1x64 ![2, 0] · slices_S3x64_S1x64_2_0) : (⟨S3x64, .f32⟩ : BufTy).Contents (Elt F) → (⟨S1x64, .f32⟩ : BufTy).Contents (Elt F)),
    reshape main_v171 main_v172 rfl shapeCasts_S1x64_S64,
    unary main_v170 main_v173 (broadcastInDim S1x64 ![1] bcast_S64_S1x64_1 : (⟨S64, .f32⟩ : BufTy).Contents (Elt F) → (⟨S1x64, .f32⟩ : BufTy).Contents (Elt F)),
    unary main_v173 main_v174 (broadcastInDim S100000x64 ![0, 1] bcast_S1x64_S100000x64_0_1 : (⟨S1x64, .f32⟩ : BufTy).Contents (Elt F) → (⟨S100000x64, .f32⟩ : BufTy).Contents (Elt F)),
    binary main_v164 main_v174 main_v175 (subf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v176 (broadcastInDim S64 ![] bcast_S_S64 : (⟨S_, .f32⟩ : BufTy).Contents (Elt F) → (⟨S64, .f32⟩ : BufTy).Contents (Elt F)),
    binary main_v172 main_v176 main_v177 (addf : (⟨S64, .f32⟩ : BufTy).Contents (Elt F) → (⟨S64, .f32⟩ : BufTy).Contents (Elt F) → (⟨S64, .f32⟩ : BufTy).Contents (Elt F)),
    unary main_v177 main_v178 (Host.sqrt : (⟨S64, .f32⟩ : BufTy).Contents (Elt F) → (⟨S64, .f32⟩ : BufTy).Contents (Elt F)),
    binary main_v166 main_v178 main_v179 (Host.divf : (⟨S64, .f32⟩ : BufTy).Contents (Elt F) → (⟨S64, .f32⟩ : BufTy).Contents (Elt F) → (⟨S64, .f32⟩ : BufTy).Contents (Elt F)),
    unary main_v179 main_v180 (broadcastInDim S1x64 ![1] bcast_S64_S1x64_1 : (⟨S64, .f32⟩ : BufTy).Contents (Elt F) → (⟨S1x64, .f32⟩ : BufTy).Contents (Elt F)),
    unary main_v180 main_v181 (broadcastInDim S100000x64 ![0, 1] bcast_S1x64_S100000x64_0_1 : (⟨S1x64, .f32⟩ : BufTy).Contents (Elt F) → (⟨S100000x64, .f32⟩ : BufTy).Contents (Elt F)),
    binary main_v175 main_v181 main_v182 (mulf : (⟨S100000x64, .f32⟩ : BufTy).Contents (Elt F) → (⟨S100000x64, .f32⟩ : BufTy).Contents (Elt F) → (⟨S100000x64, .f32⟩ : BufTy).Contents (Elt F)),
    unary main_v168 main_v183 (broadcastInDim S1x64 ![1] bcast_S64_S1x64_1 : (⟨S64, .f32⟩ : BufTy).Contents (Elt F) → (⟨S1x64, .f32⟩ : BufTy).Contents (Elt F)),
    unary main_v183 main_v184 (broadcastInDim S100000x64 ![0, 1] bcast_S1x64_S100000x64_0_1 : (⟨S1x64, .f32⟩ : BufTy).Contents (Elt F) → (⟨S100000x64, .f32⟩ : BufTy).Contents (Elt F)),
    binary main_v182 main_v184 main_v185 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v185) (TRef.of (T := ⟨S100000x64, .f32⟩) main_call4_v0) (TRef.of (T := ⟨S100000x64, .f32⟩) main_v186) maximumf,
    unary main_arg9 main_v187 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v187 main_v188 rfl shapeCasts_S1x64x64_S64x64,
    binary main_v186 main_v188 main_v189 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v190 ((extractStridedSlice S1x64 ![2, 0] · slices_S3x64_S1x64_2_0) : (⟨S3x64, .f32⟩ : BufTy).Contents (Elt F) → (⟨S1x64, .f32⟩ : BufTy).Contents (Elt F)),
    reshape main_v190 main_v191 rfl shapeCasts_S1x64_S64,
    unary main_v191 main_v192 (broadcastInDim S1x64 ![1] bcast_S64_S1x64_1 : (⟨S64, .f32⟩ : BufTy).Contents (Elt F) → (⟨S1x64, .f32⟩ : BufTy).Contents (Elt F)),
    unary main_v192 main_v193 (broadcastInDim S100000x64 ![0, 1] bcast_S1x64_S100000x64_0_1 : (⟨S1x64, .f32⟩ : BufTy).Contents (Elt F) → (⟨S100000x64, .f32⟩ : BufTy).Contents (Elt F)),
    binary main_v189 main_v193 main_v194 (addf : (⟨S100000x64, .f32⟩ : BufTy).Contents (Elt F) → (⟨S100000x64, .f32⟩ : BufTy).Contents (Elt F) → (⟨S100000x64, .f32⟩ : BufTy).Contents (Elt F)),
    unary main_arg11 main_v195 ((extractStridedSlice S1x64 ![2, 0] · slices_S3x64_S1x64_2_0) : (⟨S3x64, .f32⟩ : BufTy).Contents (Elt F) → (⟨S1x64, .f32⟩ : BufTy).Contents (Elt F)),
    reshape main_v195 main_v196 rfl shapeCasts_S1x64_S64,
    unary main_arg12 main_v197 ((extractStridedSlice S1x64 ![2, 0] · slices_S3x64_S1x64_2_0) : (⟨S3x64, .f32⟩ : BufTy).Contents (Elt F) → (⟨S1x64, .f32⟩ : BufTy).Contents (Elt F)),
    reshape main_v197 main_v198 rfl shapeCasts_S1x64_S64,
    unary main_arg13 main_v199 ((extractStridedSlice S1x64 ![2, 0] · slices_S3x64_S1x64_2_0) : (⟨S3x64, .f32⟩ : BufTy).Contents (Elt F) → (⟨S1x64, .f32⟩ : BufTy).Contents (Elt F)),
    reshape main_v199 main_v200 rfl shapeCasts_S1x64_S64,
    unary main_arg14 main_v201 ((extractStridedSlice S1x64 ![2, 0] · slices_S3x64_S1x64_2_0) : (⟨S3x64, .f32⟩ : BufTy).Contents (Elt F) → (⟨S1x64, .f32⟩ : BufTy).Contents (Elt F)),
    reshape main_v201 main_v202 rfl shapeCasts_S1x64_S64,
    unary main_v200 main_v203 (broadcastInDim S1x64 ![1] bcast_S64_S1x64_1 : (⟨S64, .f32⟩ : BufTy).Contents (Elt F) → (⟨S1x64, .f32⟩ : BufTy).Contents (Elt F)),
    unary main_v203 main_v204 (broadcastInDim S100000x64 ![0, 1] bcast_S1x64_S100000x64_0_1 : (⟨S1x64, .f32⟩ : BufTy).Contents (Elt F) → (⟨S100000x64, .f32⟩ : BufTy).Contents (Elt F)),
    binary main_v194 main_v204 main_v205 (subf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3727C5AC#32),
    unary main_cst_12 main_v206 (broadcastInDim S64 ![] bcast_S_S64 : (⟨S_, .f32⟩ : BufTy).Contents (Elt F) → (⟨S64, .f32⟩ : BufTy).Contents (Elt F)),
    binary main_v202 main_v206 main_v207 (addf : (⟨S64, .f32⟩ : BufTy).Contents (Elt F) → (⟨S64, .f32⟩ : BufTy).Contents (Elt F) → (⟨S64, .f32⟩ : BufTy).Contents (Elt F)),
    unary main_v207 main_v208 (Host.sqrt : (⟨S64, .f32⟩ : BufTy).Contents (Elt F) → (⟨S64, .f32⟩ : BufTy).Contents (Elt F)),
    binary main_v196 main_v208 main_v209 (Host.divf : (⟨S64, .f32⟩ : BufTy).Contents (Elt F) → (⟨S64, .f32⟩ : BufTy).Contents (Elt F) → (⟨S64, .f32⟩ : BufTy).Contents (Elt F)),
    unary main_v209 main_v210 (broadcastInDim S1x64 ![1] bcast_S64_S1x64_1 : (⟨S64, .f32⟩ : BufTy).Contents (Elt F) → (⟨S1x64, .f32⟩ : BufTy).Contents (Elt F)),
    unary main_v210 main_v211 (broadcastInDim S100000x64 ![0, 1] bcast_S1x64_S100000x64_0_1 : (⟨S1x64, .f32⟩ : BufTy).Contents (Elt F) → (⟨S100000x64, .f32⟩ : BufTy).Contents (Elt F)),
    binary main_v205 main_v211 main_v212 (mulf : (⟨S100000x64, .f32⟩ : BufTy).Contents (Elt F) → (⟨S100000x64, .f32⟩ : BufTy).Contents (Elt F) → (⟨S100000x64, .f32⟩ : BufTy).Contents (Elt F)),
    unary main_v198 main_v213 (broadcastInDim S1x64 ![1] bcast_S64_S1x64_1 : (⟨S64, .f32⟩ : BufTy).Contents (Elt F) → (⟨S1x64, .f32⟩ : BufTy).Contents (Elt F)),
    unary main_v213 main_v214 (broadcastInDim S100000x64 ![0, 1] bcast_S1x64_S100000x64_0_1 : (⟨S1x64, .f32⟩ : BufTy).Contents (Elt F) → (⟨S100000x64, .f32⟩ : BufTy).Contents (Elt F)),
    binary main_v212 main_v214 main_v215 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v215) (TRef.of (T := ⟨S100000x64, .f32⟩) main_call5_v0) (TRef.of (T := ⟨S100000x64, .f32⟩) main_v216) maximumf ]

/-- The closing stretch: the per-graph means and the two heads. -/
abbrev ops3 : List (HloOp τ sig (Elt F)) :=
  [ nullary main_cst_13 (constant S_ .f32 0x00000000#32),
    unary main_cst_13 main_v217 (broadcastInDim S16x64 ![] bcast_S_S16x64 : (⟨S_, .f32⟩ : BufTy).Contents (Elt F) → (⟨S16x64, .f32⟩ : BufTy).Contents (Elt F)),
    unary main_arg2 main_v218 (broadcastInDim S100000x1 ![0] bcast_S100000_S100000x1_0 : (⟨S100000, .i32⟩ : BufTy).Contents (Elt F) → (⟨S100000x1, .i32⟩ : BufTy).Contents (Elt F)),
    ternary main_v217 main_v218 main_v216 main_v219 ((fun x i u => Host.scatterAdd scatter_S16x64_S100000x1_S100000x64_1_0_0_1 x i u) : (⟨S16x64, .f32⟩ : BufTy).Contents (Elt F) → (⟨S100000x1, .i32⟩ : BufTy).Contents (Elt F) → (⟨S100000x64, .f32⟩ : BufTy).Contents (Elt F) → (⟨S16x64, .f32⟩ : BufTy).Contents (Elt F)),
    nullary main_cst_14 (constant S_ .f32 0x3F800000#32),
    unary main_cst_14 main_v220 (broadcastInDim S100000 ![] bcast_S_S100000 : (⟨S_, .f32⟩ : BufTy).Contents (Elt F) → (⟨S100000, .f32⟩ : BufTy).Contents (Elt F)),
    nullary main_cst_15 (constant S_ .f32 0x00000000#32),
    unary main_cst_15 main_v221 (broadcastInDim S16 ![] bcast_S_S16 : (⟨S_, .f32⟩ : BufTy).Contents (Elt F) → (⟨S16, .f32⟩ : BufTy).Contents (Elt F)),
    unary main_arg2 main_v222 (broadcastInDim S100000x1 ![0] bcast_S100000_S100000x1_0 : (⟨S100000, .i32⟩ : BufTy).Contents (Elt F) → (⟨S100000x1, .i32⟩ : BufTy).Contents (Elt F)),
    ternary main_v221 main_v222 main_v220 main_v223 ((fun x i u => Host.scatterAdd scatter_S16_S100000x1_S100000_n_0_0_1 x i u) : (⟨S16, .f32⟩ : BufTy).Contents (Elt F) → (⟨S100000x1, .i32⟩ : BufTy).Contents (Elt F) → (⟨S100000, .f32⟩ : BufTy).Contents (Elt F) → (⟨S16, .f32⟩ : BufTy).Contents (Elt F)),
    nullary main_cst_16 (constant S_ .f32 0x3F800000#32),
    unary main_cst_16 main_v224 (broadcastInDim S16 ![] bcast_S_S16 : (⟨S_, .f32⟩ : BufTy).Contents (Elt F) → (⟨S16, .f32⟩ : BufTy).Contents (Elt F)),
    binary main_v223 main_v224 main_v225 (maximumf : (⟨S16, .f32⟩ : BufTy).Contents (Elt F) → (⟨S16, .f32⟩ : BufTy).Contents (Elt F) → (⟨S16, .f32⟩ : BufTy).Contents (Elt F)),
    unary main_v225 main_v226 (broadcastInDim S16x1 ![0] bcast_S16_S16x1_0 : (⟨S16, .f32⟩ : BufTy).Contents (Elt F) → (⟨S16x1, .f32⟩ : BufTy).Contents (Elt F)),
    unary main_v226 main_v227 (broadcastInDim S16x64 ![0, 1] bcast_S16x1_S16x64_0_1 : (⟨S16x1, .f32⟩ : BufTy).Contents (Elt F) → (⟨S16x64, .f32⟩ : BufTy).Contents (Elt F)),
    binary main_v219 main_v227 main_v228 (Host.divf : (⟨S16x64, .f32⟩ : BufTy).Contents (Elt F) → (⟨S16x64, .f32⟩ : BufTy).Contents (Elt F) → (⟨S16x64, .f32⟩ : BufTy).Contents (Elt F)),
    binary main_v228 main_arg15 main_v229 ((fun l r => Host.dotGeneral dot_S16x64_S64x6_S16x6_1_0_0_1_n_n none l r) : (⟨S16x64, .f32⟩ : BufTy).Contents (Elt F) → (⟨S64x6, .f32⟩ : BufTy).Contents (Elt F) → (⟨S16x6, .f32⟩ : BufTy).Contents (Elt F)),
    unary main_arg16 main_v230 (broadcastInDim S1x6 ![1] bcast_S6_S1x6_1 : (⟨S6, .f32⟩ : BufTy).Contents (Elt F) → (⟨S1x6, .f32⟩ : BufTy).Contents (Elt F)),
    unary main_v230 main_v231 (broadcastInDim S16x6 ![0, 1] bcast_S1x6_S16x6_0_1 : (⟨S1x6, .f32⟩ : BufTy).Contents (Elt F) → (⟨S16x6, .f32⟩ : BufTy).Contents (Elt F)),
    binary main_v229 main_v231 main_v232 (addf : (⟨S16x6, .f32⟩ : BufTy).Contents (Elt F) → (⟨S16x6, .f32⟩ : BufTy).Contents (Elt F) → (⟨S16x6, .f32⟩ : BufTy).Contents (Elt F)),
    binary main_v228 main_arg17 main_v233 ((fun l r => Host.dotGeneral dot_S16x64_S64x6_S16x6_1_0_0_1_n_n none l r) : (⟨S16x64, .f32⟩ : BufTy).Contents (Elt F) → (⟨S64x6, .f32⟩ : BufTy).Contents (Elt F) → (⟨S16x6, .f32⟩ : BufTy).Contents (Elt F)),
    unary main_arg18 main_v234 (broadcastInDim S1x6 ![1] bcast_S6_S1x6_1 : (⟨S6, .f32⟩ : BufTy).Contents (Elt F) → (⟨S1x6, .f32⟩ : BufTy).Contents (Elt F)),
    unary main_v234 main_v235 (broadcastInDim S16x6 ![0, 1] bcast_S1x6_S16x6_0_1 : (⟨S1x6, .f32⟩ : BufTy).Contents (Elt F) → (⟨S16x6, .f32⟩ : BufTy).Contents (Elt F)),
    binary main_v233 main_v235 main_v236 (addf : (⟨S16x6, .f32⟩ : BufTy).Contents (Elt F) → (⟨S16x6, .f32⟩ : BufTy).Contents (Elt F) → (⟨S16x6, .f32⟩ : BufTy).Contents (Elt F)) ]

/-- @main's 268 operations, in order: the four stretches one after the other (a called function's operations stand in
    its call's place). -/
abbrev ops : List (HloOp τ sig (Elt F)) := ops0 ++ (ops1 ++ (ops2 ++ ops3))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- Each operation of stretch 0 touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- No operation of stretch 0 allocates a buffer. -/
theorem ops0_fresh : (ops0 : List (HloOp τ sig (Elt F))).Forall fun op => op.fresh = ∅ := by
  simp only [List.Forall]; repeat' constructor
/-- Each operation of stretch 1 touches TensorCore references only. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- No operation of stretch 1 allocates a buffer. -/
theorem ops1_fresh : (ops1 : List (HloOp τ sig (Elt F))).Forall fun op => op.fresh = ∅ := by
  simp only [List.Forall]; repeat' constructor
/-- Each operation of stretch 2 touches TensorCore references only. -/
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- No operation of stretch 2 allocates a buffer. -/
theorem ops2_fresh : (ops2 : List (HloOp τ sig (Elt F))).Forall fun op => op.fresh = ∅ := by
  simp only [List.Forall]; repeat' constructor
/-- Each operation of stretch 3 touches TensorCore references only. -/
theorem ops3_sub : (ops3 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub ..⟩
/-- No operation of stretch 3 allocates a buffer. -/
theorem ops3_fresh : (ops3 : List (HloOp τ sig (Elt F))).Forall fun op => op.fresh = ∅ := by
  simp only [List.Forall]; repeat' constructor

/-- A property of every operation of each stretch is a property of every operation of the line. -/
theorem mem_ops {p : HloOp τ sig (Elt F) → Prop} (h0 : (ops0 : List (HloOp τ sig (Elt F))).Forall p) (h1 : (ops1 : List (HloOp τ sig (Elt F))).Forall p)
    (h2 : (ops2 : List (HloOp τ sig (Elt F))).Forall p) (h3 : (ops3 : List (HloOp τ sig (Elt F))).Forall p) :
    ∀ op ∈ (ops : List (HloOp τ sig (Elt F))), p op := by
  intro op h
  rcases List.mem_append.mp h with h | h
  · exact List.forall_iff_forall_mem.mp h0 op h
  rcases List.mem_append.mp h with h | h
  · exact List.forall_iff_forall_mem.mp h1 op h
  rcases List.mem_append.mp h with h | h
  · exact List.forall_iff_forall_mem.mp h2 op h
  · exact List.forall_iff_forall_mem.mp h3 op h

theorem ops_sub : (ops : List (HloOp τ sig (Elt F))).Forall fun op => op.bufs ⊆ tcRefs τ sig :=
  List.forall_iff_forall_mem.mpr (mem_ops ops0_sub ops1_sub ops2_sub ops3_sub)

theorem ops_fresh : ∀ op ∈ (ops : List (HloOp τ sig (Elt F))), op.fresh = ∅ :=
  mem_ops ops0_fresh ops1_fresh ops2_fresh ops3_fresh

/-- The fold over a line cut in two is the fold over the second part from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

variable (m : (ℓ : Loc nD τ sig) → Buf (Elt F) ℓ)

/-- The buffers after the first stretch. -/
def U1 (c : Dev nD) : Valuation τ sig (Elt F) := after ops0 (launchContents m c)
/-- The buffers after the second stretch. -/
def U2 (c : Dev nD) : Valuation τ sig (Elt F) := after ops1 (U1 m c)
/-- The buffers after the third stretch. -/
def U3 (c : Dev nD) : Valuation τ sig (Elt F) := after ops2 (U2 m c)
/-- The buffers after the closing stretch. -/
def U4 (c : Dev nD) : Valuation τ sig (Elt F) := after ops3 (U3 m c)

theorem after_ops (c : Dev nD) : after ops (launchContents m c) = U4 m c := by
  show after (ops0 ++ (ops1 ++ (ops2 ++ ops3))) (launchContents m c) = _
  rw [after_append, after_append, after_append]
  rfl

/-! ## Buffers that keep their contents -/

theorem U1_main_arg0 (c : Dev nD) : U1 m c (Proc.devRef .tc main_arg0) = m ((c.tc : Thread nD τ).loc main_arg0) := by
  show after ops0 (launchContents m c) (Proc.devRef .tc main_arg0) = _
  after_results_simp <;> rfl
theorem U2_main_arg0 (c : Dev nD) : U2 m c (Proc.devRef .tc main_arg0) = m ((c.tc : Thread nD τ).loc main_arg0) := by
  show after ops1 (U1 m c) (Proc.devRef .tc main_arg0) = _
  after_results_simp <;> exact U1_main_arg0 m c
theorem U3_main_arg0 (c : Dev nD) : U3 m c (Proc.devRef .tc main_arg0) = m ((c.tc : Thread nD τ).loc main_arg0) := by
  show after ops2 (U2 m c) (Proc.devRef .tc main_arg0) = _
  after_results_simp <;> exact U2_main_arg0 m c
theorem U4_main_arg0 (c : Dev nD) : U4 m c (Proc.devRef .tc main_arg0) = m ((c.tc : Thread nD τ).loc main_arg0) := by
  show after ops3 (U3 m c) (Proc.devRef .tc main_arg0) = _
  after_results_simp <;> exact U3_main_arg0 m c
theorem U1_main_arg1 (c : Dev nD) : U1 m c (Proc.devRef .tc main_arg1) = m ((c.tc : Thread nD τ).loc main_arg1) := by
  show after ops0 (launchContents m c) (Proc.devRef .tc main_arg1) = _
  after_results_simp <;> rfl
theorem U2_main_arg1 (c : Dev nD) : U2 m c (Proc.devRef .tc main_arg1) = m ((c.tc : Thread nD τ).loc main_arg1) := by
  show after ops1 (U1 m c) (Proc.devRef .tc main_arg1) = _
  after_results_simp <;> exact U1_main_arg1 m c
theorem U3_main_arg1 (c : Dev nD) : U3 m c (Proc.devRef .tc main_arg1) = m ((c.tc : Thread nD τ).loc main_arg1) := by
  show after ops2 (U2 m c) (Proc.devRef .tc main_arg1) = _
  after_results_simp <;> exact U2_main_arg1 m c
theorem U4_main_arg1 (c : Dev nD) : U4 m c (Proc.devRef .tc main_arg1) = m ((c.tc : Thread nD τ).loc main_arg1) := by
  show after ops3 (U3 m c) (Proc.devRef .tc main_arg1) = _
  after_results_simp <;> exact U3_main_arg1 m c
theorem U1_main_arg2 (c : Dev nD) : U1 m c (Proc.devRef .tc main_arg2) = m ((c.tc : Thread nD τ).loc main_arg2) := by
  show after ops0 (launchContents m c) (Proc.devRef .tc main_arg2) = _
  after_results_simp <;> rfl
theorem U2_main_arg2 (c : Dev nD) : U2 m c (Proc.devRef .tc main_arg2) = m ((c.tc : Thread nD τ).loc main_arg2) := by
  show after ops1 (U1 m c) (Proc.devRef .tc main_arg2) = _
  after_results_simp <;> exact U1_main_arg2 m c
theorem U3_main_arg2 (c : Dev nD) : U3 m c (Proc.devRef .tc main_arg2) = m ((c.tc : Thread nD τ).loc main_arg2) := by
  show after ops2 (U2 m c) (Proc.devRef .tc main_arg2) = _
  after_results_simp <;> exact U2_main_arg2 m c
theorem U4_main_arg2 (c : Dev nD) : U4 m c (Proc.devRef .tc main_arg2) = m ((c.tc : Thread nD τ).loc main_arg2) := by
  show after ops3 (U3 m c) (Proc.devRef .tc main_arg2) = _
  after_results_simp <;> exact U3_main_arg2 m c
theorem U1_main_arg3 (c : Dev nD) : U1 m c (Proc.devRef .tc main_arg3) = m ((c.tc : Thread nD τ).loc main_arg3) := by
  show after ops0 (launchContents m c) (Proc.devRef .tc main_arg3) = _
  after_results_simp <;> rfl
theorem U2_main_arg3 (c : Dev nD) : U2 m c (Proc.devRef .tc main_arg3) = m ((c.tc : Thread nD τ).loc main_arg3) := by
  show after ops1 (U1 m c) (Proc.devRef .tc main_arg3) = _
  after_results_simp <;> exact U1_main_arg3 m c
theorem U3_main_arg3 (c : Dev nD) : U3 m c (Proc.devRef .tc main_arg3) = m ((c.tc : Thread nD τ).loc main_arg3) := by
  show after ops2 (U2 m c) (Proc.devRef .tc main_arg3) = _
  after_results_simp <;> exact U2_main_arg3 m c
theorem U4_main_arg3 (c : Dev nD) : U4 m c (Proc.devRef .tc main_arg3) = m ((c.tc : Thread nD τ).loc main_arg3) := by
  show after ops3 (U3 m c) (Proc.devRef .tc main_arg3) = _
  after_results_simp <;> exact U3_main_arg3 m c
theorem U1_main_arg4 (c : Dev nD) : U1 m c (Proc.devRef .tc main_arg4) = m ((c.tc : Thread nD τ).loc main_arg4) := by
  show after ops0 (launchContents m c) (Proc.devRef .tc main_arg4) = _
  after_results_simp <;> rfl
theorem U2_main_arg4 (c : Dev nD) : U2 m c (Proc.devRef .tc main_arg4) = m ((c.tc : Thread nD τ).loc main_arg4) := by
  show after ops1 (U1 m c) (Proc.devRef .tc main_arg4) = _
  after_results_simp <;> exact U1_main_arg4 m c
theorem U3_main_arg4 (c : Dev nD) : U3 m c (Proc.devRef .tc main_arg4) = m ((c.tc : Thread nD τ).loc main_arg4) := by
  show after ops2 (U2 m c) (Proc.devRef .tc main_arg4) = _
  after_results_simp <;> exact U2_main_arg4 m c
theorem U4_main_arg4 (c : Dev nD) : U4 m c (Proc.devRef .tc main_arg4) = m ((c.tc : Thread nD τ).loc main_arg4) := by
  show after ops3 (U3 m c) (Proc.devRef .tc main_arg4) = _
  after_results_simp <;> exact U3_main_arg4 m c
theorem U1_main_arg5 (c : Dev nD) : U1 m c (Proc.devRef .tc main_arg5) = m ((c.tc : Thread nD τ).loc main_arg5) := by
  show after ops0 (launchContents m c) (Proc.devRef .tc main_arg5) = _
  after_results_simp <;> rfl
theorem U2_main_arg5 (c : Dev nD) : U2 m c (Proc.devRef .tc main_arg5) = m ((c.tc : Thread nD τ).loc main_arg5) := by
  show after ops1 (U1 m c) (Proc.devRef .tc main_arg5) = _
  after_results_simp <;> exact U1_main_arg5 m c
theorem U3_main_arg5 (c : Dev nD) : U3 m c (Proc.devRef .tc main_arg5) = m ((c.tc : Thread nD τ).loc main_arg5) := by
  show after ops2 (U2 m c) (Proc.devRef .tc main_arg5) = _
  after_results_simp <;> exact U2_main_arg5 m c
theorem U4_main_arg5 (c : Dev nD) : U4 m c (Proc.devRef .tc main_arg5) = m ((c.tc : Thread nD τ).loc main_arg5) := by
  show after ops3 (U3 m c) (Proc.devRef .tc main_arg5) = _
  after_results_simp <;> exact U3_main_arg5 m c
theorem U1_main_arg6 (c : Dev nD) : U1 m c (Proc.devRef .tc main_arg6) = m ((c.tc : Thread nD τ).loc main_arg6) := by
  show after ops0 (launchContents m c) (Proc.devRef .tc main_arg6) = _
  after_results_simp <;> rfl
theorem U2_main_arg6 (c : Dev nD) : U2 m c (Proc.devRef .tc main_arg6) = m ((c.tc : Thread nD τ).loc main_arg6) := by
  show after ops1 (U1 m c) (Proc.devRef .tc main_arg6) = _
  after_results_simp <;> exact U1_main_arg6 m c
theorem U3_main_arg6 (c : Dev nD) : U3 m c (Proc.devRef .tc main_arg6) = m ((c.tc : Thread nD τ).loc main_arg6) := by
  show after ops2 (U2 m c) (Proc.devRef .tc main_arg6) = _
  after_results_simp <;> exact U2_main_arg6 m c
theorem U4_main_arg6 (c : Dev nD) : U4 m c (Proc.devRef .tc main_arg6) = m ((c.tc : Thread nD τ).loc main_arg6) := by
  show after ops3 (U3 m c) (Proc.devRef .tc main_arg6) = _
  after_results_simp <;> exact U3_main_arg6 m c
theorem U1_main_arg7 (c : Dev nD) : U1 m c (Proc.devRef .tc main_arg7) = m ((c.tc : Thread nD τ).loc main_arg7) := by
  show after ops0 (launchContents m c) (Proc.devRef .tc main_arg7) = _
  after_results_simp <;> rfl
theorem U2_main_arg7 (c : Dev nD) : U2 m c (Proc.devRef .tc main_arg7) = m ((c.tc : Thread nD τ).loc main_arg7) := by
  show after ops1 (U1 m c) (Proc.devRef .tc main_arg7) = _
  after_results_simp <;> exact U1_main_arg7 m c
theorem U3_main_arg7 (c : Dev nD) : U3 m c (Proc.devRef .tc main_arg7) = m ((c.tc : Thread nD τ).loc main_arg7) := by
  show after ops2 (U2 m c) (Proc.devRef .tc main_arg7) = _
  after_results_simp <;> exact U2_main_arg7 m c
theorem U4_main_arg7 (c : Dev nD) : U4 m c (Proc.devRef .tc main_arg7) = m ((c.tc : Thread nD τ).loc main_arg7) := by
  show after ops3 (U3 m c) (Proc.devRef .tc main_arg7) = _
  after_results_simp <;> exact U3_main_arg7 m c
theorem U1_main_arg8 (c : Dev nD) : U1 m c (Proc.devRef .tc main_arg8) = m ((c.tc : Thread nD τ).loc main_arg8) := by
  show after ops0 (launchContents m c) (Proc.devRef .tc main_arg8) = _
  after_results_simp <;> rfl
theorem U2_main_arg8 (c : Dev nD) : U2 m c (Proc.devRef .tc main_arg8) = m ((c.tc : Thread nD τ).loc main_arg8) := by
  show after ops1 (U1 m c) (Proc.devRef .tc main_arg8) = _
  after_results_simp <;> exact U1_main_arg8 m c
theorem U3_main_arg8 (c : Dev nD) : U3 m c (Proc.devRef .tc main_arg8) = m ((c.tc : Thread nD τ).loc main_arg8) := by
  show after ops2 (U2 m c) (Proc.devRef .tc main_arg8) = _
  after_results_simp <;> exact U2_main_arg8 m c
theorem U4_main_arg8 (c : Dev nD) : U4 m c (Proc.devRef .tc main_arg8) = m ((c.tc : Thread nD τ).loc main_arg8) := by
  show after ops3 (U3 m c) (Proc.devRef .tc main_arg8) = _
  after_results_simp <;> exact U3_main_arg8 m c
theorem U1_main_arg9 (c : Dev nD) : U1 m c (Proc.devRef .tc main_arg9) = m ((c.tc : Thread nD τ).loc main_arg9) := by
  show after ops0 (launchContents m c) (Proc.devRef .tc main_arg9) = _
  after_results_simp <;> rfl
theorem U2_main_arg9 (c : Dev nD) : U2 m c (Proc.devRef .tc main_arg9) = m ((c.tc : Thread nD τ).loc main_arg9) := by
  show after ops1 (U1 m c) (Proc.devRef .tc main_arg9) = _
  after_results_simp <;> exact U1_main_arg9 m c
theorem U3_main_arg9 (c : Dev nD) : U3 m c (Proc.devRef .tc main_arg9) = m ((c.tc : Thread nD τ).loc main_arg9) := by
  show after ops2 (U2 m c) (Proc.devRef .tc main_arg9) = _
  after_results_simp <;> exact U2_main_arg9 m c
theorem U4_main_arg9 (c : Dev nD) : U4 m c (Proc.devRef .tc main_arg9) = m ((c.tc : Thread nD τ).loc main_arg9) := by
  show after ops3 (U3 m c) (Proc.devRef .tc main_arg9) = _
  after_results_simp <;> exact U3_main_arg9 m c
theorem U1_main_arg10 (c : Dev nD) : U1 m c (Proc.devRef .tc main_arg10) = m ((c.tc : Thread nD τ).loc main_arg10) := by
  show after ops0 (launchContents m c) (Proc.devRef .tc main_arg10) = _
  after_results_simp <;> rfl
theorem U2_main_arg10 (c : Dev nD) : U2 m c (Proc.devRef .tc main_arg10) = m ((c.tc : Thread nD τ).loc main_arg10) := by
  show after ops1 (U1 m c) (Proc.devRef .tc main_arg10) = _
  after_results_simp <;> exact U1_main_arg10 m c
theorem U3_main_arg10 (c : Dev nD) : U3 m c (Proc.devRef .tc main_arg10) = m ((c.tc : Thread nD τ).loc main_arg10) := by
  show after ops2 (U2 m c) (Proc.devRef .tc main_arg10) = _
  after_results_simp <;> exact U2_main_arg10 m c
theorem U4_main_arg10 (c : Dev nD) : U4 m c (Proc.devRef .tc main_arg10) = m ((c.tc : Thread nD τ).loc main_arg10) := by
  show after ops3 (U3 m c) (Proc.devRef .tc main_arg10) = _
  after_results_simp <;> exact U3_main_arg10 m c
theorem U1_main_arg11 (c : Dev nD) : U1 m c (Proc.devRef .tc main_arg11) = m ((c.tc : Thread nD τ).loc main_arg11) := by
  show after ops0 (launchContents m c) (Proc.devRef .tc main_arg11) = _
  after_results_simp <;> rfl
theorem U2_main_arg11 (c : Dev nD) : U2 m c (Proc.devRef .tc main_arg11) = m ((c.tc : Thread nD τ).loc main_arg11) := by
  show after ops1 (U1 m c) (Proc.devRef .tc main_arg11) = _
  after_results_simp <;> exact U1_main_arg11 m c
theorem U3_main_arg11 (c : Dev nD) : U3 m c (Proc.devRef .tc main_arg11) = m ((c.tc : Thread nD τ).loc main_arg11) := by
  show after ops2 (U2 m c) (Proc.devRef .tc main_arg11) = _
  after_results_simp <;> exact U2_main_arg11 m c
theorem U4_main_arg11 (c : Dev nD) : U4 m c (Proc.devRef .tc main_arg11) = m ((c.tc : Thread nD τ).loc main_arg11) := by
  show after ops3 (U3 m c) (Proc.devRef .tc main_arg11) = _
  after_results_simp <;> exact U3_main_arg11 m c
theorem U1_main_arg12 (c : Dev nD) : U1 m c (Proc.devRef .tc main_arg12) = m ((c.tc : Thread nD τ).loc main_arg12) := by
  show after ops0 (launchContents m c) (Proc.devRef .tc main_arg12) = _
  after_results_simp <;> rfl
theorem U2_main_arg12 (c : Dev nD) : U2 m c (Proc.devRef .tc main_arg12) = m ((c.tc : Thread nD τ).loc main_arg12) := by
  show after ops1 (U1 m c) (Proc.devRef .tc main_arg12) = _
  after_results_simp <;> exact U1_main_arg12 m c
theorem U3_main_arg12 (c : Dev nD) : U3 m c (Proc.devRef .tc main_arg12) = m ((c.tc : Thread nD τ).loc main_arg12) := by
  show after ops2 (U2 m c) (Proc.devRef .tc main_arg12) = _
  after_results_simp <;> exact U2_main_arg12 m c
theorem U4_main_arg12 (c : Dev nD) : U4 m c (Proc.devRef .tc main_arg12) = m ((c.tc : Thread nD τ).loc main_arg12) := by
  show after ops3 (U3 m c) (Proc.devRef .tc main_arg12) = _
  after_results_simp <;> exact U3_main_arg12 m c
theorem U1_main_arg13 (c : Dev nD) : U1 m c (Proc.devRef .tc main_arg13) = m ((c.tc : Thread nD τ).loc main_arg13) := by
  show after ops0 (launchContents m c) (Proc.devRef .tc main_arg13) = _
  after_results_simp <;> rfl
theorem U2_main_arg13 (c : Dev nD) : U2 m c (Proc.devRef .tc main_arg13) = m ((c.tc : Thread nD τ).loc main_arg13) := by
  show after ops1 (U1 m c) (Proc.devRef .tc main_arg13) = _
  after_results_simp <;> exact U1_main_arg13 m c
theorem U3_main_arg13 (c : Dev nD) : U3 m c (Proc.devRef .tc main_arg13) = m ((c.tc : Thread nD τ).loc main_arg13) := by
  show after ops2 (U2 m c) (Proc.devRef .tc main_arg13) = _
  after_results_simp <;> exact U2_main_arg13 m c
theorem U4_main_arg13 (c : Dev nD) : U4 m c (Proc.devRef .tc main_arg13) = m ((c.tc : Thread nD τ).loc main_arg13) := by
  show after ops3 (U3 m c) (Proc.devRef .tc main_arg13) = _
  after_results_simp <;> exact U3_main_arg13 m c
theorem U1_main_arg14 (c : Dev nD) : U1 m c (Proc.devRef .tc main_arg14) = m ((c.tc : Thread nD τ).loc main_arg14) := by
  show after ops0 (launchContents m c) (Proc.devRef .tc main_arg14) = _
  after_results_simp <;> rfl
theorem U2_main_arg14 (c : Dev nD) : U2 m c (Proc.devRef .tc main_arg14) = m ((c.tc : Thread nD τ).loc main_arg14) := by
  show after ops1 (U1 m c) (Proc.devRef .tc main_arg14) = _
  after_results_simp <;> exact U1_main_arg14 m c
theorem U3_main_arg14 (c : Dev nD) : U3 m c (Proc.devRef .tc main_arg14) = m ((c.tc : Thread nD τ).loc main_arg14) := by
  show after ops2 (U2 m c) (Proc.devRef .tc main_arg14) = _
  after_results_simp <;> exact U2_main_arg14 m c
theorem U4_main_arg14 (c : Dev nD) : U4 m c (Proc.devRef .tc main_arg14) = m ((c.tc : Thread nD τ).loc main_arg14) := by
  show after ops3 (U3 m c) (Proc.devRef .tc main_arg14) = _
  after_results_simp <;> exact U3_main_arg14 m c
theorem U1_main_arg15 (c : Dev nD) : U1 m c (Proc.devRef .tc main_arg15) = m ((c.tc : Thread nD τ).loc main_arg15) := by
  show after ops0 (launchContents m c) (Proc.devRef .tc main_arg15) = _
  after_results_simp <;> rfl
theorem U2_main_arg15 (c : Dev nD) : U2 m c (Proc.devRef .tc main_arg15) = m ((c.tc : Thread nD τ).loc main_arg15) := by
  show after ops1 (U1 m c) (Proc.devRef .tc main_arg15) = _
  after_results_simp <;> exact U1_main_arg15 m c
theorem U3_main_arg15 (c : Dev nD) : U3 m c (Proc.devRef .tc main_arg15) = m ((c.tc : Thread nD τ).loc main_arg15) := by
  show after ops2 (U2 m c) (Proc.devRef .tc main_arg15) = _
  after_results_simp <;> exact U2_main_arg15 m c
theorem U4_main_arg15 (c : Dev nD) : U4 m c (Proc.devRef .tc main_arg15) = m ((c.tc : Thread nD τ).loc main_arg15) := by
  show after ops3 (U3 m c) (Proc.devRef .tc main_arg15) = _
  after_results_simp <;> exact U3_main_arg15 m c
theorem U1_main_arg16 (c : Dev nD) : U1 m c (Proc.devRef .tc main_arg16) = m ((c.tc : Thread nD τ).loc main_arg16) := by
  show after ops0 (launchContents m c) (Proc.devRef .tc main_arg16) = _
  after_results_simp <;> rfl
theorem U2_main_arg16 (c : Dev nD) : U2 m c (Proc.devRef .tc main_arg16) = m ((c.tc : Thread nD τ).loc main_arg16) := by
  show after ops1 (U1 m c) (Proc.devRef .tc main_arg16) = _
  after_results_simp <;> exact U1_main_arg16 m c
theorem U3_main_arg16 (c : Dev nD) : U3 m c (Proc.devRef .tc main_arg16) = m ((c.tc : Thread nD τ).loc main_arg16) := by
  show after ops2 (U2 m c) (Proc.devRef .tc main_arg16) = _
  after_results_simp <;> exact U2_main_arg16 m c
theorem U4_main_arg16 (c : Dev nD) : U4 m c (Proc.devRef .tc main_arg16) = m ((c.tc : Thread nD τ).loc main_arg16) := by
  show after ops3 (U3 m c) (Proc.devRef .tc main_arg16) = _
  after_results_simp <;> exact U3_main_arg16 m c
theorem U1_main_arg17 (c : Dev nD) : U1 m c (Proc.devRef .tc main_arg17) = m ((c.tc : Thread nD τ).loc main_arg17) := by
  show after ops0 (launchContents m c) (Proc.devRef .tc main_arg17) = _
  after_results_simp <;> rfl
theorem U2_main_arg17 (c : Dev nD) : U2 m c (Proc.devRef .tc main_arg17) = m ((c.tc : Thread nD τ).loc main_arg17) := by
  show after ops1 (U1 m c) (Proc.devRef .tc main_arg17) = _
  after_results_simp <;> exact U1_main_arg17 m c
theorem U3_main_arg17 (c : Dev nD) : U3 m c (Proc.devRef .tc main_arg17) = m ((c.tc : Thread nD τ).loc main_arg17) := by
  show after ops2 (U2 m c) (Proc.devRef .tc main_arg17) = _
  after_results_simp <;> exact U2_main_arg17 m c
theorem U4_main_arg17 (c : Dev nD) : U4 m c (Proc.devRef .tc main_arg17) = m ((c.tc : Thread nD τ).loc main_arg17) := by
  show after ops3 (U3 m c) (Proc.devRef .tc main_arg17) = _
  after_results_simp <;> exact U3_main_arg17 m c
theorem U1_main_arg18 (c : Dev nD) : U1 m c (Proc.devRef .tc main_arg18) = m ((c.tc : Thread nD τ).loc main_arg18) := by
  show after ops0 (launchContents m c) (Proc.devRef .tc main_arg18) = _
  after_results_simp <;> rfl
theorem U2_main_arg18 (c : Dev nD) : U2 m c (Proc.devRef .tc main_arg18) = m ((c.tc : Thread nD τ).loc main_arg18) := by
  show after ops1 (U1 m c) (Proc.devRef .tc main_arg18) = _
  after_results_simp <;> exact U1_main_arg18 m c
theorem U3_main_arg18 (c : Dev nD) : U3 m c (Proc.devRef .tc main_arg18) = m ((c.tc : Thread nD τ).loc main_arg18) := by
  show after ops2 (U2 m c) (Proc.devRef .tc main_arg18) = _
  after_results_simp <;> exact U2_main_arg18 m c
theorem U4_main_arg18 (c : Dev nD) : U4 m c (Proc.devRef .tc main_arg18) = m ((c.tc : Thread nD τ).loc main_arg18) := by
  show after ops3 (U3 m c) (Proc.devRef .tc main_arg18) = _
  after_results_simp <;> exact U3_main_arg18 m c
theorem U1_main_v1 (c : Dev nD) : U1 m c (Proc.devRef .tc main_v1) = Cert.Gin.Host.srcOf (F := F) (m ((c.tc : Thread nD τ).loc main_arg1)) := by
  show after ops0 (launchContents m c) (Proc.devRef .tc main_v1) = _
  after_results_simp <;> rfl
theorem U2_main_v1 (c : Dev nD) : U2 m c (Proc.devRef .tc main_v1) = Cert.Gin.Host.srcOf (F := F) (m ((c.tc : Thread nD τ).loc main_arg1)) := by
  show after ops1 (U1 m c) (Proc.devRef .tc main_v1) = _
  after_results_simp <;> exact U1_main_v1 m c
theorem U1_main_v3 (c : Dev nD) : U1 m c (Proc.devRef .tc main_v3) = Cert.Gin.Host.dstOf (F := F) (m ((c.tc : Thread nD τ).loc main_arg1)) := by
  show after ops0 (launchContents m c) (Proc.devRef .tc main_v3) = _
  after_results_simp <;> rfl
theorem U2_main_v3 (c : Dev nD) : U2 m c (Proc.devRef .tc main_v3) = Cert.Gin.Host.dstOf (F := F) (m ((c.tc : Thread nD τ).loc main_arg1)) := by
  show after ops1 (U1 m c) (Proc.devRef .tc main_v3) = _
  after_results_simp <;> exact U1_main_v3 m c

/-! ## The layers and the heads -/

theorem R1 (c : Dev nD) : U1 m c (Proc.devRef .tc main_v74) = Cert.Gin.Host.refH1 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show after ops0 (launchContents m c) (Proc.devRef .tc main_v74) = _
  after_results_simp
  rfl

set_option maxHeartbeats 4000000 in
theorem R2 (c : Dev nD) : U2 m c (Proc.devRef .tc main_v145)
    = Cert.Gin.Host.layerR (F := F) (U1 m c (Proc.devRef .tc main_v74)) (Cert.Gin.Host.aggOf (F := F) (U1 m c (Proc.devRef .tc main_v74)) (m ((c.tc : Thread nD τ).loc main_arg1))) (Cert.Gin.Host.matOf1 (F := F) (m ((c.tc : Thread nD τ).loc main_arg3))) (Cert.Gin.Host.vecOf1 (F := F) (m ((c.tc : Thread nD τ).loc main_arg4))) (Cert.Gin.Host.vecOf1 (F := F) (m ((c.tc : Thread nD τ).loc main_arg5))) (Cert.Gin.Host.vecOf1 (F := F) (m ((c.tc : Thread nD τ).loc main_arg6))) (Cert.Gin.Host.vecOf1 (F := F) (m ((c.tc : Thread nD τ).loc main_arg7))) (Cert.Gin.Host.vecOf1 (F := F) (m ((c.tc : Thread nD τ).loc main_arg8))) (Cert.Gin.Host.matOf1 (F := F) (m ((c.tc : Thread nD τ).loc main_arg9))) (Cert.Gin.Host.vecOf1 (F := F) (m ((c.tc : Thread nD τ).loc main_arg10))) (Cert.Gin.Host.vecOf1 (F := F) (m ((c.tc : Thread nD τ).loc main_arg11))) (Cert.Gin.Host.vecOf1 (F := F) (m ((c.tc : Thread nD τ).loc main_arg12))) (Cert.Gin.Host.vecOf1 (F := F) (m ((c.tc : Thread nD τ).loc main_arg13))) (Cert.Gin.Host.vecOf1 (F := F) (m ((c.tc : Thread nD τ).loc main_arg14))) := by
  have k0 := U1_main_v1 m c
  have k1 := U1_main_v3 m c
  have k2 := U1_main_arg3 m c
  have k3 := U1_main_arg4 m c
  have k4 := U1_main_arg5 m c
  have k5 := U1_main_arg6 m c
  have k6 := U1_main_arg7 m c
  have k7 := U1_main_arg8 m c
  have k8 := U1_main_arg9 m c
  have k9 := U1_main_arg10 m c
  have k10 := U1_main_arg11 m c
  have k11 := U1_main_arg12 m c
  have k12 := U1_main_arg13 m c
  have k13 := U1_main_arg14 m c
  show after ops1 (U1 m c) (Proc.devRef .tc main_v145) = _
  generalize U1 m c = W at *
  after_results_simp
  rw [k0, k1, k2, k3, k4, k5, k6, k7, k8, k9, k10, k11, k12, k13]
  rfl

set_option maxHeartbeats 4000000 in
theorem R3 (c : Dev nD) : U3 m c (Proc.devRef .tc main_v216)
    = Cert.Gin.Host.layerR (F := F) (U2 m c (Proc.devRef .tc main_v145)) (Cert.Gin.Host.aggOf (F := F) (U2 m c (Proc.devRef .tc main_v145)) (m ((c.tc : Thread nD τ).loc main_arg1))) (Cert.Gin.Host.matOf2 (F := F) (m ((c.tc : Thread nD τ).loc main_arg3))) (Cert.Gin.Host.vecOf2 (F := F) (m ((c.tc : Thread nD τ).loc main_arg4))) (Cert.Gin.Host.vecOf2 (F := F) (m ((c.tc : Thread nD τ).loc main_arg5))) (Cert.Gin.Host.vecOf2 (F := F) (m ((c.tc : Thread nD τ).loc main_arg6))) (Cert.Gin.Host.vecOf2 (F := F) (m ((c.tc : Thread nD τ).loc main_arg7))) (Cert.Gin.Host.vecOf2 (F := F) (m ((c.tc : Thread nD τ).loc main_arg8))) (Cert.Gin.Host.matOf2 (F := F) (m ((c.tc : Thread nD τ).loc main_arg9))) (Cert.Gin.Host.vecOf2 (F := F) (m ((c.tc : Thread nD τ).loc main_arg10))) (Cert.Gin.Host.vecOf2 (F := F) (m ((c.tc : Thread nD τ).loc main_arg11))) (Cert.Gin.Host.vecOf2 (F := F) (m ((c.tc : Thread nD τ).loc main_arg12))) (Cert.Gin.Host.vecOf2 (F := F) (m ((c.tc : Thread nD τ).loc main_arg13))) (Cert.Gin.Host.vecOf2 (F := F) (m ((c.tc : Thread nD τ).loc main_arg14))) := by
  have k0 := U2_main_v1 m c
  have k1 := U2_main_v3 m c
  have k2 := U2_main_arg3 m c
  have k3 := U2_main_arg4 m c
  have k4 := U2_main_arg5 m c
  have k5 := U2_main_arg6 m c
  have k6 := U2_main_arg7 m c
  have k7 := U2_main_arg8 m c
  have k8 := U2_main_arg9 m c
  have k9 := U2_main_arg10 m c
  have k10 := U2_main_arg11 m c
  have k11 := U2_main_arg12 m c
  have k12 := U2_main_arg13 m c
  have k13 := U2_main_arg14 m c
  show after ops2 (U2 m c) (Proc.devRef .tc main_v216) = _
  generalize U2 m c = W at *
  after_results_simp
  rw [k0, k1, k2, k3, k4, k5, k6, k7, k8, k9, k10, k11, k12, k13]
  rfl

theorem R4a (c : Dev nD) : U4 m c (Proc.devRef .tc main_v232)
    = Cert.Gin.Host.headOf (F := F) (U3 m c (Proc.devRef .tc main_v216)) (m ((c.tc : Thread nD τ).loc main_arg2)) (m ((c.tc : Thread nD τ).loc main_arg15)) (m ((c.tc : Thread nD τ).loc main_arg16)) := by
  show after ops3 (U3 m c) (Proc.devRef .tc main_v232) = _
  after_results_simp
  rw [U3_main_arg2 m c, U3_main_arg15 m c, U3_main_arg16 m c]
  rfl

theorem R4b (c : Dev nD) : U4 m c (Proc.devRef .tc main_v236)
    = Cert.Gin.Host.headOf (F := F) (U3 m c (Proc.devRef .tc main_v216)) (m ((c.tc : Thread nD τ).loc main_arg2)) (m ((c.tc : Thread nD τ).loc main_arg17)) (m ((c.tc : Thread nD τ).loc main_arg18)) := by
  show after ops3 (U3 m c) (Proc.devRef .tc main_v236) = _
  after_results_simp
  rw [U3_main_arg2 m c, U3_main_arg17 m c, U3_main_arg18 m c]
  rfl

/-- The first result is the network's first head of the arguments. -/
theorem out0 (c : Dev nD) : U4 m c (Proc.devRef .tc main_v232)
    = Cert.Gin.Host.refOut (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg2)) (m ((c.tc : Thread nD τ).loc main_arg15)) (m ((c.tc : Thread nD τ).loc main_arg16)) := by
  rw [R4a, R3, R2, R1]
  rfl

/-- The second result is the network's second head of the arguments. -/
theorem out1 (c : Dev nD) : U4 m c (Proc.devRef .tc main_v236)
    = Cert.Gin.Host.refOut (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg2)) (m ((c.tc : Thread nD τ).loc main_arg17)) (m ((c.tc : Thread nD τ).loc main_arg18)) := by
  rw [R4b, R3, R2, R1]
  rfl

/-- On every device, from any memory with zero counters: every weakly fair execution of @main terminates with each
    result at the network's head of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v232) = Cert.Gin.Host.refOut (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg2)) (m ((c.tc : Thread nD τ).loc main_arg15)) (m ((c.tc : Thread nD τ).loc main_arg16))
      ∧ r.2.mem ((c.tc : Thread nD τ).loc main_v236) = Cert.Gin.Host.refOut (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg2)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v232).trans ((congrFun (after_ops m c) _).trans (out0 m c)),
      (h c main_v236).trans ((congrFun (after_ops m c) _).trans (out1 m c)),
      (h c main_arg0).trans ((congrFun (after_ops m c) _).trans (U4_main_arg0 m c)),
      (h c main_arg1).trans ((congrFun (after_ops m c) _).trans (U4_main_arg1 m c)),
      (h c main_arg2).trans ((congrFun (after_ops m c) _).trans (U4_main_arg2 m c)),
      (h c main_arg3).trans ((congrFun (after_ops m c) _).trans (U4_main_arg3 m c)),
      (h c main_arg4).trans ((congrFun (after_ops m c) _).trans (U4_main_arg4 m c)),
      (h c main_arg5).trans ((congrFun (after_ops m c) _).trans (U4_main_arg5 m c)),
      (h c main_arg6).trans ((congrFun (after_ops m c) _).trans (U4_main_arg6 m c)),
      (h c main_arg7).trans ((congrFun (after_ops m c) _).trans (U4_main_arg7 m c)),
      (h c main_arg8).trans ((congrFun (after_ops m c) _).trans (U4_main_arg8 m c)),
      (h c main_arg9).trans ((congrFun (after_ops m c) _).trans (U4_main_arg9 m c)),
      (h c main_arg10).trans ((congrFun (after_ops m c) _).trans (U4_main_arg10 m c)),
      (h c main_arg11).trans ((congrFun (after_ops m c) _).trans (U4_main_arg11 m c)),
      (h c main_arg12).trans ((congrFun (after_ops m c) _).trans (U4_main_arg12 m c)),
      (h c main_arg13).trans ((congrFun (after_ops m c) _).trans (U4_main_arg13 m c)),
      (h c main_arg14).trans ((congrFun (after_ops m c) _).trans (U4_main_arg14 m c)),
      (h c main_arg15).trans ((congrFun (after_ops m c) _).trans (U4_main_arg15 m c)),
      (h c main_arg16).trans ((congrFun (after_ops m c) _).trans (U4_main_arg16 m c)),
      (h c main_arg17).trans ((congrFun (after_ops m c) _).trans (U4_main_arg17 m c)),
      (h c main_arg18).trans ((congrFun (after_ops m c) _).trans (U4_main_arg18 m c))⟩)
    (run_seq scopedRefs_eq scopedSems_eq defs main (fun _ => ops) main_eq (fun _ => ops_sub) m ρ (hfresh := fun _ => ops_fresh))

end Cert.Gin.RefRun

end
-- ==== Proof.GinKernelRun.lean ====
/-
  The program's run with its two results named.

  The program is seven segments in order: a stretch of host operations, the first layer's region, a stretch, the
  second layer's region, a stretch, the third layer's region, and the closing stretch that pools the nodes of each
  graph and applies the two output heads. Every weakly fair execution goes through them and terminates; when it ends,
  every unscoped buffer holds what the fold of the segments leaves in it — a stretch's operations applied in order, a
  region's arrays at what its write-backs leave. Read at the two result buffers this names the results; read at the
  argument buffers it says they are unchanged.
-/
import proofs.«113432_j76991583748727_1_alg».proof.Proof.Gen.KernelIdeal.Frame

set_option maxRecDepth 16384

noncomputable section

namespace Cert.Gin.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v154) = W7 m ρ c (Proc.devRef .tc main_v154)
      ∧ r.2.mem ((c.tc : Thread nD τ).loc main_v158) = W7 m ρ c (Proc.devRef .tc main_v158)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v154 (by decide)),
       h c _ (mem_uc main_v158 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c)⟩)

end Cert.Gin.KernelRun

end
-- ==== Proof.GinKept.lean ====
/-
  Buffers no later segment writes keep their contents across the segment boundaries.

  Between the launch and any later boundary of the program, an argument array is written by no host operation and is
  the array of no region's output window, so it holds its launch contents there; the two columns of the edge list,
  computed once by the first stretch (source and destination node of every edge), likewise hold those columns at
  every later boundary. One statement per buffer and boundary.
-/
import proofs.«113432_j76991583748727_1_alg».proof.Proof.Gen.KernelIdeal.Frame
import proofs.«113432_j76991583748727_1_alg».proof.Proof.GinHost

set_option maxRecDepth 16384

noncomputable section

namespace Cert.Gin.Chain

open Cert.KernelIdeal Cert.KernelIdeal.Gen Cert.Gin
open Idealize.ShloMosaic Idealize.ShloMosaic.TcCoe Idealize.ShloMosaic.StableHlo Idealize.SL.Sem

variable (m : (ℓ : Loc nD τ sig) → Buf (Elt Ideal) ℓ) (ρ : Dev nD → PrngReg)

theorem W1_main_v1 (c : Dev nD) : W1 m ρ c (Proc.devRef .tc main_v1) = Cert.Gin.Host.srcOf (F := Ideal) (m ((c : Thread nD τ).loc main_arg1)) := by
  show StableHlo.after hostOps0 (W0 m ρ c) (Proc.devRef .tc main_v1) = _
  after_results_simp <;> rfl
theorem W2_main_v1 (c : Dev nD) : W2 m ρ c (Proc.devRef .tc main_v1) = Cert.Gin.Host.srcOf (F := Ideal) (m ((c : Thread nD τ).loc main_arg1)) :=
  (W2_of_ne m ρ c main_v1 (by decide)).trans (W1_main_v1 m ρ c)
theorem W3_main_v1 (c : Dev nD) : W3 m ρ c (Proc.devRef .tc main_v1) = Cert.Gin.Host.srcOf (F := Ideal) (m ((c : Thread nD τ).loc main_arg1)) := by
  show StableHlo.after hostOps1 (W2 m ρ c) (Proc.devRef .tc main_v1) = _
  after_results_simp <;> exact W2_main_v1 m ρ c
theorem W4_main_v1 (c : Dev nD) : W4 m ρ c (Proc.devRef .tc main_v1) = Cert.Gin.Host.srcOf (F := Ideal) (m ((c : Thread nD τ).loc main_arg1)) :=
  (W4_of_ne m ρ c main_v1 (by decide)).trans (W3_main_v1 m ρ c)
theorem W1_main_v3 (c : Dev nD) : W1 m ρ c (Proc.devRef .tc main_v3) = Cert.Gin.Host.dstOf (F := Ideal) (m ((c : Thread nD τ).loc main_arg1)) := by
  show StableHlo.after hostOps0 (W0 m ρ c) (Proc.devRef .tc main_v3) = _
  after_results_simp <;> rfl
theorem W2_main_v3 (c : Dev nD) : W2 m ρ c (Proc.devRef .tc main_v3) = Cert.Gin.Host.dstOf (F := Ideal) (m ((c : Thread nD τ).loc main_arg1)) :=
  (W2_of_ne m ρ c main_v3 (by decide)).trans (W1_main_v3 m ρ c)
theorem W3_main_v3 (c : Dev nD) : W3 m ρ c (Proc.devRef .tc main_v3) = Cert.Gin.Host.dstOf (F := Ideal) (m ((c : Thread nD τ).loc main_arg1)) := by
  show StableHlo.after hostOps1 (W2 m ρ c) (Proc.devRef .tc main_v3) = _
  after_results_simp <;> exact W2_main_v3 m ρ c
theorem W4_main_v3 (c : Dev nD) : W4 m ρ c (Proc.devRef .tc main_v3) = Cert.Gin.Host.dstOf (F := Ideal) (m ((c : Thread nD τ).loc main_arg1)) :=
  (W4_of_ne m ρ c main_v3 (by decide)).trans (W3_main_v3 m ρ c)
theorem W1_main_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) := by
  show StableHlo.after hostOps1 (W2 m ρ c) (Proc.devRef .tc main_arg3) = _
  after_results_simp <;> exact W2_main_arg3 m ρ c
theorem W4_main_arg3 (c : Dev nD) : W4 m ρ c (Proc.devRef .tc main_arg3) = m ((c : Thread nD τ).loc main_arg3) :=
  (W4_of_ne m ρ c main_arg3 (by decide)).trans (W3_main_arg3 m ρ c)
theorem W1_main_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) := by
  show StableHlo.after hostOps1 (W2 m ρ c) (Proc.devRef .tc main_arg4) = _
  after_results_simp <;> exact W2_main_arg4 m ρ c
theorem W4_main_arg4 (c : Dev nD) : W4 m ρ c (Proc.devRef .tc main_arg4) = m ((c : Thread nD τ).loc main_arg4) :=
  (W4_of_ne m ρ c main_arg4 (by decide)).trans (W3_main_arg4 m ρ c)
theorem W1_main_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) := by
  show StableHlo.after hostOps1 (W2 m ρ c) (Proc.devRef .tc main_arg5) = _
  after_results_simp <;> exact W2_main_arg5 m ρ c
theorem W4_main_arg5 (c : Dev nD) : W4 m ρ c (Proc.devRef .tc main_arg5) = m ((c : Thread nD τ).loc main_arg5) :=
  (W4_of_ne m ρ c main_arg5 (by decide)).trans (W3_main_arg5 m ρ c)
theorem W1_main_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) := by
  show StableHlo.after hostOps1 (W2 m ρ c) (Proc.devRef .tc main_arg6) = _
  after_results_simp <;> exact W2_main_arg6 m ρ c
theorem W4_main_arg6 (c : Dev nD) : W4 m ρ c (Proc.devRef .tc main_arg6) = m ((c : Thread nD τ).loc main_arg6) :=
  (W4_of_ne m ρ c main_arg6 (by decide)).trans (W3_main_arg6 m ρ c)
theorem W1_main_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) := by
  show StableHlo.after hostOps1 (W2 m ρ c) (Proc.devRef .tc main_arg7) = _
  after_results_simp <;> exact W2_main_arg7 m ρ c
theorem W4_main_arg7 (c : Dev nD) : W4 m ρ c (Proc.devRef .tc main_arg7) = m ((c : Thread nD τ).loc main_arg7) :=
  (W4_of_ne m ρ c main_arg7 (by decide)).trans (W3_main_arg7 m ρ c)
theorem W1_main_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) := by
  show StableHlo.after hostOps1 (W2 m ρ c) (Proc.devRef .tc main_arg8) = _
  after_results_simp <;> exact W2_main_arg8 m ρ c
theorem W4_main_arg8 (c : Dev nD) : W4 m ρ c (Proc.devRef .tc main_arg8) = m ((c : Thread nD τ).loc main_arg8) :=
  (W4_of_ne m ρ c main_arg8 (by decide)).trans (W3_main_arg8 m ρ c)
theorem W1_main_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) := by
  show StableHlo.after hostOps1 (W2 m ρ c) (Proc.devRef .tc main_arg9) = _
  after_results_simp <;> exact W2_main_arg9 m ρ c
theorem W4_main_arg9 (c : Dev nD) : W4 m ρ c (Proc.devRef .tc main_arg9) = m ((c : Thread nD τ).loc main_arg9) :=
  (W4_of_ne m ρ c main_arg9 (by decide)).trans (W3_main_arg9 m ρ c)
theorem W1_main_arg10 (c : Dev nD) : W1 m ρ c (Proc.devRef .tc main_arg10) = m ((c : Thread nD τ).loc main_arg10) := by
  show StableHlo.after hostOps0 (W0 m ρ c) (Proc.devRef .tc main_arg10) = _
  after_results_simp <;> rfl
theorem W2_main_arg10 (c : Dev nD) : W2 m ρ c (Proc.devRef .tc main_arg10) = m ((c : Thread nD τ).loc main_arg10) :=
  (W2_of_ne m ρ c main_arg10 (by decide)).trans (W1_main_arg10 m ρ c)
theorem W3_main_arg10 (c : Dev nD) : W3 m ρ c (Proc.devRef .tc main_arg10) = m ((c : Thread nD τ).loc main_arg10) := by
  show StableHlo.after hostOps1 (W2 m ρ c) (Proc.devRef .tc main_arg10) = _
  after_results_simp <;> exact W2_main_arg10 m ρ c
theorem W4_main_arg10 (c : Dev nD) : W4 m ρ c (Proc.devRef .tc main_arg10) = m ((c : Thread nD τ).loc main_arg10) :=
  (W4_of_ne m ρ c main_arg10 (by decide)).trans (W3_main_arg10 m ρ c)
theorem W1_main_arg11 (c : Dev nD) : W1 m ρ c (Proc.devRef .tc main_arg11) = m ((c : Thread nD τ).loc main_arg11) := by
  show StableHlo.after hostOps0 (W0 m ρ c) (Proc.devRef .tc main_arg11) = _
  after_results_simp <;> rfl
theorem W2_main_arg11 (c : Dev nD) : W2 m ρ c (Proc.devRef .tc main_arg11) = m ((c : Thread nD τ).loc main_arg11) :=
  (W2_of_ne m ρ c main_arg11 (by decide)).trans (W1_main_arg11 m ρ c)
theorem W3_main_arg11 (c : Dev nD) : W3 m ρ c (Proc.devRef .tc main_arg11) = m ((c : Thread nD τ).loc main_arg11) := by
  show StableHlo.after hostOps1 (W2 m ρ c) (Proc.devRef .tc main_arg11) = _
  after_results_simp <;> exact W2_main_arg11 m ρ c
theorem W4_main_arg11 (c : Dev nD) : W4 m ρ c (Proc.devRef .tc main_arg11) = m ((c : Thread nD τ).loc main_arg11) :=
  (W4_of_ne m ρ c main_arg11 (by decide)).trans (W3_main_arg11 m ρ c)
theorem W1_main_arg12 (c : Dev nD) : W1 m ρ c (Proc.devRef .tc main_arg12) = m ((c : Thread nD τ).loc main_arg12) := by
  show StableHlo.after hostOps0 (W0 m ρ c) (Proc.devRef .tc main_arg12) = _
  after_results_simp <;> rfl
theorem W2_main_arg12 (c : Dev nD) : W2 m ρ c (Proc.devRef .tc main_arg12) = m ((c : Thread nD τ).loc main_arg12) :=
  (W2_of_ne m ρ c main_arg12 (by decide)).trans (W1_main_arg12 m ρ c)
theorem W3_main_arg12 (c : Dev nD) : W3 m ρ c (Proc.devRef .tc main_arg12) = m ((c : Thread nD τ).loc main_arg12) := by
  show StableHlo.after hostOps1 (W2 m ρ c) (Proc.devRef .tc main_arg12) = _
  after_results_simp <;> exact W2_main_arg12 m ρ c
theorem W4_main_arg12 (c : Dev nD) : W4 m ρ c (Proc.devRef .tc main_arg12) = m ((c : Thread nD τ).loc main_arg12) :=
  (W4_of_ne m ρ c main_arg12 (by decide)).trans (W3_main_arg12 m ρ c)
theorem W1_main_arg13 (c : Dev nD) : W1 m ρ c (Proc.devRef .tc main_arg13) = m ((c : Thread nD τ).loc main_arg13) := by
  show StableHlo.after hostOps0 (W0 m ρ c) (Proc.devRef .tc main_arg13) = _
  after_results_simp <;> rfl
theorem W2_main_arg13 (c : Dev nD) : W2 m ρ c (Proc.devRef .tc main_arg13) = m ((c : Thread nD τ).loc main_arg13) :=
  (W2_of_ne m ρ c main_arg13 (by decide)).trans (W1_main_arg13 m ρ c)
theorem W3_main_arg13 (c : Dev nD) : W3 m ρ c (Proc.devRef .tc main_arg13) = m ((c : Thread nD τ).loc main_arg13) := by
  show StableHlo.after hostOps1 (W2 m ρ c) (Proc.devRef .tc main_arg13) = _
  after_results_simp <;> exact W2_main_arg13 m ρ c
theorem W4_main_arg13 (c : Dev nD) : W4 m ρ c (Proc.devRef .tc main_arg13) = m ((c : Thread nD τ).loc main_arg13) :=
  (W4_of_ne m ρ c main_arg13 (by decide)).trans (W3_main_arg13 m ρ c)
theorem W1_main_arg14 (c : Dev nD) : W1 m ρ c (Proc.devRef .tc main_arg14) = m ((c : Thread nD τ).loc main_arg14) := by
  show StableHlo.after hostOps0 (W0 m ρ c) (Proc.devRef .tc main_arg14) = _
  after_results_simp <;> rfl
theorem W2_main_arg14 (c : Dev nD) : W2 m ρ c (Proc.devRef .tc main_arg14) = m ((c : Thread nD τ).loc main_arg14) :=
  (W2_of_ne m ρ c main_arg14 (by decide)).trans (W1_main_arg14 m ρ c)
theorem W3_main_arg14 (c : Dev nD) : W3 m ρ c (Proc.devRef .tc main_arg14) = m ((c : Thread nD τ).loc main_arg14) := by
  show StableHlo.after hostOps1 (W2 m ρ c) (Proc.devRef .tc main_arg14) = _
  after_results_simp <;> exact W2_main_arg14 m ρ c
theorem W4_main_arg14 (c : Dev nD) : W4 m ρ c (Proc.devRef .tc main_arg14) = m ((c : Thread nD τ).loc main_arg14) :=
  (W4_of_ne m ρ c main_arg14 (by decide)).trans (W3_main_arg14 m ρ c)
theorem W1_main_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) := by
  show StableHlo.after hostOps1 (W2 m ρ c) (Proc.devRef .tc main_arg2) = _
  after_results_simp <;> exact W2_main_arg2 m ρ c
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) := by
  show StableHlo.after hostOps2 (W4 m ρ c) (Proc.devRef .tc main_arg2) = _
  after_results_simp <;> exact W4_main_arg2 m ρ c
theorem W6_main_arg2 (c : Dev nD) : W6 m ρ c (Proc.devRef .tc main_arg2) = m ((c : Thread nD τ).loc main_arg2) :=
  (W6_of_ne m ρ c main_arg2 (by decide)).trans (W5_main_arg2 m ρ c)
theorem W1_main_arg15 (c : Dev nD) : W1 m ρ c (Proc.devRef .tc main_arg15) = m ((c : Thread nD τ).loc main_arg15) := by
  show StableHlo.after hostOps0 (W0 m ρ c) (Proc.devRef .tc main_arg15) = _
  after_results_simp <;> rfl
theorem W2_main_arg15 (c : Dev nD) : W2 m ρ c (Proc.devRef .tc main_arg15) = m ((c : Thread nD τ).loc main_arg15) :=
  (W2_of_ne m ρ c main_arg15 (by decide)).trans (W1_main_arg15 m ρ c)
theorem W3_main_arg15 (c : Dev nD) : W3 m ρ c (Proc.devRef .tc main_arg15) = m ((c : Thread nD τ).loc main_arg15) := by
  show StableHlo.after hostOps1 (W2 m ρ c) (Proc.devRef .tc main_arg15) = _
  after_results_simp <;> exact W2_main_arg15 m ρ c
theorem W4_main_arg15 (c : Dev nD) : W4 m ρ c (Proc.devRef .tc main_arg15) = m ((c : Thread nD τ).loc main_arg15) :=
  (W4_of_ne m ρ c main_arg15 (by decide)).trans (W3_main_arg15 m ρ c)
theorem W5_main_arg15 (c : Dev nD) : W5 m ρ c (Proc.devRef .tc main_arg15) = m ((c : Thread nD τ).loc main_arg15) := by
  show StableHlo.after hostOps2 (W4 m ρ c) (Proc.devRef .tc main_arg15) = _
  after_results_simp <;> exact W4_main_arg15 m ρ c
theorem W6_main_arg15 (c : Dev nD) : W6 m ρ c (Proc.devRef .tc main_arg15) = m ((c : Thread nD τ).loc main_arg15) :=
  (W6_of_ne m ρ c main_arg15 (by decide)).trans (W5_main_arg15 m ρ c)
theorem W1_main_arg16 (c : Dev nD) : W1 m ρ c (Proc.devRef .tc main_arg16) = m ((c : Thread nD τ).loc main_arg16) := by
  show StableHlo.after hostOps0 (W0 m ρ c) (Proc.devRef .tc main_arg16) = _
  after_results_simp <;> rfl
theorem W2_main_arg16 (c : Dev nD) : W2 m ρ c (Proc.devRef .tc main_arg16) = m ((c : Thread nD τ).loc main_arg16) :=
  (W2_of_ne m ρ c main_arg16 (by decide)).trans (W1_main_arg16 m ρ c)
theorem W3_main_arg16 (c : Dev nD) : W3 m ρ c (Proc.devRef .tc main_arg16) = m ((c : Thread nD τ).loc main_arg16) := by
  show StableHlo.after hostOps1 (W2 m ρ c) (Proc.devRef .tc main_arg16) = _
  after_results_simp <;> exact W2_main_arg16 m ρ c
theorem W4_main_arg16 (c : Dev nD) : W4 m ρ c (Proc.devRef .tc main_arg16) = m ((c : Thread nD τ).loc main_arg16) :=
  (W4_of_ne m ρ c main_arg16 (by decide)).trans (W3_main_arg16 m ρ c)
theorem W5_main_arg16 (c : Dev nD) : W5 m ρ c (Proc.devRef .tc main_arg16) = m ((c : Thread nD τ).loc main_arg16) := by
  show StableHlo.after hostOps2 (W4 m ρ c) (Proc.devRef .tc main_arg16) = _
  after_results_simp <;> exact W4_main_arg16 m ρ c
theorem W6_main_arg16 (c : Dev nD) : W6 m ρ c (Proc.devRef .tc main_arg16) = m ((c : Thread nD τ).loc main_arg16) :=
  (W6_of_ne m ρ c main_arg16 (by decide)).trans (W5_main_arg16 m ρ c)
theorem W1_main_arg17 (c : Dev nD) : W1 m ρ c (Proc.devRef .tc main_arg17) = m ((c : Thread nD τ).loc main_arg17) := by
  show StableHlo.after hostOps0 (W0 m ρ c) (Proc.devRef .tc main_arg17) = _
  after_results_simp <;> rfl
theorem W2_main_arg17 (c : Dev nD) : W2 m ρ c (Proc.devRef .tc main_arg17) = m ((c : Thread nD τ).loc main_arg17) :=
  (W2_of_ne m ρ c main_arg17 (by decide)).trans (W1_main_arg17 m ρ c)
theorem W3_main_arg17 (c : Dev nD) : W3 m ρ c (Proc.devRef .tc main_arg17) = m ((c : Thread nD τ).loc main_arg17) := by
  show StableHlo.after hostOps1 (W2 m ρ c) (Proc.devRef .tc main_arg17) = _
  after_results_simp <;> exact W2_main_arg17 m ρ c
theorem W4_main_arg17 (c : Dev nD) : W4 m ρ c (Proc.devRef .tc main_arg17) = m ((c : Thread nD τ).loc main_arg17) :=
  (W4_of_ne m ρ c main_arg17 (by decide)).trans (W3_main_arg17 m ρ c)
theorem W5_main_arg17 (c : Dev nD) : W5 m ρ c (Proc.devRef .tc main_arg17) = m ((c : Thread nD τ).loc main_arg17) := by
  show StableHlo.after hostOps2 (W4 m ρ c) (Proc.devRef .tc main_arg17) = _
  after_results_simp <;> exact W4_main_arg17 m ρ c
theorem W6_main_arg17 (c : Dev nD) : W6 m ρ c (Proc.devRef .tc main_arg17) = m ((c : Thread nD τ).loc main_arg17) :=
  (W6_of_ne m ρ c main_arg17 (by decide)).trans (W5_main_arg17 m ρ c)
theorem W1_main_arg18 (c : Dev nD) : W1 m ρ c (Proc.devRef .tc main_arg18) = m ((c : Thread nD τ).loc main_arg18) := by
  show StableHlo.after hostOps0 (W0 m ρ c) (Proc.devRef .tc main_arg18) = _
  after_results_simp <;> rfl
theorem W2_main_arg18 (c : Dev nD) : W2 m ρ c (Proc.devRef .tc main_arg18) = m ((c : Thread nD τ).loc main_arg18) :=
  (W2_of_ne m ρ c main_arg18 (by decide)).trans (W1_main_arg18 m ρ c)
theorem W3_main_arg18 (c : Dev nD) : W3 m ρ c (Proc.devRef .tc main_arg18) = m ((c : Thread nD τ).loc main_arg18) := by
  show StableHlo.after hostOps1 (W2 m ρ c) (Proc.devRef .tc main_arg18) = _
  after_results_simp <;> exact W2_main_arg18 m ρ c
theorem W4_main_arg18 (c : Dev nD) : W4 m ρ c (Proc.devRef .tc main_arg18) = m ((c : Thread nD τ).loc main_arg18) :=
  (W4_of_ne m ρ c main_arg18 (by decide)).trans (W3_main_arg18 m ρ c)
theorem W5_main_arg18 (c : Dev nD) : W5 m ρ c (Proc.devRef .tc main_arg18) = m ((c : Thread nD τ).loc main_arg18) := by
  show StableHlo.after hostOps2 (W4 m ρ c) (Proc.devRef .tc main_arg18) = _
  after_results_simp <;> exact W4_main_arg18 m ρ c
theorem W6_main_arg18 (c : Dev nD) : W6 m ρ c (Proc.devRef .tc main_arg18) = m ((c : Thread nD τ).loc main_arg18) :=
  (W6_of_ne m ρ c main_arg18 (by decide)).trans (W5_main_arg18 m ρ c)

end Cert.Gin.Chain

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.LibBlockNorm.lean ====
/-
  Three small facts on the extended reals, stated generally.

  * For a positive real r, multiplying by the reciprocal square root of r is dividing by the square root of r — for
    every extended real numerator, infinite ones included.
  * A sum over n blocks of k consecutive positions each is the sum over all n · k positions.
  * A select between two real numbers is a real number.
-/
import Idealize.ShloMosaic.PureOps.Ideal
import Idealize.ShloMosaic.PureOps.Ideal.Laws
import Idealize.ShloMosaic.Lib.ValueIdx

noncomputable section

open scoped BigOperators

namespace Cert.LibBlockNorm

open Idealize.ShloMosaic

/-- y · rsqrt(r) = y / sqrt(r) for a positive real r and any extended real y. -/
theorem mul_rsqrt_eq_div_sqrt (y : EReal) {r : ℝ} (hr : 0 < r) :
    y * Ideal.rsqrt (r : EReal) = Ideal.div y (Ideal.sqrt (r : EReal)) := by
  have hs : Real.sqrt r ≠ 0 := (Real.sqrt_pos.mpr hr).ne'
  rw [Ideal.rsqrt_coe, if_neg (not_lt.mpr hr.le), if_neg hr.ne', Ideal.sqrt_coe, if_neg (not_lt.mpr hr.le),
    Ideal.div_coe hs, one_div]

/-- The sum over n blocks of k consecutive positions is the sum over all n · k positions. -/
theorem sum_blocks {M : Type*} [AddCommMonoid M] (n k : ℕ) (f : Fin (n * k) → M) :
    ∑ b : Fin n, ∑ p : Fin k, f ⟨b.val * k + p.val, by
        have hb := b.isLt; have hp := p.isLt
        calc b.val * k + p.val < b.val * k + k := by omega
          _ = (b.val + 1) * k := by ring
          _ ≤ n * k := Nat.mul_le_mul_right k hb⟩ = ∑ i : Fin (n * k), f i := by
  rw [← Fintype.sum_prod_type', ← (finProdFinEquiv (m := n) (n := k)).sum_comp]
  refine Finset.sum_congr rfl fun x _ => congrArg f (Fin.ext ?_)
  show x.1.val * k + x.2.val = x.2.val + k * x.1.val
  ring

/-- A select between two values with a property has the property. -/
theorem select_prop {α : Type} (P : α → Prop) (b : BitVec 1) {x y : α} (hx : P x) (hy : P y) : P (Scalar.select b x y) := by
  unfold Scalar.select
  split <;> assumption

end Cert.LibBlockNorm

end
-- ==== Proof.GinRow.lean ====
/-
  One node's row through one graph-isomorphism layer, on the extended reals.

  A layer sends a node's 64 features z (its own features plus the sum over its in-neighbours) through two stages,
  each a linear map, an inference-mode batch normalisation and a rectifier:

      stage z c = max ( ((Σ_k z k · W k c) + b c − μ c) · s c + β c , 0 ),

  where the scale s c is γ c times the reciprocal square root of σ² c + ε on one side of the comparison and γ c
  divided by the square root of σ² c + ε on the other. For a variance that is a non-negative real number the argument
  σ² c + ε is a positive real (ε is the binary32 number nearest 1e-5, which is positive), and there the product with
  the reciprocal root IS the quotient by the root — for every extended real γ c, infinite ones included. For the one
  other non-negative extended real, σ² c = +∞, the argument is +∞, whose reciprocal root is 0 and whose root is +∞
  with inverse 0: both scales are γ c · 0. Nothing else differs between the two spellings, so when every entry of the
  two variance rows is ≥ 0 the two stages, and hence the two-stage rows, are equal.
-/
import Idealize.ShloMosaic.PureOps.Ideal
import Idealize.ShloMosaic.PureOps.Ideal.Laws
import proofs.«113432_j76991583748727_1_alg».proof.Proof.LibBlockNorm

noncomputable section

open scoped BigOperators

namespace Cert.Gin

open Idealize.ShloMosaic

/-- The batch normalisation's ε: the binary32 number nearest 1e-5, as an extended real. -/
def eps : EReal := Ideal.ofBits .f32 0x3727C5AC#32

/-- ε is a positive real number (10995116 / 2^40). -/
theorem eps_pos_real : ∃ e : ℝ, 0 < e ∧ eps = (e : EReal) := by
  refine ⟨10995116 * (2 ^ 40)⁻¹, by positivity, ?_⟩
  unfold eps
  simp only [Ideal.ofBits, Ideal.ieee]
  simp

/-- At σ² + ε with σ² a non-negative real, γ times the reciprocal root is γ over the root. -/
theorem scale_eq (g : EReal) {v : ℝ} (hv : 0 ≤ v) :
    g * Ideal.rsqrt ((v : EReal) + eps) = Ideal.div g (Ideal.sqrt ((v : EReal) + eps)) := by
  obtain ⟨e, he, hE⟩ := eps_pos_real
  rw [hE, ← EReal.coe_add]
  exact Cert.LibBlockNorm.mul_rsqrt_eq_div_sqrt g (add_pos_of_nonneg_of_pos hv he)

/-- At σ² + ε with σ² any non-negative extended real, γ times the reciprocal root is γ over the root. -/
theorem scale_eq' (g v : EReal) (hv : 0 ≤ v) :
    g * Ideal.rsqrt (v + eps) = Ideal.div g (Ideal.sqrt (v + eps)) := by
  induction v using EReal.rec with
  | bot => exact absurd hv (not_le.mpr EReal.bot_lt_zero)
  | coe r => exact scale_eq g (EReal.coe_nonneg.mp hv)
  | top =>
    obtain ⟨e, -, hE⟩ := eps_pos_real
    rw [hE, EReal.top_add_coe, Ideal.rsqrt_top, Ideal.sqrt_top]
    unfold Ideal.div
    rw [if_neg EReal.top_ne_zero, EReal.inv_top]

/-- One stage with the scale spelt γ · rsqrt(σ² + ε). -/
def stageK (z : Fin 64 → EReal) (W : Fin 64 → Fin 64 → EReal) (b g be mu v : Fin 64 → EReal) (c : Fin 64) : EReal :=
  max ((((∑ k : Fin 64, z k * W k c) + b c) - mu c) * (g c * Ideal.rsqrt (v c + eps)) + be c) 0

/-- One stage with the scale spelt γ / sqrt(σ² + ε). -/
def stageR (z : Fin 64 → EReal) (W : Fin 64 → Fin 64 → EReal) (b g be mu v : Fin 64 → EReal) (c : Fin 64) : EReal :=
  max ((((∑ k : Fin 64, z k * W k c) + b c) - mu c) * (Ideal.div (g c) (Ideal.sqrt (v c + eps))) + be c) 0

/-- A row of variances each of which is ≥ 0. -/
def NonnegReal (v : Fin 64 → EReal) : Prop := ∀ c, 0 ≤ v c

theorem stage_eq (z : Fin 64 → EReal) (W : Fin 64 → Fin 64 → EReal) (b g be mu v : Fin 64 → EReal)
    (hv : NonnegReal v) (c : Fin 64) : stageK z W b g be mu v c = stageR z W b g be mu v c := by
  unfold stageK stageR
  rw [scale_eq' (g c) (v c) (hv c)]

/-- The two-stage row, reciprocal-root spelling: the input is the node's features plus its neighbourhood sum. -/
def rowK (h a : Fin 64 → EReal) (W1 : Fin 64 → Fin 64 → EReal) (b1 g1 be1 m1 v1 : Fin 64 → EReal)
    (W2 : Fin 64 → Fin 64 → EReal) (b2 g2 be2 m2 v2 : Fin 64 → EReal) (c : Fin 64) : EReal :=
  stageK (stageK (fun k => h k + a k) W1 b1 g1 be1 m1 v1) W2 b2 g2 be2 m2 v2 c

/-- The two-stage row, quotient spelling. -/
def rowR (h a : Fin 64 → EReal) (W1 : Fin 64 → Fin 64 → EReal) (b1 g1 be1 m1 v1 : Fin 64 → EReal)
    (W2 : Fin 64 → Fin 64 → EReal) (b2 g2 be2 m2 v2 : Fin 64 → EReal) (c : Fin 64) : EReal :=
  stageR (stageR (fun k => h k + a k) W1 b1 g1 be1 m1 v1) W2 b2 g2 be2 m2 v2 c

theorem row_eq (h a : Fin 64 → EReal) (W1 : Fin 64 → Fin 64 → EReal) (b1 g1 be1 m1 v1 : Fin 64 → EReal)
    (W2 : Fin 64 → Fin 64 → EReal) (b2 g2 be2 m2 v2 : Fin 64 → EReal) (h1 : NonnegReal v1) (h2 : NonnegReal v2) (c : Fin 64) :
    rowK h a W1 b1 g1 be1 m1 v1 W2 b2 g2 be2 m2 v2 c = rowR h a W1 b1 g1 be1 m1 v1 W2 b2 g2 be2 m2 v2 c := by
  unfold rowK rowR
  rw [stage_eq _ W2 b2 g2 be2 m2 v2 h2 c]
  have e : stageK (fun k => h k + a k) W1 b1 g1 be1 m1 v1 = stageR (fun k => h k + a k) W1 b1 g1 be1 m1 v1 :=
    funext fun x => stage_eq _ W1 b1 g1 be1 m1 v1 h1 x
  rw [e]

end Cert.Gin

end
-- ==== Proof.GinStage.lean ====
/-
  One stage of a layer — linear map, inference-mode batch normalisation, rectifier — read at an index (p, q) of an
  [M, 64] array of node rows, in the two spellings that occur:

  * the tile spelling: a tile product into the zero accumulator, the bias, mean, scale and shift given as [1, 64]
    rows repeated over the M rows, the scale γ · rsqrt(σ² + ε) formed on the [1, 64] row;
  * the host spelling: a whole-array product, the same five vectors given as [64] arrays, made [1, 64] and then
    [M, 64] by two broadcasts, the scale γ / sqrt(σ² + ε) formed on the [64] array.

  At (p, q) each is the one-row stage of the node's row p: only row p of the input enters (through the product's sum
  over the contracted coordinate), and column q of every vector.
-/
import Idealize.ShloMosaic.PureOps.Ideal.Laws
import Idealize.ShloMosaic.Lib.ValueIdx
import Idealize.ShloMosaic.Lib.ValueLayout
import Idealize.ShloMosaic.Lib.Pipeline.Value
import proofs.«113432_j76991583748727_1_alg».proof.Proof.LibPlainDot
import proofs.«113432_j76991583748727_1_alg».proof.Proof.GinRow

noncomputable section

open scoped BigOperators

namespace Cert.Gin

open Idealize.ShloMosaic Idealize.ShloMosaic.ValueIdx Idealize.ShloMosaic.PlainDot

variable {M : Nat}

/-- The tile spelling of one stage, at (p, q), is the one-row stage of row p. -/
theorem tile_stage_apply (d : DotDims ⟨2, ![M, 64]⟩ ⟨2, ![64, 64]⟩ ⟨2, ![M, 64]⟩)
    (h1 : d.lhsContracting = [1]) (h2 : d.rhsContracting = [0]) (h3 : d.lhsNonContracting = [0])
    (h4 : d.rhsNonContracting = [1]) (h5 : d.lhsBatch = []) (h6 : d.rhsBatch = [])
    {φ₁ φ₂ : FTy} (z : FVec Ideal ⟨2, ![M, 64]⟩ φ₁) (W : FVec Ideal ⟨2, ![64, 64]⟩ φ₂)
    (b mu g v be : FVec Ideal ⟨2, ![1, 64]⟩ .f32)
    (hb : (⟨2, ![1, 64]⟩ : Shape).Broadcasts ⟨2, ![M, 64]⟩)
    (p : Fin M) (q : Fin 64) :
    maximumf (addf (mulf (subf (addf (FloatOps.matmul d none z W (constant (F := Ideal) ⟨2, ![M, 64]⟩ .f32 0x00000000#32))
          (broadcastTo ⟨2, ![M, 64]⟩ b hb))
          (broadcastTo ⟨2, ![M, 64]⟩ mu hb))
          (broadcastTo ⟨2, ![M, 64]⟩ (mulf g
            (rsqrt (addf v (broadcast ⟨2, ![1, 64]⟩ (Scalar.ofBits (F := Ideal) .f32 0x3727C5AC#32))))) hb))
          (broadcastTo ⟨2, ![M, 64]⟩ be hb))
        (broadcast ⟨2, ![M, 64]⟩ (Scalar.ofBits (F := Ideal) .f32 0x00000000#32)) (ix2 p q)
      = stageK (fun k => z (ix2 p k)) (fun k c => W (ix2 k c)) (fun c => b (ix2 0 c)) (fun c => g (ix2 0 c))
          (fun c => be (ix2 0 c)) (fun c => mu (ix2 0 c)) (fun c => v (ix2 0 c)) q := by
  simp only [maximumf_apply, addf_apply, mulf_apply, subf_apply, broadcast_apply, broadcastTo_1b_ab_apply]
  rw [matmul_zero_plain d h1 h2 h3 h4 h5 h6]
  unfold stageK eps
  rw [show Scalar.ofBits (F := Ideal) .f32 0x00000000#32 = (0 : EReal) from Ideal.ofBits_zero_f32]
  rfl

/-- A [64] array made [1, 64] and then [M, 64] by two broadcasts reads, at (p, q), the array at q. -/
theorem bcast_row_apply {α : Type} (h11 : (⟨1, ![64]⟩ : Shape).BroadcastsInDim ⟨2, ![1, 64]⟩ ![1])
    (h1M : (⟨2, ![1, 64]⟩ : Shape).BroadcastsInDim ⟨2, ![M, 64]⟩ ![0, 1])
    (x : (⟨1, ![64]⟩ : Shape).Idx → α) (p : Fin M) (q : Fin 64) :
    broadcastInDim ⟨2, ![M, 64]⟩ ![0, 1] h1M (broadcastInDim ⟨2, ![1, 64]⟩ ![1] h11 x) (ix2 p q) = x (ix1 q) := by
  rw [broadcastInDim_apply _ h1M _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])]
  exact broadcastInDim_apply _ h11 x (ix2 (0 : Fin 1) q) (ix1 q) (fun a => match a with
    | ⟨0, _⟩ => by show q.val = if (64 : Nat) = 1 then 0 else q.val; rw [if_neg (by decide)])

/-- A scalar broadcast to any shape reads the scalar everywhere. -/
theorem bcast_scalar_apply {α : Type} {t : Shape} (h0 : (⟨0, ![]⟩ : Shape).BroadcastsInDim t ![])
    (x : (⟨0, ![]⟩ : Shape).Idx → α) (j : t.Idx) :
    broadcastInDim t ![] h0 x j = x (fun a => a.elim0) :=
  broadcastInDim_apply _ h0 x j (fun a => a.elim0) (fun a => a.elim0)

/-- The host spelling of one stage, at (p, q), is the one-row stage (quotient spelling) of row p. -/
theorem host_stage_apply (d : DotDims ⟨2, ![M, 64]⟩ ⟨2, ![64, 64]⟩ ⟨2, ![M, 64]⟩)
    (h1 : d.lhsContracting = [1]) (h2 : d.rhsContracting = [0]) (h3 : d.lhsNonContracting = [0])
    (h4 : d.rhsNonContracting = [1]) (h5 : d.lhsBatch = []) (h6 : d.rhsBatch = [])
    (z : FVec Ideal ⟨2, ![M, 64]⟩ .f32) (W : FVec Ideal ⟨2, ![64, 64]⟩ .f32)
    (b mu g v be : FVec Ideal ⟨1, ![64]⟩ .f32)
    (h11 : (⟨1, ![64]⟩ : Shape).BroadcastsInDim ⟨2, ![1, 64]⟩ ![1])
    (h1M : (⟨2, ![1, 64]⟩ : Shape).BroadcastsInDim ⟨2, ![M, 64]⟩ ![0, 1])
    (h0 : (⟨0, ![]⟩ : Shape).BroadcastsInDim ⟨1, ![64]⟩ ![])
    (h0M : (⟨0, ![]⟩ : Shape).BroadcastsInDim ⟨2, ![M, 64]⟩ ![])
    (p : Fin M) (q : Fin 64) :
    maximumf (addf (mulf (subf (addf (Host.dotGeneral d none z W)
          (broadcastInDim ⟨2, ![M, 64]⟩ ![0, 1] h1M (broadcastInDim ⟨2, ![1, 64]⟩ ![1] h11 b)))
          (broadcastInDim ⟨2, ![M, 64]⟩ ![0, 1] h1M (broadcastInDim ⟨2, ![1, 64]⟩ ![1] h11 mu)))
          (broadcastInDim ⟨2, ![M, 64]⟩ ![0, 1] h1M (broadcastInDim ⟨2, ![1, 64]⟩ ![1] h11
            (Host.divf g (Host.sqrt (addf v (broadcastInDim ⟨1, ![64]⟩ ![] h0 (constant (F := Ideal) ⟨0, ![]⟩ .f32 0x3727C5AC#32))))))))
          (broadcastInDim ⟨2, ![M, 64]⟩ ![0, 1] h1M (broadcastInDim ⟨2, ![1, 64]⟩ ![1] h11 be)))
        (broadcastInDim ⟨2, ![M, 64]⟩ ![] h0M (constant (F := Ideal) ⟨0, ![]⟩ .f32 0x00000000#32)) (ix2 p q)
      = stageR (fun k => z (ix2 p k)) (fun k c => W (ix2 k c)) (fun c => b (ix1 c)) (fun c => g (ix1 c))
          (fun c => be (ix1 c)) (fun c => mu (ix1 c)) (fun c => v (ix1 c)) q := by
  simp only [maximumf_apply, addf_apply, mulf_apply, subf_apply]
  rw [bcast_row_apply h11 h1M b p q, bcast_row_apply h11 h1M mu p q, bcast_row_apply h11 h1M be p q,
    bcast_row_apply h11 h1M _ p q, bcast_scalar_apply h0M _ (ix2 p q), constant_apply, Ideal.ofBits_zero_f32]
  simp only [Host.dotGeneral]
  rw [dotGeneral_plain d h1 h2 h3 h4 h5 h6]
  unfold stageR eps
  rfl

/-- A whole layer on an [N, 64] array of node rows, reciprocal-root spelling, the twelve parameters given as the
    kernel's windows hold them ([64, 64] matrices and [1, 64] rows): entry (r, c) is the two-stage row of node r. -/
def layerK {N : Nat} (h a : (⟨2, ![N, 64]⟩ : Shape).Idx → EReal) (W1 : (⟨2, ![64, 64]⟩ : Shape).Idx → EReal)
    (b1 g1 be1 m1 v1 : (⟨2, ![1, 64]⟩ : Shape).Idx → EReal) (W2 : (⟨2, ![64, 64]⟩ : Shape).Idx → EReal)
    (b2 g2 be2 m2 v2 : (⟨2, ![1, 64]⟩ : Shape).Idx → EReal) : (⟨2, ![N, 64]⟩ : Shape).Idx → EReal :=
  fun i => rowK (fun k => h (ix2 (i 0) k)) (fun k => a (ix2 (i 0) k)) (fun k c => W1 (ix2 k c))
    (fun c => b1 (ix2 0 c)) (fun c => g1 (ix2 0 c)) (fun c => be1 (ix2 0 c)) (fun c => m1 (ix2 0 c)) (fun c => v1 (ix2 0 c))
    (fun k c => W2 (ix2 k c))
    (fun c => b2 (ix2 0 c)) (fun c => g2 (ix2 0 c)) (fun c => be2 (ix2 0 c)) (fun c => m2 (ix2 0 c)) (fun c => v2 (ix2 0 c)) (i 1)

end Cert.Gin

end
-- ==== Proof.GinRegion0.lean ====
/-
  Region 0 of the program: what its output array holds when the region ends.

  The region runs the layer body at 20 grid points. At point t the body sees rows 5000·t … 5000·t + 4999 of the node
  features and of the neighbourhood sums (the two row-blocked inputs) and the twelve parameter arrays whole (their
  block index is constant), and stores a [5000, 64] block whose entry (p, q) is the two-stage row of node 5000·t + p
  at column q: a row of the layer depends on that node's row alone, so the layer on a block of rows is the block of
  the layer. The 20 blocks are disjoint and fill the [100000, 64] output (node r is in block r / 5000), hence the
  output array ends at the layer of the whole arrays as the region finds them.
-/
import proofs.«113432_j76991583748727_1_alg».proof.Proof.Gen.KernelIdeal.Frame
import proofs.«113432_j76991583748727_1_alg».proof.Proof.GinStage
import Idealize.ShloMosaic.Lib.Pipeline.Value
import Idealize.ShloMosaic.Lib.ValueIdx

set_option maxRecDepth 16384

noncomputable section

open scoped BigOperators

namespace Cert.Gin.Region0

open Cert.KernelIdeal Cert.KernelIdeal.Gen Cert.Gin
open Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-- The block the body stores is the layer on the 5000 rows the point's blocks hold. -/
theorem out_eq (x0 x1 : Vec Ideal S5000x64 .f32) (x2 : Vec Ideal S64x64 .f32) (x3 x4 x5 x6 x7 : Vec Ideal S1x64 .f32)
    (x8 : Vec Ideal S64x64 .f32) (x9 x10 x11 x12 x13 : Vec Ideal S1x64 .f32) :
    out0_14 (F := Ideal) x0 x1 x2 x3 x4 x5 x6 x7 x8 x9 x10 x11 x12 x13 = layerK (N := 5000) x0 x1 x2 x3 x4 x5 x6 x7 x8 x9 x10 x11 x12 x13 := by
  funext j
  obtain ⟨p, q, rfl⟩ : ∃ (p : Fin 5000) (q : Fin 64), j = ix2 p q := ⟨j 0, j 1, eq_ix2 j⟩
  unfold out0_14
  rw [View.canon_unit_zero hz]
  simp only [View.ld_unit_zero (S := S5000x64) hz, View.ld_unit_zero (S := S64x64) hz, View.ld_unit_zero (S := S1x64) hz]
  unfold k0_pay1 k0_pay2 k0_pay3
  simp only [shapeCast_self]
  refine (tile_stage_apply dot_S5000x64_S64x64_S5000x64_1_0_0_1_n_n rfl rfl rfl rfl rfl rfl _ _ x9 x12 x10 x13 x11
    broadcasts_S1x64_S5000x64 p q).trans ?_
  unfold layerK rowK
  refine congrArg₂ (fun z W => stageK z W _ _ _ _ _ q) (funext fun k => ?_) rfl
  exact tile_stage_apply dot_S5000x64_S64x64_S5000x64_1_0_0_1_n_n rfl rfl rfl rfl rfl rfl _ _ x3 x6 x4 x7 x5
    broadcasts_S1x64_S5000x64 p k

/-- The layer on a block of 5000 consecutive rows is that block of the layer on all rows. -/
theorem layer_block (T : Nat) (h a : S100000x64.Idx → EReal) (hb ab : S5000x64.Idx → EReal)
    (W1 : S64x64.Idx → EReal) (b1 g1 be1 m1 v1 : S1x64.Idx → EReal) (W2 : S64x64.Idx → EReal) (b2 g2 be2 m2 v2 : S1x64.Idx → EReal)
    (y : S5000x64.Idx) (i : S100000x64.Idx) (hi0 : (i 0).val = T * 5000 + (y 0).val) (hi1 : i 1 = y 1)
    (eh : ∀ (r : Fin 5000) (r' : Fin 100000) (k : Fin 64), r'.val = T * 5000 + r.val → hb (ix2 r k) = h (ix2 r' k))
    (ea : ∀ (r : Fin 5000) (r' : Fin 100000) (k : Fin 64), r'.val = T * 5000 + r.val → ab (ix2 r k) = a (ix2 r' k)) :
    layerK (N := 5000) hb ab W1 b1 g1 be1 m1 v1 W2 b2 g2 be2 m2 v2 y
      = layerK (N := 100000) h a W1 b1 g1 be1 m1 v1 W2 b2 g2 be2 m2 v2 i := by
  unfold layerK
  rw [hi1]
  have e1 : (fun k : Fin 64 => hb (ix2 (y 0) k)) = fun k => h (ix2 (i 0) k) := funext fun k => eh (y 0) (i 0) k hi0
  have e2 : (fun k : Fin 64 => ab (ix2 (y 0) k)) = fun k => a (ix2 (i 0) k) := funext fun k => ea (y 0) (i 0) k hi0
  rw [e1, e2]

variable (V : (c : Dev nD) → (b : Ref sig .tc) → Buf (Elt Ideal) ((c : Thread nD τ).loc b))

/-- The printed index maps, decided over the 20 grid points: the output and the two row-blocked inputs are at block
    (t, 0), every parameter at block (0, 0). -/
theorem idx_facts : ∀ t : Fin cfg0.N,
    win0_14.index t (0 : Fin 2) = t.val ∧ win0_14.index t (1 : Fin 2) = 0
    ∧ win0_0.index t (0 : Fin 2) = t.val ∧ win0_0.index t (1 : Fin 2) = 0
    ∧ win0_1.index t (0 : Fin 2) = t.val ∧ win0_1.index t (1 : Fin 2) = 0
    ∧ (∀ a : Fin 2, win0_2.index t a = 0)
    ∧ (∀ a : Fin 2, win0_3.index t a = 0)
    ∧ (∀ a : Fin 2, win0_4.index t a = 0)
    ∧ (∀ a : Fin 2, win0_5.index t a = 0)
    ∧ (∀ a : Fin 2, win0_6.index t a = 0)
    ∧ (∀ a : Fin 2, win0_7.index t a = 0)
    ∧ (∀ a : Fin 2, win0_8.index t a = 0)
    ∧ (∀ a : Fin 2, win0_9.index t a = 0)
    ∧ (∀ a : Fin 2, win0_10.index t a = 0)
    ∧ (∀ a : Fin 2, win0_11.index t a = 0)
    ∧ (∀ a : Fin 2, win0_12.index t a = 0)
    ∧ (∀ a : Fin 2, win0_13.index t a = 0) :=
  (by decide +kernel : ∀ t : Fin grid0.N, _)

/-- The layer of the whole arrays as the region finds them. -/
abbrev G (c : Dev nD) : S100000x64.Idx → EReal :=
  layerK (N := 100000) (V c main_arg0) (V c main_v13) (V c main_v15) (V c main_v38) (V c main_v39) (V c main_v40) (V c main_v41) (V c main_v42) (V c main_v27) (V c main_v43) (V c main_v44) (V c main_v45) (V c main_v46) (V c main_v47)

set_option maxHeartbeats 1600000 in
/-- What point t writes back is block t of the layer of the whole arrays. -/
theorem flushed_eq (c : Dev nD) (t : Fin cfg0.N) :
    (dat0 V c).flushed 14 t = ((cfg0.win 14).blk t).view.read (Elt Ideal) (G V c) := by
  show (cfg0.win 14).cut (grid0.coords t) ((dat0 V c).after 14 t) = _
  rw [after0_14, out_eq]
  obtain ⟨o0, o1, h0, h1, a0, a1, e2, e3, e4, e5, e6, e7, e8, e9, e10, e11, e12, e13⟩ := idx_facts t
  have p2 : iblk0 V c 2 t = V c main_v15 := by
    funext y
    show V c main_v15 (((cfg0.win 2).blk t).view.emb y) = V c main_v15 y
    refine congrArg (V c main_v15) (funext fun a => Fin.ext ?_)
    match a with
    | ⟨0, _⟩ => show win0_2.index t (0 : Fin 2) * 64 + 1 * (y 0).val = (y 0).val; rw [e2 0]; omega
    | ⟨1, _⟩ => show win0_2.index t (1 : Fin 2) * 64 + 1 * (y 1).val = (y 1).val; rw [e2 1]; omega
  have p3 : iblk0 V c 3 t = V c main_v38 := by
    funext y
    show V c main_v38 (((cfg0.win 3).blk t).view.emb y) = V c main_v38 y
    refine congrArg (V c main_v38) (funext fun a => Fin.ext ?_)
    match a with
    | ⟨0, _⟩ => show win0_3.index t (0 : Fin 2) * 1 + 1 * (y 0).val = (y 0).val; rw [e3 0]; omega
    | ⟨1, _⟩ => show win0_3.index t (1 : Fin 2) * 64 + 1 * (y 1).val = (y 1).val; rw [e3 1]; omega
  have p4 : iblk0 V c 4 t = V c main_v39 := by
    funext y
    show V c main_v39 (((cfg0.win 4).blk t).view.emb y) = V c main_v39 y
    refine congrArg (V c main_v39) (funext fun a => Fin.ext ?_)
    match a with
    | ⟨0, _⟩ => show win0_4.index t (0 : Fin 2) * 1 + 1 * (y 0).val = (y 0).val; rw [e4 0]; omega
    | ⟨1, _⟩ => show win0_4.index t (1 : Fin 2) * 64 + 1 * (y 1).val = (y 1).val; rw [e4 1]; omega
  have p5 : iblk0 V c 5 t = V c main_v40 := by
    funext y
    show V c main_v40 (((cfg0.win 5).blk t).view.emb y) = V c main_v40 y
    refine congrArg (V c main_v40) (funext fun a => Fin.ext ?_)
    match a with
    | ⟨0, _⟩ => show win0_5.index t (0 : Fin 2) * 1 + 1 * (y 0).val = (y 0).val; rw [e5 0]; omega
    | ⟨1, _⟩ => show win0_5.index t (1 : Fin 2) * 64 + 1 * (y 1).val = (y 1).val; rw [e5 1]; omega
  have p6 : iblk0 V c 6 t = V c main_v41 := by
    funext y
    show V c main_v41 (((cfg0.win 6).blk t).view.emb y) = V c main_v41 y
    refine congrArg (V c main_v41) (funext fun a => Fin.ext ?_)
    match a with
    | ⟨0, _⟩ => show win0_6.index t (0 : Fin 2) * 1 + 1 * (y 0).val = (y 0).val; rw [e6 0]; omega
    | ⟨1, _⟩ => show win0_6.index t (1 : Fin 2) * 64 + 1 * (y 1).val = (y 1).val; rw [e6 1]; omega
  have p7 : iblk0 V c 7 t = V c main_v42 := by
    funext y
    show V c main_v42 (((cfg0.win 7).blk t).view.emb y) = V c main_v42 y
    refine congrArg (V c main_v42) (funext fun a => Fin.ext ?_)
    match a with
    | ⟨0, _⟩ => show win0_7.index t (0 : Fin 2) * 1 + 1 * (y 0).val = (y 0).val; rw [e7 0]; omega
    | ⟨1, _⟩ => show win0_7.index t (1 : Fin 2) * 64 + 1 * (y 1).val = (y 1).val; rw [e7 1]; omega
  have p8 : iblk0 V c 8 t = V c main_v27 := by
    funext y
    show V c main_v27 (((cfg0.win 8).blk t).view.emb y) = V c main_v27 y
    refine congrArg (V c main_v27) (funext fun a => Fin.ext ?_)
    match a with
    | ⟨0, _⟩ => show win0_8.index t (0 : Fin 2) * 64 + 1 * (y 0).val = (y 0).val; rw [e8 0]; omega
    | ⟨1, _⟩ => show win0_8.index t (1 : Fin 2) * 64 + 1 * (y 1).val = (y 1).val; rw [e8 1]; omega
  have p9 : iblk0 V c 9 t = V c main_v43 := by
    funext y
    show V c main_v43 (((cfg0.win 9).blk t).view.emb y) = V c main_v43 y
    refine congrArg (V c main_v43) (funext fun a => Fin.ext ?_)
    match a with
    | ⟨0, _⟩ => show win0_9.index t (0 : Fin 2) * 1 + 1 * (y 0).val = (y 0).val; rw [e9 0]; omega
    | ⟨1, _⟩ => show win0_9.index t (1 : Fin 2) * 64 + 1 * (y 1).val = (y 1).val; rw [e9 1]; omega
  have p10 : iblk0 V c 10 t = V c main_v44 := by
    funext y
    show V c main_v44 (((cfg0.win 10).blk t).view.emb y) = V c main_v44 y
    refine congrArg (V c main_v44) (funext fun a => Fin.ext ?_)
    match a with
    | ⟨0, _⟩ => show win0_10.index t (0 : Fin 2) * 1 + 1 * (y 0).val = (y 0).val; rw [e10 0]; omega
    | ⟨1, _⟩ => show win0_10.index t (1 : Fin 2) * 64 + 1 * (y 1).val = (y 1).val; rw [e10 1]; omega
  have p11 : iblk0 V c 11 t = V c main_v45 := by
    funext y
    show V c main_v45 (((cfg0.win 11).blk t).view.emb y) = V c main_v45 y
    refine congrArg (V c main_v45) (funext fun a => Fin.ext ?_)
    match a with
    | ⟨0, _⟩ => show win0_11.index t (0 : Fin 2) * 1 + 1 * (y 0).val = (y 0).val; rw [e11 0]; omega
    | ⟨1, _⟩ => show win0_11.index t (1 : Fin 2) * 64 + 1 * (y 1).val = (y 1).val; rw [e11 1]; omega
  have p12 : iblk0 V c 12 t = V c main_v46 := by
    funext y
    show V c main_v46 (((cfg0.win 12).blk t).view.emb y) = V c main_v46 y
    refine congrArg (V c main_v46) (funext fun a => Fin.ext ?_)
    match a with
    | ⟨0, _⟩ => show win0_12.index t (0 : Fin 2) * 1 + 1 * (y 0).val = (y 0).val; rw [e12 0]; omega
    | ⟨1, _⟩ => show win0_12.index t (1 : Fin 2) * 64 + 1 * (y 1).val = (y 1).val; rw [e12 1]; omega
  have p13 : iblk0 V c 13 t = V c main_v47 := by
    funext y
    show V c main_v47 (((cfg0.win 13).blk t).view.emb y) = V c main_v47 y
    refine congrArg (V c main_v47) (funext fun a => Fin.ext ?_)
    match a with
    | ⟨0, _⟩ => show win0_13.index t (0 : Fin 2) * 1 + 1 * (y 0).val = (y 0).val; rw [e13 0]; omega
    | ⟨1, _⟩ => show win0_13.index t (1 : Fin 2) * 64 + 1 * (y 1).val = (y 1).val; rw [e13 1]; omega
  rw [p2, p3, p4, p5, p6, p7, p8, p9, p10, p11, p12, p13]
  funext j
  show layerK (N := 5000) (iblk0 V c 0 t) (iblk0 V c 1 t) (V c main_v15) (V c main_v38) (V c main_v39) (V c main_v40) (V c main_v41) (V c main_v42) (V c main_v27) (V c main_v43) (V c main_v44) (V c main_v45) (V c main_v46) (V c main_v47) j
    = layerK (N := 100000) (V c main_arg0) (V c main_v13) (V c main_v15) (V c main_v38) (V c main_v39) (V c main_v40) (V c main_v41) (V c main_v42) (V c main_v27) (V c main_v43) (V c main_v44) (V c main_v45) (V c main_v46) (V c main_v47) (((cfg0.win 14).blk t).view.emb j)
  refine layer_block t.val _ _ _ _ _ _ _ _ _ _ _ _ _ _ _ _ j _ ?_ ?_ ?_ ?_
  · show win0_14.index t (0 : Fin 2) * 5000 + 1 * (j 0).val = t.val * 5000 + (j 0).val
    rw [o0]; omega
  · refine Fin.ext ?_
    show win0_14.index t (1 : Fin 2) * 64 + 1 * (j 1).val = (j 1).val
    rw [o1]; omega
  · intro r r' k hr
    show V c main_arg0 (((cfg0.win 0).blk t).view.emb (ix2 r k)) = V c main_arg0 (ix2 r' k)
    refine congrArg (V c main_arg0) (funext fun a => Fin.ext ?_)
    match a with
    | ⟨0, _⟩ => show win0_0.index t (0 : Fin 2) * 5000 + 1 * r.val = r'.val; rw [h0]; omega
    | ⟨1, _⟩ => show win0_0.index t (1 : Fin 2) * 64 + 1 * k.val = k.val; rw [h1]; omega
  · intro r r' k hr
    show V c main_v13 (((cfg0.win 1).blk t).view.emb (ix2 r k)) = V c main_v13 (ix2 r' k)
    refine congrArg (V c main_v13) (funext fun a => Fin.ext ?_)
    match a with
    | ⟨0, _⟩ => show win0_1.index t (0 : Fin 2) * 5000 + 1 * r.val = r'.val; rw [a0]; omega
    | ⟨1, _⟩ => show win0_1.index t (1 : Fin 2) * 64 + 1 * k.val = k.val; rw [a1]; omega

/-- An index of the output array is in point t's block iff each coordinate is in the block's range on its axis. -/
theorem mem_blk (t : Fin cfg0.N) (i : S100000x64.Idx) :
    i ∈ ((cfg0.win 14).blk t).view.set ↔ ∀ a : Fin 2, win0_14.index t a * S5000x64.size a ≤ (i a).val
      ∧ (i a).val < win0_14.index t a * S5000x64.size a + S5000x64.size a := by
  show i ∈ ((View.whole main_v48).slice (win0_14.rect t)).set ↔ _
  rw [View.set_slice_whole, Rect.mem_set_unit]
  exact Iff.rfl

/-- Every index of the output array is in the block of the point its row selects: node r is in block r / 5000. -/
theorem cover (i : S100000x64.Idx) :
    ∃ t : Fin cfg0.N, (cfg0.win 14).flush t = true ∧ i ∈ ((cfg0.win 14).blk t).view.set := by
  have hi0 : (i 0).val < 100000 := (i 0).isLt
  have hi1 : (i 1).val < 64 := (i 1).isLt
  have ht : (i 0).val / 5000 < 20 := by omega
  refine ⟨⟨(i 0).val / 5000, ht⟩, flush0_14 _, ?_⟩
  rw [mem_blk]
  obtain ⟨o0, o1, -⟩ := idx_facts ⟨(i 0).val / 5000, ht⟩
  intro a
  match a with
  | ⟨0, _⟩ =>
    show win0_14.index ⟨(i 0).val / 5000, ht⟩ (0 : Fin 2) * 5000 ≤ (i 0).val
      ∧ (i 0).val < win0_14.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win0_14.index ⟨(i 0).val / 5000, ht⟩ (1 : Fin 2) * 64 ≤ (i 1).val
      ∧ (i 1).val < win0_14.index ⟨(i 0).val / 5000, ht⟩ (1 : Fin 2) * 64 + 64
    rw [o1]; omega

/-- The output array when the region ends: the layer of the whole arrays as the region finds them. -/
theorem final (c : Dev nD) : (dat0 V c).arrAt 14 cfg0.N = G V c :=
  (dat0 V c).arrAt_eq_of_cover 14 (G V c) (fun t _ => flushed_eq V c t) (cover)

end Cert.Gin.Region0

end
-- ==== Proof.GinRegion1.lean ====
/-
  Region 1 of the program: what its output array holds when the region ends.

  The region runs the layer body at 20 grid points. At point t the body sees rows 5000·t … 5000·t + 4999 of the node
  features and of the neighbourhood sums (the two row-blocked inputs) and the twelve parameter arrays whole (their
  block index is constant), and stores a [5000, 64] block whose entry (p, q) is the two-stage row of node 5000·t + p
  at column q: a row of the layer depends on that node's row alone, so the layer on a block of rows is the block of
  the layer. The 20 blocks are disjoint and fill the [100000, 64] output (node r is in block r / 5000), hence the
  output array ends at the layer of the whole arrays as the region finds them.
-/
import proofs.«113432_j76991583748727_1_alg».proof.Proof.Gen.KernelIdeal.Frame
import proofs.«113432_j76991583748727_1_alg».proof.Proof.GinStage
import Idealize.ShloMosaic.Lib.Pipeline.Value
import Idealize.ShloMosaic.Lib.ValueIdx

set_option maxRecDepth 16384

noncomputable section

open scoped BigOperators

namespace Cert.Gin.Region1

open Cert.KernelIdeal Cert.KernelIdeal.Gen Cert.Gin
open Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-- The block the body stores is the layer on the 5000 rows the point's blocks hold. -/
theorem out_eq (x0 x1 : Vec Ideal S5000x64 .f32) (x2 : Vec Ideal S64x64 .f32) (x3 x4 x5 x6 x7 : Vec Ideal S1x64 .f32)
    (x8 : Vec Ideal S64x64 .f32) (x9 x10 x11 x12 x13 : Vec Ideal S1x64 .f32) :
    out1_14 (F := Ideal) x0 x1 x2 x3 x4 x5 x6 x7 x8 x9 x10 x11 x12 x13 = layerK (N := 5000) x0 x1 x2 x3 x4 x5 x6 x7 x8 x9 x10 x11 x12 x13 := by
  funext j
  obtain ⟨p, q, rfl⟩ : ∃ (p : Fin 5000) (q : Fin 64), j = ix2 p q := ⟨j 0, j 1, eq_ix2 j⟩
  unfold out1_14
  rw [View.canon_unit_zero hz]
  simp only [View.ld_unit_zero (S := S5000x64) hz, View.ld_unit_zero (S := S64x64) hz, View.ld_unit_zero (S := S1x64) hz]
  unfold k1_pay1 k1_pay2 k1_pay3
  simp only [shapeCast_self]
  refine (tile_stage_apply dot_S5000x64_S64x64_S5000x64_1_0_0_1_n_n rfl rfl rfl rfl rfl rfl _ _ x9 x12 x10 x13 x11
    broadcasts_S1x64_S5000x64 p q).trans ?_
  unfold layerK rowK
  refine congrArg₂ (fun z W => stageK z W _ _ _ _ _ q) (funext fun k => ?_) rfl
  exact tile_stage_apply dot_S5000x64_S64x64_S5000x64_1_0_0_1_n_n rfl rfl rfl rfl rfl rfl _ _ x3 x6 x4 x7 x5
    broadcasts_S1x64_S5000x64 p k

/-- The layer on a block of 5000 consecutive rows is that block of the layer on all rows. -/
theorem layer_block (T : Nat) (h a : S100000x64.Idx → EReal) (hb ab : S5000x64.Idx → EReal)
    (W1 : S64x64.Idx → EReal) (b1 g1 be1 m1 v1 : S1x64.Idx → EReal) (W2 : S64x64.Idx → EReal) (b2 g2 be2 m2 v2 : S1x64.Idx → EReal)
    (y : S5000x64.Idx) (i : S100000x64.Idx) (hi0 : (i 0).val = T * 5000 + (y 0).val) (hi1 : i 1 = y 1)
    (eh : ∀ (r : Fin 5000) (r' : Fin 100000) (k : Fin 64), r'.val = T * 5000 + r.val → hb (ix2 r k) = h (ix2 r' k))
    (ea : ∀ (r : Fin 5000) (r' : Fin 100000) (k : Fin 64), r'.val = T * 5000 + r.val → ab (ix2 r k) = a (ix2 r' k)) :
    layerK (N := 5000) hb ab W1 b1 g1 be1 m1 v1 W2 b2 g2 be2 m2 v2 y
      = layerK (N := 100000) h a W1 b1 g1 be1 m1 v1 W2 b2 g2 be2 m2 v2 i := by
  unfold layerK
  rw [hi1]
  have e1 : (fun k : Fin 64 => hb (ix2 (y 0) k)) = fun k => h (ix2 (i 0) k) := funext fun k => eh (y 0) (i 0) k hi0
  have e2 : (fun k : Fin 64 => ab (ix2 (y 0) k)) = fun k => a (ix2 (i 0) k) := funext fun k => ea (y 0) (i 0) k hi0
  rw [e1, e2]

variable (V : (c : Dev nD) → (b : Ref sig .tc) → Buf (Elt Ideal) ((c : Thread nD τ).loc b))

/-- The printed index maps, decided over the 20 grid points: the output and the two row-blocked inputs are at block
    (t, 0), every parameter at block (0, 0). -/
theorem idx_facts : ∀ t : Fin cfg1.N,
    win1_14.index t (0 : Fin 2) = t.val ∧ win1_14.index t (1 : Fin 2) = 0
    ∧ win1_0.index t (0 : Fin 2) = t.val ∧ win1_0.index t (1 : Fin 2) = 0
    ∧ win1_1.index t (0 : Fin 2) = t.val ∧ win1_1.index t (1 : Fin 2) = 0
    ∧ (∀ a : Fin 2, win1_2.index t a = 0)
    ∧ (∀ a : Fin 2, win1_3.index t a = 0)
    ∧ (∀ a : Fin 2, win1_4.index t a = 0)
    ∧ (∀ a : Fin 2, win1_5.index t a = 0)
    ∧ (∀ a : Fin 2, win1_6.index t a = 0)
    ∧ (∀ a : Fin 2, win1_7.index t a = 0)
    ∧ (∀ a : Fin 2, win1_8.index t a = 0)
    ∧ (∀ a : Fin 2, win1_9.index t a = 0)
    ∧ (∀ a : Fin 2, win1_10.index t a = 0)
    ∧ (∀ a : Fin 2, win1_11.index t a = 0)
    ∧ (∀ a : Fin 2, win1_12.index t a = 0)
    ∧ (∀ a : Fin 2, win1_13.index t a = 0) :=
  (by decide +kernel : ∀ t : Fin grid1.N, _)

/-- The layer of the whole arrays as the region finds them. -/
abbrev G (c : Dev nD) : S100000x64.Idx → EReal :=
  layerK (N := 100000) (V c main_v48) (V c main_v58) (V c main_v60) (V c main_v83) (V c main_v84) (V c main_v85) (V c main_v86) (V c main_v87) (V c main_v72) (V c main_v88) (V c main_v89) (V c main_v90) (V c main_v91) (V c main_v92)

set_option maxHeartbeats 1600000 in
/-- What point t writes back is block t of the layer of the whole arrays. -/
theorem flushed_eq (c : Dev nD) (t : Fin cfg1.N) :
    (dat1 V c).flushed 14 t = ((cfg1.win 14).blk t).view.read (Elt Ideal) (G V c) := by
  show (cfg1.win 14).cut (grid1.coords t) ((dat1 V c).after 14 t) = _
  rw [after1_14, out_eq]
  obtain ⟨o0, o1, h0, h1, a0, a1, e2, e3, e4, e5, e6, e7, e8, e9, e10, e11, e12, e13⟩ := idx_facts t
  have p2 : iblk1 V c 2 t = V c main_v60 := by
    funext y
    show V c main_v60 (((cfg1.win 2).blk t).view.emb y) = V c main_v60 y
    refine congrArg (V c main_v60) (funext fun a => Fin.ext ?_)
    match a with
    | ⟨0, _⟩ => show win1_2.index t (0 : Fin 2) * 64 + 1 * (y 0).val = (y 0).val; rw [e2 0]; omega
    | ⟨1, _⟩ => show win1_2.index t (1 : Fin 2) * 64 + 1 * (y 1).val = (y 1).val; rw [e2 1]; omega
  have p3 : iblk1 V c 3 t = V c main_v83 := by
    funext y
    show V c main_v83 (((cfg1.win 3).blk t).view.emb y) = V c main_v83 y
    refine congrArg (V c main_v83) (funext fun a => Fin.ext ?_)
    match a with
    | ⟨0, _⟩ => show win1_3.index t (0 : Fin 2) * 1 + 1 * (y 0).val = (y 0).val; rw [e3 0]; omega
    | ⟨1, _⟩ => show win1_3.index t (1 : Fin 2) * 64 + 1 * (y 1).val = (y 1).val; rw [e3 1]; omega
  have p4 : iblk1 V c 4 t = V c main_v84 := by
    funext y
    show V c main_v84 (((cfg1.win 4).blk t).view.emb y) = V c main_v84 y
    refine congrArg (V c main_v84) (funext fun a => Fin.ext ?_)
    match a with
    | ⟨0, _⟩ => show win1_4.index t (0 : Fin 2) * 1 + 1 * (y 0).val = (y 0).val; rw [e4 0]; omega
    | ⟨1, _⟩ => show win1_4.index t (1 : Fin 2) * 64 + 1 * (y 1).val = (y 1).val; rw [e4 1]; omega
  have p5 : iblk1 V c 5 t = V c main_v85 := by
    funext y
    show V c main_v85 (((cfg1.win 5).blk t).view.emb y) = V c main_v85 y
    refine congrArg (V c main_v85) (funext fun a => Fin.ext ?_)
    match a with
    | ⟨0, _⟩ => show win1_5.index t (0 : Fin 2) * 1 + 1 * (y 0).val = (y 0).val; rw [e5 0]; omega
    | ⟨1, _⟩ => show win1_5.index t (1 : Fin 2) * 64 + 1 * (y 1).val = (y 1).val; rw [e5 1]; omega
  have p6 : iblk1 V c 6 t = V c main_v86 := by
    funext y
    show V c main_v86 (((cfg1.win 6).blk t).view.emb y) = V c main_v86 y
    refine congrArg (V c main_v86) (funext fun a => Fin.ext ?_)
    match a with
    | ⟨0, _⟩ => show win1_6.index t (0 : Fin 2) * 1 + 1 * (y 0).val = (y 0).val; rw [e6 0]; omega
    | ⟨1, _⟩ => show win1_6.index t (1 : Fin 2) * 64 + 1 * (y 1).val = (y 1).val; rw [e6 1]; omega
  have p7 : iblk1 V c 7 t = V c main_v87 := by
    funext y
    show V c main_v87 (((cfg1.win 7).blk t).view.emb y) = V c main_v87 y
    refine congrArg (V c main_v87) (funext fun a => Fin.ext ?_)
    match a with
    | ⟨0, _⟩ => show win1_7.index t (0 : Fin 2) * 1 + 1 * (y 0).val = (y 0).val; rw [e7 0]; omega
    | ⟨1, _⟩ => show win1_7.index t (1 : Fin 2) * 64 + 1 * (y 1).val = (y 1).val; rw [e7 1]; omega
  have p8 : iblk1 V c 8 t = V c main_v72 := by
    funext y
    show V c main_v72 (((cfg1.win 8).blk t).view.emb y) = V c main_v72 y
    refine congrArg (V c main_v72) (funext fun a => Fin.ext ?_)
    match a with
    | ⟨0, _⟩ => show win1_8.index t (0 : Fin 2) * 64 + 1 * (y 0).val = (y 0).val; rw [e8 0]; omega
    | ⟨1, _⟩ => show win1_8.index t (1 : Fin 2) * 64 + 1 * (y 1).val = (y 1).val; rw [e8 1]; omega
  have p9 : iblk1 V c 9 t = V c main_v88 := by
    funext y
    show V c main_v88 (((cfg1.win 9).blk t).view.emb y) = V c main_v88 y
    refine congrArg (V c main_v88) (funext fun a => Fin.ext ?_)
    match a with
    | ⟨0, _⟩ => show win1_9.index t (0 : Fin 2) * 1 + 1 * (y 0).val = (y 0).val; rw [e9 0]; omega
    | ⟨1, _⟩ => show win1_9.index t (1 : Fin 2) * 64 + 1 * (y 1).val = (y 1).val; rw [e9 1]; omega
  have p10 : iblk1 V c 10 t = V c main_v89 := by
    funext y
    show V c main_v89 (((cfg1.win 10).blk t).view.emb y) = V c main_v89 y
    refine congrArg (V c main_v89) (funext fun a => Fin.ext ?_)
    match a with
    | ⟨0, _⟩ => show win1_10.index t (0 : Fin 2) * 1 + 1 * (y 0).val = (y 0).val; rw [e10 0]; omega
    | ⟨1, _⟩ => show win1_10.index t (1 : Fin 2) * 64 + 1 * (y 1).val = (y 1).val; rw [e10 1]; omega
  have p11 : iblk1 V c 11 t = V c main_v90 := by
    funext y
    show V c main_v90 (((cfg1.win 11).blk t).view.emb y) = V c main_v90 y
    refine congrArg (V c main_v90) (funext fun a => Fin.ext ?_)
    match a with
    | ⟨0, _⟩ => show win1_11.index t (0 : Fin 2) * 1 + 1 * (y 0).val = (y 0).val; rw [e11 0]; omega
    | ⟨1, _⟩ => show win1_11.index t (1 : Fin 2) * 64 + 1 * (y 1).val = (y 1).val; rw [e11 1]; omega
  have p12 : iblk1 V c 12 t = V c main_v91 := by
    funext y
    show V c main_v91 (((cfg1.win 12).blk t).view.emb y) = V c main_v91 y
    refine congrArg (V c main_v91) (funext fun a => Fin.ext ?_)
    match a with
    | ⟨0, _⟩ => show win1_12.index t (0 : Fin 2) * 1 + 1 * (y 0).val = (y 0).val; rw [e12 0]; omega
    | ⟨1, _⟩ => show win1_12.index t (1 : Fin 2) * 64 + 1 * (y 1).val = (y 1).val; rw [e12 1]; omega
  have p13 : iblk1 V c 13 t = V c main_v92 := by
    funext y
    show V c main_v92 (((cfg1.win 13).blk t).view.emb y) = V c main_v92 y
    refine congrArg (V c main_v92) (funext fun a => Fin.ext ?_)
    match a with
    | ⟨0, _⟩ => show win1_13.index t (0 : Fin 2) * 1 + 1 * (y 0).val = (y 0).val; rw [e13 0]; omega
    | ⟨1, _⟩ => show win1_13.index t (1 : Fin 2) * 64 + 1 * (y 1).val = (y 1).val; rw [e13 1]; omega
  rw [p2, p3, p4, p5, p6, p7, p8, p9, p10, p11, p12, p13]
  funext j
  show layerK (N := 5000) (iblk1 V c 0 t) (iblk1 V c 1 t) (V c main_v60) (V c main_v83) (V c main_v84) (V c main_v85) (V c main_v86) (V c main_v87) (V c main_v72) (V c main_v88) (V c main_v89) (V c main_v90) (V c main_v91) (V c main_v92) j
    = layerK (N := 100000) (V c main_v48) (V c main_v58) (V c main_v60) (V c main_v83) (V c main_v84) (V c main_v85) (V c main_v86) (V c main_v87) (V c main_v72) (V c main_v88) (V c main_v89) (V c main_v90) (V c main_v91) (V c main_v92) (((cfg1.win 14).blk t).view.emb j)
  refine layer_block t.val _ _ _ _ _ _ _ _ _ _ _ _ _ _ _ _ j _ ?_ ?_ ?_ ?_
  · show win1_14.index t (0 : Fin 2) * 5000 + 1 * (j 0).val = t.val * 5000 + (j 0).val
    rw [o0]; omega
  · refine Fin.ext ?_
    show win1_14.index t (1 : Fin 2) * 64 + 1 * (j 1).val = (j 1).val
    rw [o1]; omega
  · intro r r' k hr
    show V c main_v48 (((cfg1.win 0).blk t).view.emb (ix2 r k)) = V c main_v48 (ix2 r' k)
    refine congrArg (V c main_v48) (funext fun a => Fin.ext ?_)
    match a with
    | ⟨0, _⟩ => show win1_0.index t (0 : Fin 2) * 5000 + 1 * r.val = r'.val; rw [h0]; omega
    | ⟨1, _⟩ => show win1_0.index t (1 : Fin 2) * 64 + 1 * k.val = k.val; rw [h1]; omega
  · intro r r' k hr
    show V c main_v58 (((cfg1.win 1).blk t).view.emb (ix2 r k)) = V c main_v58 (ix2 r' k)
    refine congrArg (V c main_v58) (funext fun a => Fin.ext ?_)
    match a with
    | ⟨0, _⟩ => show win1_1.index t (0 : Fin 2) * 5000 + 1 * r.val = r'.val; rw [a0]; omega
    | ⟨1, _⟩ => show win1_1.index t (1 : Fin 2) * 64 + 1 * k.val = k.val; rw [a1]; omega

/-- An index of the output array is in point t's block iff each coordinate is in the block's range on its axis. -/
theorem mem_blk (t : Fin cfg1.N) (i : S100000x64.Idx) :
    i ∈ ((cfg1.win 14).blk t).view.set ↔ ∀ a : Fin 2, win1_14.index t a * S5000x64.size a ≤ (i a).val
      ∧ (i a).val < win1_14.index t a * S5000x64.size a + S5000x64.size a := by
  show i ∈ ((View.whole main_v93).slice (win1_14.rect t)).set ↔ _
  rw [View.set_slice_whole, Rect.mem_set_unit]
  exact Iff.rfl

/-- Every index of the output array is in the block of the point its row selects: node r is in block r / 5000. -/
theorem cover (i : S100000x64.Idx) :
    ∃ t : Fin cfg1.N, (cfg1.win 14).flush t = true ∧ i ∈ ((cfg1.win 14).blk t).view.set := by
  have hi0 : (i 0).val < 100000 := (i 0).isLt
  have hi1 : (i 1).val < 64 := (i 1).isLt
  have ht : (i 0).val / 5000 < 20 := by omega
  refine ⟨⟨(i 0).val / 5000, ht⟩, flush1_14 _, ?_⟩
  rw [mem_blk]
  obtain ⟨o0, o1, -⟩ := idx_facts ⟨(i 0).val / 5000, ht⟩
  intro a
  match a with
  | ⟨0, _⟩ =>
    show win1_14.index ⟨(i 0).val / 5000, ht⟩ (0 : Fin 2) * 5000 ≤ (i 0).val
      ∧ (i 0).val < win1_14.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win1_14.index ⟨(i 0).val / 5000, ht⟩ (1 : Fin 2) * 64 ≤ (i 1).val
      ∧ (i 1).val < win1_14.index ⟨(i 0).val / 5000, ht⟩ (1 : Fin 2) * 64 + 64
    rw [o1]; omega

/-- The output array when the region ends: the layer of the whole arrays as the region finds them. -/
theorem final (c : Dev nD) : (dat1 V c).arrAt 14 cfg1.N = G V c :=
  (dat1 V c).arrAt_eq_of_cover 14 (G V c) (fun t _ => flushed_eq V c t) (cover)

end Cert.Gin.Region1

end
-- ==== Proof.GinRegion2.lean ====
/-
  Region 2 of the program: what its output array holds when the region ends.

  The region runs the layer body at 20 grid points. At point t the body sees rows 5000·t … 5000·t + 4999 of the node
  features and of the neighbourhood sums (the two row-blocked inputs) and the twelve parameter arrays whole (their
  block index is constant), and stores a [5000, 64] block whose entry (p, q) is the two-stage row of node 5000·t + p
  at column q: a row of the layer depends on that node's row alone, so the layer on a block of rows is the block of
  the layer. The 20 blocks are disjoint and fill the [100000, 64] output (node r is in block r / 5000), hence the
  output array ends at the layer of the whole arrays as the region finds them.
-/
import proofs.«113432_j76991583748727_1_alg».proof.Proof.Gen.KernelIdeal.Frame
import proofs.«113432_j76991583748727_1_alg».proof.Proof.GinStage
import Idealize.ShloMosaic.Lib.Pipeline.Value
import Idealize.ShloMosaic.Lib.ValueIdx

set_option maxRecDepth 16384

noncomputable section

open scoped BigOperators

namespace Cert.Gin.Region2

open Cert.KernelIdeal Cert.KernelIdeal.Gen Cert.Gin
open Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-- The block the body stores is the layer on the 5000 rows the point's blocks hold. -/
theorem out_eq (x0 x1 : Vec Ideal S5000x64 .f32) (x2 : Vec Ideal S64x64 .f32) (x3 x4 x5 x6 x7 : Vec Ideal S1x64 .f32)
    (x8 : Vec Ideal S64x64 .f32) (x9 x10 x11 x12 x13 : Vec Ideal S1x64 .f32) :
    out2_14 (F := Ideal) x0 x1 x2 x3 x4 x5 x6 x7 x8 x9 x10 x11 x12 x13 = layerK (N := 5000) x0 x1 x2 x3 x4 x5 x6 x7 x8 x9 x10 x11 x12 x13 := by
  funext j
  obtain ⟨p, q, rfl⟩ : ∃ (p : Fin 5000) (q : Fin 64), j = ix2 p q := ⟨j 0, j 1, eq_ix2 j⟩
  unfold out2_14
  rw [View.canon_unit_zero hz]
  simp only [View.ld_unit_zero (S := S5000x64) hz, View.ld_unit_zero (S := S64x64) hz, View.ld_unit_zero (S := S1x64) hz]
  unfold k2_pay1 k2_pay2 k2_pay3
  simp only [shapeCast_self]
  refine (tile_stage_apply dot_S5000x64_S64x64_S5000x64_1_0_0_1_n_n rfl rfl rfl rfl rfl rfl _ _ x9 x12 x10 x13 x11
    broadcasts_S1x64_S5000x64 p q).trans ?_
  unfold layerK rowK
  refine congrArg₂ (fun z W => stageK z W _ _ _ _ _ q) (funext fun k => ?_) rfl
  exact tile_stage_apply dot_S5000x64_S64x64_S5000x64_1_0_0_1_n_n rfl rfl rfl rfl rfl rfl _ _ x3 x6 x4 x7 x5
    broadcasts_S1x64_S5000x64 p k

/-- The layer on a block of 5000 consecutive rows is that block of the layer on all rows. -/
theorem layer_block (T : Nat) (h a : S100000x64.Idx → EReal) (hb ab : S5000x64.Idx → EReal)
    (W1 : S64x64.Idx → EReal) (b1 g1 be1 m1 v1 : S1x64.Idx → EReal) (W2 : S64x64.Idx → EReal) (b2 g2 be2 m2 v2 : S1x64.Idx → EReal)
    (y : S5000x64.Idx) (i : S100000x64.Idx) (hi0 : (i 0).val = T * 5000 + (y 0).val) (hi1 : i 1 = y 1)
    (eh : ∀ (r : Fin 5000) (r' : Fin 100000) (k : Fin 64), r'.val = T * 5000 + r.val → hb (ix2 r k) = h (ix2 r' k))
    (ea : ∀ (r : Fin 5000) (r' : Fin 100000) (k : Fin 64), r'.val = T * 5000 + r.val → ab (ix2 r k) = a (ix2 r' k)) :
    layerK (N := 5000) hb ab W1 b1 g1 be1 m1 v1 W2 b2 g2 be2 m2 v2 y
      = layerK (N := 100000) h a W1 b1 g1 be1 m1 v1 W2 b2 g2 be2 m2 v2 i := by
  unfold layerK
  rw [hi1]
  have e1 : (fun k : Fin 64 => hb (ix2 (y 0) k)) = fun k => h (ix2 (i 0) k) := funext fun k => eh (y 0) (i 0) k hi0
  have e2 : (fun k : Fin 64 => ab (ix2 (y 0) k)) = fun k => a (ix2 (i 0) k) := funext fun k => ea (y 0) (i 0) k hi0
  rw [e1, e2]

variable (V : (c : Dev nD) → (b : Ref sig .tc) → Buf (Elt Ideal) ((c : Thread nD τ).loc b))

/-- The printed index maps, decided over the 20 grid points: the output and the two row-blocked inputs are at block
    (t, 0), every parameter at block (0, 0). -/
theorem idx_facts : ∀ t : Fin cfg2.N,
    win2_14.index t (0 : Fin 2) = t.val ∧ win2_14.index t (1 : Fin 2) = 0
    ∧ win2_0.index t (0 : Fin 2) = t.val ∧ win2_0.index t (1 : Fin 2) = 0
    ∧ win2_1.index t (0 : Fin 2) = t.val ∧ win2_1.index t (1 : Fin 2) = 0
    ∧ (∀ a : Fin 2, win2_2.index t a = 0)
    ∧ (∀ a : Fin 2, win2_3.index t a = 0)
    ∧ (∀ a : Fin 2, win2_4.index t a = 0)
    ∧ (∀ a : Fin 2, win2_5.index t a = 0)
    ∧ (∀ a : Fin 2, win2_6.index t a = 0)
    ∧ (∀ a : Fin 2, win2_7.index t a = 0)
    ∧ (∀ a : Fin 2, win2_8.index t a = 0)
    ∧ (∀ a : Fin 2, win2_9.index t a = 0)
    ∧ (∀ a : Fin 2, win2_10.index t a = 0)
    ∧ (∀ a : Fin 2, win2_11.index t a = 0)
    ∧ (∀ a : Fin 2, win2_12.index t a = 0)
    ∧ (∀ a : Fin 2, win2_13.index t a = 0) :=
  (by decide +kernel : ∀ t : Fin grid2.N, _)

/-- The layer of the whole arrays as the region finds them. -/
abbrev G (c : Dev nD) : S100000x64.Idx → EReal :=
  layerK (N := 100000) (V c main_v93) (V c main_v103) (V c main_v105) (V c main_v128) (V c main_v129) (V c main_v130) (V c main_v131) (V c main_v132) (V c main_v117) (V c main_v133) (V c main_v134) (V c main_v135) (V c main_v136) (V c main_v137)

set_option maxHeartbeats 1600000 in
/-- What point t writes back is block t of the layer of the whole arrays. -/
theorem flushed_eq (c : Dev nD) (t : Fin cfg2.N) :
    (dat2 V c).flushed 14 t = ((cfg2.win 14).blk t).view.read (Elt Ideal) (G V c) := by
  show (cfg2.win 14).cut (grid2.coords t) ((dat2 V c).after 14 t) = _
  rw [after2_14, out_eq]
  obtain ⟨o0, o1, h0, h1, a0, a1, e2, e3, e4, e5, e6, e7, e8, e9, e10, e11, e12, e13⟩ := idx_facts t
  have p2 : iblk2 V c 2 t = V c main_v105 := by
    funext y
    show V c main_v105 (((cfg2.win 2).blk t).view.emb y) = V c main_v105 y
    refine congrArg (V c main_v105) (funext fun a => Fin.ext ?_)
    match a with
    | ⟨0, _⟩ => show win2_2.index t (0 : Fin 2) * 64 + 1 * (y 0).val = (y 0).val; rw [e2 0]; omega
    | ⟨1, _⟩ => show win2_2.index t (1 : Fin 2) * 64 + 1 * (y 1).val = (y 1).val; rw [e2 1]; omega
  have p3 : iblk2 V c 3 t = V c main_v128 := by
    funext y
    show V c main_v128 (((cfg2.win 3).blk t).view.emb y) = V c main_v128 y
    refine congrArg (V c main_v128) (funext fun a => Fin.ext ?_)
    match a with
    | ⟨0, _⟩ => show win2_3.index t (0 : Fin 2) * 1 + 1 * (y 0).val = (y 0).val; rw [e3 0]; omega
    | ⟨1, _⟩ => show win2_3.index t (1 : Fin 2) * 64 + 1 * (y 1).val = (y 1).val; rw [e3 1]; omega
  have p4 : iblk2 V c 4 t = V c main_v129 := by
    funext y
    show V c main_v129 (((cfg2.win 4).blk t).view.emb y) = V c main_v129 y
    refine congrArg (V c main_v129) (funext fun a => Fin.ext ?_)
    match a with
    | ⟨0, _⟩ => show win2_4.index t (0 : Fin 2) * 1 + 1 * (y 0).val = (y 0).val; rw [e4 0]; omega
    | ⟨1, _⟩ => show win2_4.index t (1 : Fin 2) * 64 + 1 * (y 1).val = (y 1).val; rw [e4 1]; omega
  have p5 : iblk2 V c 5 t = V c main_v130 := by
    funext y
    show V c main_v130 (((cfg2.win 5).blk t).view.emb y) = V c main_v130 y
    refine congrArg (V c main_v130) (funext fun a => Fin.ext ?_)
    match a with
    | ⟨0, _⟩ => show win2_5.index t (0 : Fin 2) * 1 + 1 * (y 0).val = (y 0).val; rw [e5 0]; omega
    | ⟨1, _⟩ => show win2_5.index t (1 : Fin 2) * 64 + 1 * (y 1).val = (y 1).val; rw [e5 1]; omega
  have p6 : iblk2 V c 6 t = V c main_v131 := by
    funext y
    show V c main_v131 (((cfg2.win 6).blk t).view.emb y) = V c main_v131 y
    refine congrArg (V c main_v131) (funext fun a => Fin.ext ?_)
    match a with
    | ⟨0, _⟩ => show win2_6.index t (0 : Fin 2) * 1 + 1 * (y 0).val = (y 0).val; rw [e6 0]; omega
    | ⟨1, _⟩ => show win2_6.index t (1 : Fin 2) * 64 + 1 * (y 1).val = (y 1).val; rw [e6 1]; omega
  have p7 : iblk2 V c 7 t = V c main_v132 := by
    funext y
    show V c main_v132 (((cfg2.win 7).blk t).view.emb y) = V c main_v132 y
    refine congrArg (V c main_v132) (funext fun a => Fin.ext ?_)
    match a with
    | ⟨0, _⟩ => show win2_7.index t (0 : Fin 2) * 1 + 1 * (y 0).val = (y 0).val; rw [e7 0]; omega
    | ⟨1, _⟩ => show win2_7.index t (1 : Fin 2) * 64 + 1 * (y 1).val = (y 1).val; rw [e7 1]; omega
  have p8 : iblk2 V c 8 t = V c main_v117 := by
    funext y
    show V c main_v117 (((cfg2.win 8).blk t).view.emb y) = V c main_v117 y
    refine congrArg (V c main_v117) (funext fun a => Fin.ext ?_)
    match a with
    | ⟨0, _⟩ => show win2_8.index t (0 : Fin 2) * 64 + 1 * (y 0).val = (y 0).val; rw [e8 0]; omega
    | ⟨1, _⟩ => show win2_8.index t (1 : Fin 2) * 64 + 1 * (y 1).val = (y 1).val; rw [e8 1]; omega
  have p9 : iblk2 V c 9 t = V c main_v133 := by
    funext y
    show V c main_v133 (((cfg2.win 9).blk t).view.emb y) = V c main_v133 y
    refine congrArg (V c main_v133) (funext fun a => Fin.ext ?_)
    match a with
    | ⟨0, _⟩ => show win2_9.index t (0 : Fin 2) * 1 + 1 * (y 0).val = (y 0).val; rw [e9 0]; omega
    | ⟨1, _⟩ => show win2_9.index t (1 : Fin 2) * 64 + 1 * (y 1).val = (y 1).val; rw [e9 1]; omega
  have p10 : iblk2 V c 10 t = V c main_v134 := by
    funext y
    show V c main_v134 (((cfg2.win 10).blk t).view.emb y) = V c main_v134 y
    refine congrArg (V c main_v134) (funext fun a => Fin.ext ?_)
    match a with
    | ⟨0, _⟩ => show win2_10.index t (0 : Fin 2) * 1 + 1 * (y 0).val = (y 0).val; rw [e10 0]; omega
    | ⟨1, _⟩ => show win2_10.index t (1 : Fin 2) * 64 + 1 * (y 1).val = (y 1).val; rw [e10 1]; omega
  have p11 : iblk2 V c 11 t = V c main_v135 := by
    funext y
    show V c main_v135 (((cfg2.win 11).blk t).view.emb y) = V c main_v135 y
    refine congrArg (V c main_v135) (funext fun a => Fin.ext ?_)
    match a with
    | ⟨0, _⟩ => show win2_11.index t (0 : Fin 2) * 1 + 1 * (y 0).val = (y 0).val; rw [e11 0]; omega
    | ⟨1, _⟩ => show win2_11.index t (1 : Fin 2) * 64 + 1 * (y 1).val = (y 1).val; rw [e11 1]; omega
  have p12 : iblk2 V c 12 t = V c main_v136 := by
    funext y
    show V c main_v136 (((cfg2.win 12).blk t).view.emb y) = V c main_v136 y
    refine congrArg (V c main_v136) (funext fun a => Fin.ext ?_)
    match a with
    | ⟨0, _⟩ => show win2_12.index t (0 : Fin 2) * 1 + 1 * (y 0).val = (y 0).val; rw [e12 0]; omega
    | ⟨1, _⟩ => show win2_12.index t (1 : Fin 2) * 64 + 1 * (y 1).val = (y 1).val; rw [e12 1]; omega
  have p13 : iblk2 V c 13 t = V c main_v137 := by
    funext y
    show V c main_v137 (((cfg2.win 13).blk t).view.emb y) = V c main_v137 y
    refine congrArg (V c main_v137) (funext fun a => Fin.ext ?_)
    match a with
    | ⟨0, _⟩ => show win2_13.index t (0 : Fin 2) * 1 + 1 * (y 0).val = (y 0).val; rw [e13 0]; omega
    | ⟨1, _⟩ => show win2_13.index t (1 : Fin 2) * 64 + 1 * (y 1).val = (y 1).val; rw [e13 1]; omega
  rw [p2, p3, p4, p5, p6, p7, p8, p9, p10, p11, p12, p13]
  funext j
  show layerK (N := 5000) (iblk2 V c 0 t) (iblk2 V c 1 t) (V c main_v105) (V c main_v128) (V c main_v129) (V c main_v130) (V c main_v131) (V c main_v132) (V c main_v117) (V c main_v133) (V c main_v134) (V c main_v135) (V c main_v136) (V c main_v137) j
    = layerK (N := 100000) (V c main_v93) (V c main_v103) (V c main_v105) (V c main_v128) (V c main_v129) (V c main_v130) (V c main_v131) (V c main_v132) (V c main_v117) (V c main_v133) (V c main_v134) (V c main_v135) (V c main_v136) (V c main_v137) (((cfg2.win 14).blk t).view.emb j)
  refine layer_block t.val _ _ _ _ _ _ _ _ _ _ _ _ _ _ _ _ j _ ?_ ?_ ?_ ?_
  · show win2_14.index t (0 : Fin 2) * 5000 + 1 * (j 0).val = t.val * 5000 + (j 0).val
    rw [o0]; omega
  · refine Fin.ext ?_
    show win2_14.index t (1 : Fin 2) * 64 + 1 * (j 1).val = (j 1).val
    rw [o1]; omega
  · intro r r' k hr
    show V c main_v93 (((cfg2.win 0).blk t).view.emb (ix2 r k)) = V c main_v93 (ix2 r' k)
    refine congrArg (V c main_v93) (funext fun a => Fin.ext ?_)
    match a with
    | ⟨0, _⟩ => show win2_0.index t (0 : Fin 2) * 5000 + 1 * r.val = r'.val; rw [h0]; omega
    | ⟨1, _⟩ => show win2_0.index t (1 : Fin 2) * 64 + 1 * k.val = k.val; rw [h1]; omega
  · intro r r' k hr
    show V c main_v103 (((cfg2.win 1).blk t).view.emb (ix2 r k)) = V c main_v103 (ix2 r' k)
    refine congrArg (V c main_v103) (funext fun a => Fin.ext ?_)
    match a with
    | ⟨0, _⟩ => show win2_1.index t (0 : Fin 2) * 5000 + 1 * r.val = r'.val; rw [a0]; omega
    | ⟨1, _⟩ => show win2_1.index t (1 : Fin 2) * 64 + 1 * k.val = k.val; rw [a1]; omega

/-- An index of the output array is in point t's block iff each coordinate is in the block's range on its axis. -/
theorem mem_blk (t : Fin cfg2.N) (i : S100000x64.Idx) :
    i ∈ ((cfg2.win 14).blk t).view.set ↔ ∀ a : Fin 2, win2_14.index t a * S5000x64.size a ≤ (i a).val
      ∧ (i a).val < win2_14.index t a * S5000x64.size a + S5000x64.size a := by
  show i ∈ ((View.whole main_v138).slice (win2_14.rect t)).set ↔ _
  rw [View.set_slice_whole, Rect.mem_set_unit]
  exact Iff.rfl

/-- Every index of the output array is in the block of the point its row selects: node r is in block r / 5000. -/
theorem cover (i : S100000x64.Idx) :
    ∃ t : Fin cfg2.N, (cfg2.win 14).flush t = true ∧ i ∈ ((cfg2.win 14).blk t).view.set := by
  have hi0 : (i 0).val < 100000 := (i 0).isLt
  have hi1 : (i 1).val < 64 := (i 1).isLt
  have ht : (i 0).val / 5000 < 20 := by omega
  refine ⟨⟨(i 0).val / 5000, ht⟩, flush2_14 _, ?_⟩
  rw [mem_blk]
  obtain ⟨o0, o1, -⟩ := idx_facts ⟨(i 0).val / 5000, ht⟩
  intro a
  match a with
  | ⟨0, _⟩ =>
    show win2_14.index ⟨(i 0).val / 5000, ht⟩ (0 : Fin 2) * 5000 ≤ (i 0).val
      ∧ (i 0).val < win2_14.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win2_14.index ⟨(i 0).val / 5000, ht⟩ (1 : Fin 2) * 64 ≤ (i 1).val
      ∧ (i 1).val < win2_14.index ⟨(i 0).val / 5000, ht⟩ (1 : Fin 2) * 64 + 64
    rw [o1]; omega

/-- The output array when the region ends: the layer of the whole arrays as the region finds them. -/
theorem final (c : Dev nD) : (dat2 V c).arrAt 14 cfg2.N = G V c :=
  (dat2 V c).arrAt_eq_of_cover 14 (G V c) (fun t _ => flushed_eq V c t) (cover)

end Cert.Gin.Region2

end
-- ==== Proof.GinChain.lean ====
/-
  The program's segments composed: each region's output array and the two results as functions of the arguments.

  On entry to the layer-ℓ region its fourteen input arrays hold: the previous layer's output (the node features
  themselves for the first layer); the neighbourhood sums of that array along the edge list; and slice ℓ of each of
  the twelve stacked parameter arrays, a matrix as [64, 64] and a vector as [64] with a unit axis in front. The region
  ends with its output array at the layer of those (one statement per region), and the closing stretch computes each
  result as a head on the third region's output.
-/
import proofs.«113432_j76991583748727_1_alg».proof.Proof.GinKept
import proofs.«113432_j76991583748727_1_alg».proof.Proof.GinHost
import proofs.«113432_j76991583748727_1_alg».proof.Proof.GinRegion0
import proofs.«113432_j76991583748727_1_alg».proof.Proof.GinRegion1
import proofs.«113432_j76991583748727_1_alg».proof.Proof.GinRegion2

set_option maxRecDepth 16384

noncomputable section

namespace Cert.Gin.Chain

open Cert.KernelIdeal Cert.KernelIdeal.Gen Cert.Gin
open Idealize.ShloMosaic Idealize.ShloMosaic.TcCoe Idealize.ShloMosaic.StableHlo Idealize.SL.Sem

variable (m : (ℓ : Loc nD τ sig) → Buf (Elt Ideal) ℓ) (ρ : Dev nD → PrngReg)

theorem e0_0 (c : Dev nD) : V1 m ρ c main_arg0 = (m ((c : Thread nD τ).loc main_arg0)) := by
  show StableHlo.after hostOps0 (W0 m ρ c) (Proc.devRef .tc main_arg0) = _
  after_results_simp <;> rfl
theorem e0_1 (c : Dev nD) : V1 m ρ c main_v13 = (Cert.Gin.Host.aggOf (F := Ideal) (m ((c : Thread nD τ).loc main_arg0)) (m ((c : Thread nD τ).loc main_arg1))) := by
  show StableHlo.after hostOps0 (W0 m ρ c) (Proc.devRef .tc main_v13) = _
  after_results_simp <;> rfl
theorem e0_2 (c : Dev nD) : V1 m ρ c main_v15 = (Cert.Gin.Host.matOf0 (F := Ideal) (m ((c : Thread nD τ).loc main_arg3))) := by
  show StableHlo.after hostOps0 (W0 m ρ c) (Proc.devRef .tc main_v15) = _
  after_results_simp <;> rfl
theorem e0_3 (c : Dev nD) : V1 m ρ c main_v38 = (shapeCast S1x64 (Cert.Gin.Host.vecOf0 (F := Ideal) (m ((c : Thread nD τ).loc main_arg4))) shapeCasts_S64_S1x64) := by
  show StableHlo.after hostOps0 (W0 m ρ c) (Proc.devRef .tc main_v38) = _
  after_results_simp <;> rfl
theorem e0_4 (c : Dev nD) : V1 m ρ c main_v39 = (shapeCast S1x64 (Cert.Gin.Host.vecOf0 (F := Ideal) (m ((c : Thread nD τ).loc main_arg5))) shapeCasts_S64_S1x64) := by
  show StableHlo.after hostOps0 (W0 m ρ c) (Proc.devRef .tc main_v39) = _
  after_results_simp <;> rfl
theorem e0_5 (c : Dev nD) : V1 m ρ c main_v40 = (shapeCast S1x64 (Cert.Gin.Host.vecOf0 (F := Ideal) (m ((c : Thread nD τ).loc main_arg6))) shapeCasts_S64_S1x64) := by
  show StableHlo.after hostOps0 (W0 m ρ c) (Proc.devRef .tc main_v40) = _
  after_results_simp <;> rfl
theorem e0_6 (c : Dev nD) : V1 m ρ c main_v41 = (shapeCast S1x64 (Cert.Gin.Host.vecOf0 (F := Ideal) (m ((c : Thread nD τ).loc main_arg7))) shapeCasts_S64_S1x64) := by
  show StableHlo.after hostOps0 (W0 m ρ c) (Proc.devRef .tc main_v41) = _
  after_results_simp <;> rfl
theorem e0_7 (c : Dev nD) : V1 m ρ c main_v42 = (shapeCast S1x64 (Cert.Gin.Host.vecOf0 (F := Ideal) (m ((c : Thread nD τ).loc main_arg8))) shapeCasts_S64_S1x64) := by
  show StableHlo.after hostOps0 (W0 m ρ c) (Proc.devRef .tc main_v42) = _
  after_results_simp <;> rfl
theorem e0_8 (c : Dev nD) : V1 m ρ c main_v27 = (Cert.Gin.Host.matOf0 (F := Ideal) (m ((c : Thread nD τ).loc main_arg9))) := by
  show StableHlo.after hostOps0 (W0 m ρ c) (Proc.devRef .tc main_v27) = _
  after_results_simp <;> rfl
theorem e0_9 (c : Dev nD) : V1 m ρ c main_v43 = (shapeCast S1x64 (Cert.Gin.Host.vecOf0 (F := Ideal) (m ((c : Thread nD τ).loc main_arg10))) shapeCasts_S64_S1x64) := by
  show StableHlo.after hostOps0 (W0 m ρ c) (Proc.devRef .tc main_v43) = _
  after_results_simp <;> rfl
theorem e0_10 (c : Dev nD) : V1 m ρ c main_v44 = (shapeCast S1x64 (Cert.Gin.Host.vecOf0 (F := Ideal) (m ((c : Thread nD τ).loc main_arg11))) shapeCasts_S64_S1x64) := by
  show StableHlo.after hostOps0 (W0 m ρ c) (Proc.devRef .tc main_v44) = _
  after_results_simp <;> rfl
theorem e0_11 (c : Dev nD) : V1 m ρ c main_v45 = (shapeCast S1x64 (Cert.Gin.Host.vecOf0 (F := Ideal) (m ((c : Thread nD τ).loc main_arg12))) shapeCasts_S64_S1x64) := by
  show StableHlo.after hostOps0 (W0 m ρ c) (Proc.devRef .tc main_v45) = _
  after_results_simp <;> rfl
theorem e0_12 (c : Dev nD) : V1 m ρ c main_v46 = (shapeCast S1x64 (Cert.Gin.Host.vecOf0 (F := Ideal) (m ((c : Thread nD τ).loc main_arg13))) shapeCasts_S64_S1x64) := by
  show StableHlo.after hostOps0 (W0 m ρ c) (Proc.devRef .tc main_v46) = _
  after_results_simp <;> rfl
theorem e0_13 (c : Dev nD) : V1 m ρ c main_v47 = (shapeCast S1x64 (Cert.Gin.Host.vecOf0 (F := Ideal) (m ((c : Thread nD τ).loc main_arg14))) shapeCasts_S64_S1x64) := by
  show StableHlo.after hostOps0 (W0 m ρ c) (Proc.devRef .tc main_v47) = _
  after_results_simp <;> rfl
theorem e1_0 (c : Dev nD) : V3 m ρ c main_v48 = (W2 m ρ c (Proc.devRef .tc main_v48)) := by
  show StableHlo.after hostOps1 (W2 m ρ c) (Proc.devRef .tc main_v48) = _
  after_results_simp <;> rfl
theorem e1_1 (c : Dev nD) : V3 m ρ c main_v58 = (Cert.Gin.Host.aggOf (F := Ideal) (W2 m ρ c (Proc.devRef .tc main_v48)) (m ((c : Thread nD τ).loc main_arg1))) := by
  show StableHlo.after hostOps1 (W2 m ρ c) (Proc.devRef .tc main_v58) = _
  after_results_simp
  rw [W2_main_v1 m ρ c, W2_main_v3 m ρ c]
  rfl
theorem e1_2 (c : Dev nD) : V3 m ρ c main_v60 = (Cert.Gin.Host.matOf1 (F := Ideal) (m ((c : Thread nD τ).loc main_arg3))) := by
  show StableHlo.after hostOps1 (W2 m ρ c) (Proc.devRef .tc main_v60) = _
  after_results_simp
  rw [W2_main_arg3 m ρ c]
  rfl
theorem e1_3 (c : Dev nD) : V3 m ρ c main_v83 = (shapeCast S1x64 (Cert.Gin.Host.vecOf1 (F := Ideal) (m ((c : Thread nD τ).loc main_arg4))) shapeCasts_S64_S1x64) := by
  show StableHlo.after hostOps1 (W2 m ρ c) (Proc.devRef .tc main_v83) = _
  after_results_simp
  rw [W2_main_arg4 m ρ c]
  rfl
theorem e1_4 (c : Dev nD) : V3 m ρ c main_v84 = (shapeCast S1x64 (Cert.Gin.Host.vecOf1 (F := Ideal) (m ((c : Thread nD τ).loc main_arg5))) shapeCasts_S64_S1x64) := by
  show StableHlo.after hostOps1 (W2 m ρ c) (Proc.devRef .tc main_v84) = _
  after_results_simp
  rw [W2_main_arg5 m ρ c]
  rfl
theorem e1_5 (c : Dev nD) : V3 m ρ c main_v85 = (shapeCast S1x64 (Cert.Gin.Host.vecOf1 (F := Ideal) (m ((c : Thread nD τ).loc main_arg6))) shapeCasts_S64_S1x64) := by
  show StableHlo.after hostOps1 (W2 m ρ c) (Proc.devRef .tc main_v85) = _
  after_results_simp
  rw [W2_main_arg6 m ρ c]
  rfl
theorem e1_6 (c : Dev nD) : V3 m ρ c main_v86 = (shapeCast S1x64 (Cert.Gin.Host.vecOf1 (F := Ideal) (m ((c : Thread nD τ).loc main_arg7))) shapeCasts_S64_S1x64) := by
  show StableHlo.after hostOps1 (W2 m ρ c) (Proc.devRef .tc main_v86) = _
  after_results_simp
  rw [W2_main_arg7 m ρ c]
  rfl
theorem e1_7 (c : Dev nD) : V3 m ρ c main_v87 = (shapeCast S1x64 (Cert.Gin.Host.vecOf1 (F := Ideal) (m ((c : Thread nD τ).loc main_arg8))) shapeCasts_S64_S1x64) := by
  show StableHlo.after hostOps1 (W2 m ρ c) (Proc.devRef .tc main_v87) = _
  after_results_simp
  rw [W2_main_arg8 m ρ c]
  rfl
theorem e1_8 (c : Dev nD) : V3 m ρ c main_v72 = (Cert.Gin.Host.matOf1 (F := Ideal) (m ((c : Thread nD τ).loc main_arg9))) := by
  show StableHlo.after hostOps1 (W2 m ρ c) (Proc.devRef .tc main_v72) = _
  after_results_simp
  rw [W2_main_arg9 m ρ c]
  rfl
theorem e1_9 (c : Dev nD) : V3 m ρ c main_v88 = (shapeCast S1x64 (Cert.Gin.Host.vecOf1 (F := Ideal) (m ((c : Thread nD τ).loc main_arg10))) shapeCasts_S64_S1x64) := by
  show StableHlo.after hostOps1 (W2 m ρ c) (Proc.devRef .tc main_v88) = _
  after_results_simp
  rw [W2_main_arg10 m ρ c]
  rfl
theorem e1_10 (c : Dev nD) : V3 m ρ c main_v89 = (shapeCast S1x64 (Cert.Gin.Host.vecOf1 (F := Ideal) (m ((c : Thread nD τ).loc main_arg11))) shapeCasts_S64_S1x64) := by
  show StableHlo.after hostOps1 (W2 m ρ c) (Proc.devRef .tc main_v89) = _
  after_results_simp
  rw [W2_main_arg11 m ρ c]
  rfl
theorem e1_11 (c : Dev nD) : V3 m ρ c main_v90 = (shapeCast S1x64 (Cert.Gin.Host.vecOf1 (F := Ideal) (m ((c : Thread nD τ).loc main_arg12))) shapeCasts_S64_S1x64) := by
  show StableHlo.after hostOps1 (W2 m ρ c) (Proc.devRef .tc main_v90) = _
  after_results_simp
  rw [W2_main_arg12 m ρ c]
  rfl
theorem e1_12 (c : Dev nD) : V3 m ρ c main_v91 = (shapeCast S1x64 (Cert.Gin.Host.vecOf1 (F := Ideal) (m ((c : Thread nD τ).loc main_arg13))) shapeCasts_S64_S1x64) := by
  show StableHlo.after hostOps1 (W2 m ρ c) (Proc.devRef .tc main_v91) = _
  after_results_simp
  rw [W2_main_arg13 m ρ c]
  rfl
theorem e1_13 (c : Dev nD) : V3 m ρ c main_v92 = (shapeCast S1x64 (Cert.Gin.Host.vecOf1 (F := Ideal) (m ((c : Thread nD τ).loc main_arg14))) shapeCasts_S64_S1x64) := by
  show StableHlo.after hostOps1 (W2 m ρ c) (Proc.devRef .tc main_v92) = _
  after_results_simp
  rw [W2_main_arg14 m ρ c]
  rfl
theorem e2_0 (c : Dev nD) : V5 m ρ c main_v93 = (W4 m ρ c (Proc.devRef .tc main_v93)) := by
  show StableHlo.after hostOps2 (W4 m ρ c) (Proc.devRef .tc main_v93) = _
  after_results_simp <;> rfl
theorem e2_1 (c : Dev nD) : V5 m ρ c main_v103 = (Cert.Gin.Host.aggOf (F := Ideal) (W4 m ρ c (Proc.devRef .tc main_v93)) (m ((c : Thread nD τ).loc main_arg1))) := by
  show StableHlo.after hostOps2 (W4 m ρ c) (Proc.devRef .tc main_v103) = _
  after_results_simp
  rw [W4_main_v1 m ρ c, W4_main_v3 m ρ c]
  rfl
theorem e2_2 (c : Dev nD) : V5 m ρ c main_v105 = (Cert.Gin.Host.matOf2 (F := Ideal) (m ((c : Thread nD τ).loc main_arg3))) := by
  show StableHlo.after hostOps2 (W4 m ρ c) (Proc.devRef .tc main_v105) = _
  after_results_simp
  rw [W4_main_arg3 m ρ c]
  rfl
theorem e2_3 (c : Dev nD) : V5 m ρ c main_v128 = (shapeCast S1x64 (Cert.Gin.Host.vecOf2 (F := Ideal) (m ((c : Thread nD τ).loc main_arg4))) shapeCasts_S64_S1x64) := by
  show StableHlo.after hostOps2 (W4 m ρ c) (Proc.devRef .tc main_v128) = _
  after_results_simp
  rw [W4_main_arg4 m ρ c]
  rfl
theorem e2_4 (c : Dev nD) : V5 m ρ c main_v129 = (shapeCast S1x64 (Cert.Gin.Host.vecOf2 (F := Ideal) (m ((c : Thread nD τ).loc main_arg5))) shapeCasts_S64_S1x64) := by
  show StableHlo.after hostOps2 (W4 m ρ c) (Proc.devRef .tc main_v129) = _
  after_results_simp
  rw [W4_main_arg5 m ρ c]
  rfl
theorem e2_5 (c : Dev nD) : V5 m ρ c main_v130 = (shapeCast S1x64 (Cert.Gin.Host.vecOf2 (F := Ideal) (m ((c : Thread nD τ).loc main_arg6))) shapeCasts_S64_S1x64) := by
  show StableHlo.after hostOps2 (W4 m ρ c) (Proc.devRef .tc main_v130) = _
  after_results_simp
  rw [W4_main_arg6 m ρ c]
  rfl
theorem e2_6 (c : Dev nD) : V5 m ρ c main_v131 = (shapeCast S1x64 (Cert.Gin.Host.vecOf2 (F := Ideal) (m ((c : Thread nD τ).loc main_arg7))) shapeCasts_S64_S1x64) := by
  show StableHlo.after hostOps2 (W4 m ρ c) (Proc.devRef .tc main_v131) = _
  after_results_simp
  rw [W4_main_arg7 m ρ c]
  rfl
theorem e2_7 (c : Dev nD) : V5 m ρ c main_v132 = (shapeCast S1x64 (Cert.Gin.Host.vecOf2 (F := Ideal) (m ((c : Thread nD τ).loc main_arg8))) shapeCasts_S64_S1x64) := by
  show StableHlo.after hostOps2 (W4 m ρ c) (Proc.devRef .tc main_v132) = _
  after_results_simp
  rw [W4_main_arg8 m ρ c]
  rfl
theorem e2_8 (c : Dev nD) : V5 m ρ c main_v117 = (Cert.Gin.Host.matOf2 (F := Ideal) (m ((c : Thread nD τ).loc main_arg9))) := by
  show StableHlo.after hostOps2 (W4 m ρ c) (Proc.devRef .tc main_v117) = _
  after_results_simp
  rw [W4_main_arg9 m ρ c]
  rfl
theorem e2_9 (c : Dev nD) : V5 m ρ c main_v133 = (shapeCast S1x64 (Cert.Gin.Host.vecOf2 (F := Ideal) (m ((c : Thread nD τ).loc main_arg10))) shapeCasts_S64_S1x64) := by
  show StableHlo.after hostOps2 (W4 m ρ c) (Proc.devRef .tc main_v133) = _
  after_results_simp
  rw [W4_main_arg10 m ρ c]
  rfl
theorem e2_10 (c : Dev nD) : V5 m ρ c main_v134 = (shapeCast S1x64 (Cert.Gin.Host.vecOf2 (F := Ideal) (m ((c : Thread nD τ).loc main_arg11))) shapeCasts_S64_S1x64) := by
  show StableHlo.after hostOps2 (W4 m ρ c) (Proc.devRef .tc main_v134) = _
  after_results_simp
  rw [W4_main_arg11 m ρ c]
  rfl
theorem e2_11 (c : Dev nD) : V5 m ρ c main_v135 = (shapeCast S1x64 (Cert.Gin.Host.vecOf2 (F := Ideal) (m ((c : Thread nD τ).loc main_arg12))) shapeCasts_S64_S1x64) := by
  show StableHlo.after hostOps2 (W4 m ρ c) (Proc.devRef .tc main_v135) = _
  after_results_simp
  rw [W4_main_arg12 m ρ c]
  rfl
theorem e2_12 (c : Dev nD) : V5 m ρ c main_v136 = (shapeCast S1x64 (Cert.Gin.Host.vecOf2 (F := Ideal) (m ((c : Thread nD τ).loc main_arg13))) shapeCasts_S64_S1x64) := by
  show StableHlo.after hostOps2 (W4 m ρ c) (Proc.devRef .tc main_v136) = _
  after_results_simp
  rw [W4_main_arg13 m ρ c]
  rfl
theorem e2_13 (c : Dev nD) : V5 m ρ c main_v137 = (shapeCast S1x64 (Cert.Gin.Host.vecOf2 (F := Ideal) (m ((c : Thread nD τ).loc main_arg14))) shapeCasts_S64_S1x64) := by
  show StableHlo.after hostOps2 (W4 m ρ c) (Proc.devRef .tc main_v137) = _
  after_results_simp
  rw [W4_main_arg14 m ρ c]
  rfl

/-- Region 0's output array when the region ends: the layer of the contents its windows' arrays had on entry. -/
theorem K1_eq (c : Dev nD) : W2 m ρ c (Proc.devRef .tc main_v48)
    = layerK (N := 100000) (m ((c : Thread nD τ).loc main_arg0)) (Cert.Gin.Host.aggOf (F := Ideal) (m ((c : Thread nD τ).loc main_arg0)) (m ((c : Thread nD τ).loc main_arg1))) (Cert.Gin.Host.matOf0 (F := Ideal) (m ((c : Thread nD τ).loc main_arg3))) (shapeCast S1x64 (Cert.Gin.Host.vecOf0 (F := Ideal) (m ((c : Thread nD τ).loc main_arg4))) shapeCasts_S64_S1x64) (shapeCast S1x64 (Cert.Gin.Host.vecOf0 (F := Ideal) (m ((c : Thread nD τ).loc main_arg5))) shapeCasts_S64_S1x64) (shapeCast S1x64 (Cert.Gin.Host.vecOf0 (F := Ideal) (m ((c : Thread nD τ).loc main_arg6))) shapeCasts_S64_S1x64) (shapeCast S1x64 (Cert.Gin.Host.vecOf0 (F := Ideal) (m ((c : Thread nD τ).loc main_arg7))) shapeCasts_S64_S1x64) (shapeCast S1x64 (Cert.Gin.Host.vecOf0 (F := Ideal) (m ((c : Thread nD τ).loc main_arg8))) shapeCasts_S64_S1x64) (Cert.Gin.Host.matOf0 (F := Ideal) (m ((c : Thread nD τ).loc main_arg9))) (shapeCast S1x64 (Cert.Gin.Host.vecOf0 (F := Ideal) (m ((c : Thread nD τ).loc main_arg10))) shapeCasts_S64_S1x64) (shapeCast S1x64 (Cert.Gin.Host.vecOf0 (F := Ideal) (m ((c : Thread nD τ).loc main_arg11))) shapeCasts_S64_S1x64) (shapeCast S1x64 (Cert.Gin.Host.vecOf0 (F := Ideal) (m ((c : Thread nD τ).loc main_arg12))) shapeCasts_S64_S1x64) (shapeCast S1x64 (Cert.Gin.Host.vecOf0 (F := Ideal) (m ((c : Thread nD τ).loc main_arg13))) shapeCasts_S64_S1x64) (shapeCast S1x64 (Cert.Gin.Host.vecOf0 (F := Ideal) (m ((c : Thread nD τ).loc main_arg14))) shapeCasts_S64_S1x64) := by
  refine (W2_arr m ρ c 14).trans ((Cert.Gin.Region0.final (V1 m ρ) c).trans ?_)
  show layerK (N := 100000) (V1 m ρ c main_arg0) (V1 m ρ c main_v13) (V1 m ρ c main_v15) (V1 m ρ c main_v38) (V1 m ρ c main_v39) (V1 m ρ c main_v40) (V1 m ρ c main_v41) (V1 m ρ c main_v42) (V1 m ρ c main_v27) (V1 m ρ c main_v43) (V1 m ρ c main_v44) (V1 m ρ c main_v45) (V1 m ρ c main_v46) (V1 m ρ c main_v47) = _
  rw [e0_0 m ρ c, e0_1 m ρ c, e0_2 m ρ c, e0_3 m ρ c, e0_4 m ρ c, e0_5 m ρ c, e0_6 m ρ c, e0_7 m ρ c, e0_8 m ρ c, e0_9 m ρ c, e0_10 m ρ c, e0_11 m ρ c, e0_12 m ρ c, e0_13 m ρ c]
/-- Region 1's output array when the region ends: the layer of the contents its windows' arrays had on entry. -/
theorem K2_eq (c : Dev nD) : W4 m ρ c (Proc.devRef .tc main_v93)
    = layerK (N := 100000) (W2 m ρ c (Proc.devRef .tc main_v48)) (Cert.Gin.Host.aggOf (F := Ideal) (W2 m ρ c (Proc.devRef .tc main_v48)) (m ((c : Thread nD τ).loc main_arg1))) (Cert.Gin.Host.matOf1 (F := Ideal) (m ((c : Thread nD τ).loc main_arg3))) (shapeCast S1x64 (Cert.Gin.Host.vecOf1 (F := Ideal) (m ((c : Thread nD τ).loc main_arg4))) shapeCasts_S64_S1x64) (shapeCast S1x64 (Cert.Gin.Host.vecOf1 (F := Ideal) (m ((c : Thread nD τ).loc main_arg5))) shapeCasts_S64_S1x64) (shapeCast S1x64 (Cert.Gin.Host.vecOf1 (F := Ideal) (m ((c : Thread nD τ).loc main_arg6))) shapeCasts_S64_S1x64) (shapeCast S1x64 (Cert.Gin.Host.vecOf1 (F := Ideal) (m ((c : Thread nD τ).loc main_arg7))) shapeCasts_S64_S1x64) (shapeCast S1x64 (Cert.Gin.Host.vecOf1 (F := Ideal) (m ((c : Thread nD τ).loc main_arg8))) shapeCasts_S64_S1x64) (Cert.Gin.Host.matOf1 (F := Ideal) (m ((c : Thread nD τ).loc main_arg9))) (shapeCast S1x64 (Cert.Gin.Host.vecOf1 (F := Ideal) (m ((c : Thread nD τ).loc main_arg10))) shapeCasts_S64_S1x64) (shapeCast S1x64 (Cert.Gin.Host.vecOf1 (F := Ideal) (m ((c : Thread nD τ).loc main_arg11))) shapeCasts_S64_S1x64) (shapeCast S1x64 (Cert.Gin.Host.vecOf1 (F := Ideal) (m ((c : Thread nD τ).loc main_arg12))) shapeCasts_S64_S1x64) (shapeCast S1x64 (Cert.Gin.Host.vecOf1 (F := Ideal) (m ((c : Thread nD τ).loc main_arg13))) shapeCasts_S64_S1x64) (shapeCast S1x64 (Cert.Gin.Host.vecOf1 (F := Ideal) (m ((c : Thread nD τ).loc main_arg14))) shapeCasts_S64_S1x64) := by
  refine (W4_arr m ρ c 14).trans ((Cert.Gin.Region1.final (V3 m ρ) c).trans ?_)
  show layerK (N := 100000) (V3 m ρ c main_v48) (V3 m ρ c main_v58) (V3 m ρ c main_v60) (V3 m ρ c main_v83) (V3 m ρ c main_v84) (V3 m ρ c main_v85) (V3 m ρ c main_v86) (V3 m ρ c main_v87) (V3 m ρ c main_v72) (V3 m ρ c main_v88) (V3 m ρ c main_v89) (V3 m ρ c main_v90) (V3 m ρ c main_v91) (V3 m ρ c main_v92) = _
  rw [e1_0 m ρ c, e1_1 m ρ c, e1_2 m ρ c, e1_3 m ρ c, e1_4 m ρ c, e1_5 m ρ c, e1_6 m ρ c, e1_7 m ρ c, e1_8 m ρ c, e1_9 m ρ c, e1_10 m ρ c, e1_11 m ρ c, e1_12 m ρ c, e1_13 m ρ c]
/-- Region 2's output array when the region ends: the layer of the contents its windows' arrays had on entry. -/
theorem K3_eq (c : Dev nD) : W6 m ρ c (Proc.devRef .tc main_v138)
    = layerK (N := 100000) (W4 m ρ c (Proc.devRef .tc main_v93)) (Cert.Gin.Host.aggOf (F := Ideal) (W4 m ρ c (Proc.devRef .tc main_v93)) (m ((c : Thread nD τ).loc main_arg1))) (Cert.Gin.Host.matOf2 (F := Ideal) (m ((c : Thread nD τ).loc main_arg3))) (shapeCast S1x64 (Cert.Gin.Host.vecOf2 (F := Ideal) (m ((c : Thread nD τ).loc main_arg4))) shapeCasts_S64_S1x64) (shapeCast S1x64 (Cert.Gin.Host.vecOf2 (F := Ideal) (m ((c : Thread nD τ).loc main_arg5))) shapeCasts_S64_S1x64) (shapeCast S1x64 (Cert.Gin.Host.vecOf2 (F := Ideal) (m ((c : Thread nD τ).loc main_arg6))) shapeCasts_S64_S1x64) (shapeCast S1x64 (Cert.Gin.Host.vecOf2 (F := Ideal) (m ((c : Thread nD τ).loc main_arg7))) shapeCasts_S64_S1x64) (shapeCast S1x64 (Cert.Gin.Host.vecOf2 (F := Ideal) (m ((c : Thread nD τ).loc main_arg8))) shapeCasts_S64_S1x64) (Cert.Gin.Host.matOf2 (F := Ideal) (m ((c : Thread nD τ).loc main_arg9))) (shapeCast S1x64 (Cert.Gin.Host.vecOf2 (F := Ideal) (m ((c : Thread nD τ).loc main_arg10))) shapeCasts_S64_S1x64) (shapeCast S1x64 (Cert.Gin.Host.vecOf2 (F := Ideal) (m ((c : Thread nD τ).loc main_arg11))) shapeCasts_S64_S1x64) (shapeCast S1x64 (Cert.Gin.Host.vecOf2 (F := Ideal) (m ((c : Thread nD τ).loc main_arg12))) shapeCasts_S64_S1x64) (shapeCast S1x64 (Cert.Gin.Host.vecOf2 (F := Ideal) (m ((c : Thread nD τ).loc main_arg13))) shapeCasts_S64_S1x64) (shapeCast S1x64 (Cert.Gin.Host.vecOf2 (F := Ideal) (m ((c : Thread nD τ).loc main_arg14))) shapeCasts_S64_S1x64) := by
  refine (W6_arr m ρ c 14).trans ((Cert.Gin.Region2.final (V5 m ρ) c).trans ?_)
  show layerK (N := 100000) (V5 m ρ c main_v93) (V5 m ρ c main_v103) (V5 m ρ c main_v105) (V5 m ρ c main_v128) (V5 m ρ c main_v129) (V5 m ρ c main_v130) (V5 m ρ c main_v131) (V5 m ρ c main_v132) (V5 m ρ c main_v117) (V5 m ρ c main_v133) (V5 m ρ c main_v134) (V5 m ρ c main_v135) (V5 m ρ c main_v136) (V5 m ρ c main_v137) = _
  rw [e2_0 m ρ c, e2_1 m ρ c, e2_2 m ρ c, e2_3 m ρ c, e2_4 m ρ c, e2_5 m ρ c, e2_6 m ρ c, e2_7 m ρ c, e2_8 m ρ c, e2_9 m ρ c, e2_10 m ρ c, e2_11 m ρ c, e2_12 m ρ c, e2_13 m ρ c]

/-- The first result: the head on the last layer's output. -/
theorem out0_eq (c : Dev nD) : W7 m ρ c (Proc.devRef .tc main_v154)
    = Cert.Gin.Host.headOf (F := Ideal) (W6 m ρ c (Proc.devRef .tc main_v138)) (m ((c : Thread nD τ).loc main_arg2)) (m ((c : Thread nD τ).loc main_arg15)) (m ((c : Thread nD τ).loc main_arg16)) := by
  show StableHlo.after hostOps3 (W6 m ρ c) (Proc.devRef .tc main_v154) = _
  after_results_simp
  rw [W6_main_arg2 m ρ c, W6_main_arg15 m ρ c, W6_main_arg16 m ρ c]
  rfl
/-- The second result: the other head on the same output. -/
theorem out1_eq (c : Dev nD) : W7 m ρ c (Proc.devRef .tc main_v158)
    = Cert.Gin.Host.headOf (F := Ideal) (W6 m ρ c (Proc.devRef .tc main_v138)) (m ((c : Thread nD τ).loc main_arg2)) (m ((c : Thread nD τ).loc main_arg17)) (m ((c : Thread nD τ).loc main_arg18)) := by
  show StableHlo.after hostOps3 (W6 m ρ c) (Proc.devRef .tc main_v158) = _
  after_results_simp
  rw [W6_main_arg2 m ρ c, W6_main_arg17 m ρ c, W6_main_arg18 m ρ c]
  rfl

end Cert.Gin.Chain

end
-- ==== Proof.GinBridge.lean ====
/-
  The two spellings of a layer are one function of the arrays.

  Read at node r and column c, the host's layer is the two-stage row of node r in the quotient spelling: each of its
  two products contributes the sum over the contracted coordinate of row r times a column of the weight matrix, and
  each [64] parameter vector, made [1, 64] and then [100000, 64] by two broadcasts, contributes its entry c. The
  kernel's layer is, by definition, the two-stage row of node r in the reciprocal-root spelling, its [1, 64] parameter
  rows being the same [64] vectors with a unit axis added in front. The two rows agree when both variance vectors
  hold non-negative real numbers.
-/
import proofs.«113432_j76991583748727_1_alg».proof.Proof.GinHost
import proofs.«113432_j76991583748727_1_alg».proof.Proof.GinStage
import Idealize.ShloMosaic.Lib.ValueLayout

set_option maxRecDepth 16384

noncomputable section

open scoped BigOperators

namespace Cert.Gin.Bridge

open Cert.ReferenceIdeal Cert.ReferenceIdeal.Gen Cert.Gin Cert.Gin.Host
open Idealize.ShloMosaic Idealize.ShloMosaic.ValueIdx

/-- The host's layer at node r, column c. -/
theorem layerR_apply (h a : FVec Ideal S100000x64 .f32) (W1 : FVec Ideal S64x64 .f32) (b1 g1 be1 m1 v1 : FVec Ideal S64 .f32)
    (W2 : FVec Ideal S64x64 .f32) (b2 g2 be2 m2 v2 : FVec Ideal S64 .f32) (r : Fin 100000) (c : Fin 64) :
    layerR (F := Ideal) h a W1 b1 g1 be1 m1 v1 W2 b2 g2 be2 m2 v2 (ix2 r c)
      = rowR (fun k => h (ix2 r k)) (fun k => a (ix2 r k)) (fun k c => W1 (ix2 k c))
          (fun c => b1 (ix1 c)) (fun c => g1 (ix1 c)) (fun c => be1 (ix1 c)) (fun c => m1 (ix1 c)) (fun c => v1 (ix1 c))
          (fun k c => W2 (ix2 k c))
          (fun c => b2 (ix1 c)) (fun c => g2 (ix1 c)) (fun c => be2 (ix1 c)) (fun c => m2 (ix1 c)) (fun c => v2 (ix1 c)) c := by
  unfold layerR
  refine (host_stage_apply dot_S100000x64_S64x64_S100000x64_1_0_0_1_n_n rfl rfl rfl rfl rfl rfl _ W2 b2 m2 g2 v2 be2
    bcast_S64_S1x64_1 bcast_S1x64_S100000x64_0_1 bcast_S_S64 bcast_S_S100000x64 r c).trans ?_
  unfold rowR
  refine congrArg₂ (fun z W => stageR z W _ _ _ _ _ c) (funext fun k => ?_) rfl
  exact host_stage_apply dot_S100000x64_S64x64_S100000x64_1_0_0_1_n_n rfl rfl rfl rfl rfl rfl (addf h a) W1 b1 m1 g1 v1 be1
    bcast_S64_S1x64_1 bcast_S1x64_S100000x64_0_1 bcast_S_S64 bcast_S_S100000x64 r k

/-- A [64] vector of variances that are non-negative real numbers. -/
def NonnegVec (v : FVec Ideal S64 .f32) : Prop := NonnegReal fun c => v (ix1 c)

/-- The kernel's layer, its parameter rows the [64] vectors with a unit axis in front, is the host's layer. -/
theorem layer_eq (h a : FVec Ideal S100000x64 .f32) (W1 : FVec Ideal S64x64 .f32) (b1 g1 be1 m1 v1 : FVec Ideal S64 .f32)
    (W2 : FVec Ideal S64x64 .f32) (b2 g2 be2 m2 v2 : FVec Ideal S64 .f32) (hc : (⟨1, ![64]⟩ : Shape).ShapeCasts ⟨2, ![1, 64]⟩)
    (hv1 : NonnegVec v1) (hv2 : NonnegVec v2) :
    layerK (N := 100000) h a W1 (shapeCast ⟨2, ![1, 64]⟩ b1 hc) (shapeCast ⟨2, ![1, 64]⟩ g1 hc) (shapeCast ⟨2, ![1, 64]⟩ be1 hc)
        (shapeCast ⟨2, ![1, 64]⟩ m1 hc) (shapeCast ⟨2, ![1, 64]⟩ v1 hc) W2 (shapeCast ⟨2, ![1, 64]⟩ b2 hc)
        (shapeCast ⟨2, ![1, 64]⟩ g2 hc) (shapeCast ⟨2, ![1, 64]⟩ be2 hc) (shapeCast ⟨2, ![1, 64]⟩ m2 hc) (shapeCast ⟨2, ![1, 64]⟩ v2 hc)
      = layerR (F := Ideal) h a W1 b1 g1 be1 m1 v1 W2 b2 g2 be2 m2 v2 := by
  funext i
  obtain ⟨r, c, rfl⟩ : ∃ (r : Fin 100000) (c : Fin 64), i = ix2 r c := ⟨i 0, i 1, eq_ix2 i⟩
  rw [layerR_apply]
  unfold layerK
  simp only [shapeCast_a_1a_apply]
  exact row_eq _ _ _ _ _ _ _ _ _ _ _ _ _ _ hv1 hv2 c

end Cert.Gin.Bridge

end
-- ==== Proof.GinPre.lean ====
/-
  What the precondition gives the proof: every entry of the two stacked variance arrays is ≥ 0.

  The precondition is a conjunction of nineteen "all entries satisfy …" tests, each an and-reduction of a 0/1 mask
  into a single word, combined by "and" from left to right; it holds when the combined word is 1. The last two tests
  are "σ² ≥ 0" on the first- and on the second-stage variance array, so they are the two outermost conjuncts. A
  conjunction equal to 1 has both halves equal to 1; an and-reduction equal to 1 had a 1 at every entry; and the mask's
  entry at an index is 1 exactly when 0 ≤ the variance at that index (the comparison is the order of the extended
  reals, and the compared constant is the zero word, which denotes 0).
-/
import proofs.«113432_j76991583748727_1_alg».proof.Defs
import proofs.«113432_j76991583748727_1_alg».proof.Proof.Gen.KernelIdeal
import proofs.«113432_j76991583748727_1_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.Gin.Pre

open Idealize.ShloMosaic Idealize.ShloMosaic.TcCoe Idealize.SL.Sem Idealize.ShloMosaic.ValueIdx
open Cert.KernelIdeal

/-- A "≥ 0" comparison word equal to 1 says the compared number is ≥ 0. -/
theorem nonneg_of_cmp {x : EReal} (h : Ideal.cmp .oge x 0 = 1#1) : 0 ≤ x := by
  by_contra hn
  have e : Ideal.cmp .oge x 0 = 0#1 := by unfold Ideal.cmp; simp [hn]
  rw [e] at h
  exact absurd h (by decide)

/-- Under the precondition both stacked variance arrays are entrywise ≥ 0. -/
theorem variances_nonneg (m : (ℓ : Loc nD τ sig) → Buf (Elt Ideal) ℓ) (h : Cert.Pre_KernelIdeal m) (c : Dev nD) :
    (∀ i : S3x64.Idx, (0 : EReal) ≤ m ((c.tc : Thread nD τ).loc main_arg8) i)
      ∧ (∀ i : S3x64.Idx, (0 : EReal) ≤ m ((c.tc : Thread nD τ).loc main_arg14) i) := by
  have e := congrFun (h c) ValueIdx.ix0
  unfold Cert.Pre_finite_inputs.fn at e
  dsimp only at e
  unfold Cert.Pre_finite_inputs.fn_part1 at e
  dsimp only at e
  unfold Cert.Pre_finite_inputs.fn_part2 at e
  dsimp only at e
  unfold Cert.Pre_finite_inputs.fn_part3 at e
  dsimp only at e
  unfold Cert.Pre_finite_inputs.fn_part4 at e
  dsimp only at e
  unfold Cert.Pre_finite_inputs.fn_part5 at e
  dsimp only at e
  obtain ⟨e87, e90⟩ := IntOp.andi_eq_one.mp e
  obtain ⟨e83, e86⟩ := IntOp.andi_eq_one.mp e87
  clear e e87 e83
  haveI : Subsingleton Cert.Pre_finite_inputs.S_.Idx := ⟨fun a b => funext fun d => d.elim0⟩
  refine ⟨fun i => ?_, fun i => ?_⟩
  · have t := Host.reduce_andi_all _ _ _ _ ix0 e86 i
    change Ideal.cmp .oge (m ((c.tc : Thread nD τ).loc main_arg8) i) (Ideal.ofBits .f32 0x00000000#32) = 1#1 at t
    rw [Ideal.ofBits_zero_f32] at t
    exact nonneg_of_cmp t
  · have t := Host.reduce_andi_all _ _ _ _ ix0 e90 i
    change Ideal.cmp .oge (m ((c.tc : Thread nD τ).loc main_arg14) i) (Ideal.ofBits .f32 0x00000000#32) = 1#1 at t
    rw [Ideal.ofBits_zero_f32] at t
    exact nonneg_of_cmp t

end Cert.Gin.Pre

end
-- ==== Proof.GinFinal.lean ====
/-
  The program's two results are the network's two heads of the arguments.

  Layer by layer: a region's output array is the kernel's layer of what its windows' arrays held on entry; with the
  parameter rows being the sliced vectors with a unit axis in front, and the layer's two variance vectors entrywise
  ≥ 0 (they are slices of arrays the precondition makes entrywise ≥ 0), that is the host's layer of the same arrays,
  which is the network's next layer by definition. After three layers the closing stretch's heads are the network's
  two results.
-/
import proofs.«113432_j76991583748727_1_alg».proof.Proof.GinChain
import proofs.«113432_j76991583748727_1_alg».proof.Proof.GinBridge
import proofs.«113432_j76991583748727_1_alg».proof.Proof.GinPre

set_option maxRecDepth 16384

noncomputable section

namespace Cert.Gin.Final

open Cert.KernelIdeal Cert.KernelIdeal.Gen Cert.Gin Cert.Gin.Chain Cert.Gin.Bridge Cert.Gin.Pre
open Idealize.ShloMosaic Idealize.ShloMosaic.TcCoe Idealize.ShloMosaic.ValueIdx Idealize.SL.Sem

theorem nn0 (m : (ℓ : Loc nD τ sig) → Buf (Elt Ideal) ℓ) (h : Cert.Pre_KernelIdeal m) (c : Dev nD) :
    NonnegVec (Cert.Gin.Host.vecOf0 (F := Ideal) (m ((c.tc : Thread nD τ).loc main_arg8))) :=
  fun q => Cert.Gin.Host.vecOf0_nonneg _ (variances_nonneg m h c).1 q

theorem nn1 (m : (ℓ : Loc nD τ sig) → Buf (Elt Ideal) ℓ) (h : Cert.Pre_KernelIdeal m) (c : Dev nD) :
    NonnegVec (Cert.Gin.Host.vecOf0 (F := Ideal) (m ((c.tc : Thread nD τ).loc main_arg14))) :=
  fun q => Cert.Gin.Host.vecOf0_nonneg _ (variances_nonneg m h c).2 q

theorem nn2 (m : (ℓ : Loc nD τ sig) → Buf (Elt Ideal) ℓ) (h : Cert.Pre_KernelIdeal m) (c : Dev nD) :
    NonnegVec (Cert.Gin.Host.vecOf1 (F := Ideal) (m ((c.tc : Thread nD τ).loc main_arg8))) :=
  fun q => Cert.Gin.Host.vecOf1_nonneg _ (variances_nonneg m h c).1 q

theorem nn3 (m : (ℓ : Loc nD τ sig) → Buf (Elt Ideal) ℓ) (h : Cert.Pre_KernelIdeal m) (c : Dev nD) :
    NonnegVec (Cert.Gin.Host.vecOf1 (F := Ideal) (m ((c.tc : Thread nD τ).loc main_arg14))) :=
  fun q => Cert.Gin.Host.vecOf1_nonneg _ (variances_nonneg m h c).2 q

theorem nn4 (m : (ℓ : Loc nD τ sig) → Buf (Elt Ideal) ℓ) (h : Cert.Pre_KernelIdeal m) (c : Dev nD) :
    NonnegVec (Cert.Gin.Host.vecOf2 (F := Ideal) (m ((c.tc : Thread nD τ).loc main_arg8))) :=
  fun q => Cert.Gin.Host.vecOf2_nonneg _ (variances_nonneg m h c).1 q

theorem nn5 (m : (ℓ : Loc nD τ sig) → Buf (Elt Ideal) ℓ) (h : Cert.Pre_KernelIdeal m) (c : Dev nD) :
    NonnegVec (Cert.Gin.Host.vecOf2 (F := Ideal) (m ((c.tc : Thread nD τ).loc main_arg14))) :=
  fun q => Cert.Gin.Host.vecOf2_nonneg _ (variances_nonneg m h c).2 q

variable (m : (ℓ : Loc nD τ sig) → Buf (Elt Ideal) ℓ) (ρ : Dev nD → PrngReg)

/-- Region 0's output array is layer 1 of the network on the arguments. -/
theorem k1 (h : Cert.Pre_KernelIdeal m) (c : Dev nD) :
    W2 m ρ c (Proc.devRef .tc main_v48) = Cert.Gin.Host.refH1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [K1_eq]
  unfold Cert.Gin.Host.refH1
  exact layer_eq _ _ _ _ _ _ _ _ _ _ _ _ _ _ shapeCasts_S64_S1x64 (nn0 m h c) (nn1 m h c)

/-- Region 1's output array is layer 2 of the network on the arguments. -/
theorem k2 (h : Cert.Pre_KernelIdeal m) (c : Dev nD) :
    W4 m ρ c (Proc.devRef .tc main_v93) = Cert.Gin.Host.refH2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [K2_eq, k1 m ρ h c]
  unfold Cert.Gin.Host.refH2
  exact layer_eq _ _ _ _ _ _ _ _ _ _ _ _ _ _ shapeCasts_S64_S1x64 (nn2 m h c) (nn3 m h c)

/-- Region 2's output array is layer 3 of the network on the arguments. -/
theorem k3 (h : Cert.Pre_KernelIdeal m) (c : Dev nD) :
    W6 m ρ c (Proc.devRef .tc main_v138) = Cert.Gin.Host.refH3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [K3_eq, k2 m ρ h c]
  unfold Cert.Gin.Host.refH3
  exact layer_eq _ _ _ _ _ _ _ _ _ _ _ _ _ _ shapeCasts_S64_S1x64 (nn4 m h c) (nn5 m h c)

/-- The first result is the network's first head of the arguments. -/
theorem out0 (h : Cert.Pre_KernelIdeal m) (c : Dev nD) :
    W7 m ρ c (Proc.devRef .tc main_v154) = Cert.Gin.Host.refOut (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg2)) (m ((c.tc : Thread nD τ).loc main_arg15)) (m ((c.tc : Thread nD τ).loc main_arg16)) := by
  rw [out0_eq, k3 m ρ h c]
  rfl

/-- The second result is the network's second head of the arguments. -/
theorem out1 (h : Cert.Pre_KernelIdeal m) (c : Dev nD) :
    W7 m ρ c (Proc.devRef .tc main_v158) = Cert.Gin.Host.refOut (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg2)) (m ((c.tc : Thread nD τ).loc main_arg17)) (m ((c.tc : Thread nD τ).loc main_arg18)) := by
  rw [out1_eq, k3 m ρ h c]
  rfl

end Cert.Gin.Final

end
-- ==== Proof.lean ====
/-
  The certificate: a three-layer graph-isomorphism network over 100000 nodes and 1600000 edges, its per-layer dense
  part (linear map, batch normalisation, rectifier, twice) run by a kernel over blocks of 5000 node rows, against the
  same network written with whole-array operations.

  The two programs share the irregular parts verbatim — the per-layer neighbourhood sum along the edge list, and the
  closing per-graph mean with its two linear heads — and differ in the dense part in three ways, none of which is a
  difference of values on the extended reals: the kernel's products are taken tile by tile on operands narrowed to a
  shorter float format (a change of format is the identity on the exact values, and a row of a product depends on
  that row alone); the parameter vectors reach the kernel as [1, 64] rows rather than [64] vectors; and the batch
  normalisation's scale is γ · rsqrt(σ² + ε) in the kernel and γ / sqrt(σ² + ε) in the reference. The last two agree
  where σ² + ε is a positive real or +∞, which the precondition's "σ² ≥ 0" on the two variance arrays provides; for a
  negative σ² + ε the reference itself takes the square root of a negative number.

  The kernel's frames are the generated ones and the reference's is its run with the results dropped; the ideal pass
  rewrote nothing, so the kernel is its own idealization; and the two results are, on both sides, the network's two
  heads of the argument arrays, which the two memories agree on.
-/
import proofs.«113432_j76991583748727_1_alg».proof.Defs
import proofs.«113432_j76991583748727_1_alg».proof.Proof.Gen.Kernel
import proofs.«113432_j76991583748727_1_alg».proof.Proof.Gen.Kernel.Skeleton
import proofs.«113432_j76991583748727_1_alg».proof.Proof.Gen.Kernel.Launch
import proofs.«113432_j76991583748727_1_alg».proof.Proof.Gen.Kernel.Points
import proofs.«113432_j76991583748727_1_alg».proof.Proof.Gen.Kernel.Frame
import proofs.«113432_j76991583748727_1_alg».proof.Proof.Gen.KernelIdeal
import proofs.«113432_j76991583748727_1_alg».proof.Proof.Gen.KernelIdeal.Skeleton
import proofs.«113432_j76991583748727_1_alg».proof.Proof.Gen.KernelIdeal.Launch
import proofs.«113432_j76991583748727_1_alg».proof.Proof.Gen.KernelIdeal.Points
import proofs.«113432_j76991583748727_1_alg».proof.Proof.Gen.KernelIdeal.Frame
import proofs.«113432_j76991583748727_1_alg».proof.Proof.Gen.ReferenceIdeal
import proofs.«113432_j76991583748727_1_alg».proof.Proof.Gen.Pre_finite_inputs
import proofs.«113432_j76991583748727_1_alg».proof.Proof.GinRefRun
import proofs.«113432_j76991583748727_1_alg».proof.Proof.GinKernelRun
import proofs.«113432_j76991583748727_1_alg».proof.Proof.GinFinal
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.Gin.RefRun.run (F := Ideal) m ρ)

/-- Both programs end with each result at the network's head of the argument arrays. -/
theorem algebraic : Cert.algebraic_KernelIdeal_ReferenceIdeal := by
  intro m ρ m' ρ' hpre hagree
  refine ⟨fun c => Cert.Gin.Host.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg2)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.Gin.Host.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg2)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.Gin.Final.out0 m ρ hpre c), (h c).2.1.trans (Cert.Gin.Final.out1 m ρ hpre c), (h c).2.2⟩)
      (Cert.Gin.KernelRun.run (F := Ideal) m ρ)
  · refine (θ_run Cert.ReferenceIdeal.defs _ _).mono (fun r h c => ⟨(h c).1.trans ?_, (h c).2.1.trans ?_, (h c).2.2⟩)
      (Cert.Gin.RefRun.run (F := Ideal) m' ρ')
    · obtain ⟨a0, a1, a2, a3, a4, a5, a6, a7, a8, a9, a10, a11, a12, a13, a14, a15, a16, a17, a18⟩ := hagree c
      simp only [a0, a1, a2, a3, a4, a5, a6, a7, a8, a9, a10, a11, a12, a13, a14, a15, a16]
    · obtain ⟨a0, a1, a2, a3, a4, a5, a6, a7, a8, a9, a10, a11, a12, a13, a14, a15, a16, a17, a18⟩ := hagree c
      simp only [a0, a1, a2, a3, a4, a5, a6, a7, a8, a9, a10, a11, a12, a13, a14, a17, a18]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
